-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S256x4096 : Shape := ⟨2, ![256, 4096]⟩
abbrev S4096x256 : Shape := ⟨2, ![4096, 256]⟩
abbrev S256 : Shape := ⟨1, ![256]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S256x4096 : S_.BroadcastsInDim S256x4096 (![] : Fin 0 → Fin S256x4096.rank)
  reducesTo_S256x4096_S_d0_1 : S256x4096.ReducesTo [0, 1] S_
  bcast_S_S4096x256 : S_.BroadcastsInDim S4096x256 (![] : Fin 0 → Fin S4096x256.rank)
  reducesTo_S4096x256_S_d0_1 : S4096x256.ReducesTo [0, 1] S_
  bcast_S_S256 : S_.BroadcastsInDim S256 (![] : Fin 0 → Fin S256.rank)
  reducesTo_S256_S_d0 : S256.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S256 .f32) (main_arg5 : FVec F S4096 .f32) (main_v13 : IVec S_ 1) (main_v16 : IVec S4096x256 1) : IVec S_ 1 :=
  let main_c_5 : IVec S_ 1 := constantI S_ 1 1#1
  let main_v17 : IVec S_ 1 := (fun x v => Host.reduce IntOp.andi x v reducesTo_S4096x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S4x2048x4096 .f32) (main_arg1 : FVec F S4096x4096 .f32) (main_arg2 : FVec F S256x4096 .f32) (main_arg3 : FVec F S4096x256 .f32) (main_arg4 : FVec F S256 .f32) (main_arg5 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S256x4096 .f32 := Host.absf main_arg2
  let main_cst_2 : FVec F S_ .f32 := constant S_ .f32 0x7F800000#32
  let main_v10 : FVec F S256x4096 .f32 := broadcastInDim S256x4096 ![] bcast_S_S256x4096 main_cst_2
  let main_v11 : IVec S256x4096 1 := cmpf .olt main_v9 main_v10
  let main_c_3 : IVec S_ 1 := constantI S_ 1 1#1
  let main_v12 : IVec S_ 1 := (fun x v => Host.reduce IntOp.andi x v reducesTo_S256x4096_S_d0_1 h_S_) main_v11 main_c_3
  let main_v13 : IVec S_ 1 := andi main_v8 main_v12
  let main_v14 : FVec F S4096x256 .f32 := Host.absf main_arg3
  let main_cst_4 : FVec F S_ .f32 := constant S_ .f32 0x7F800000#32
  let main_v15 : FVec F S4096x256 .f32 := broadcastInDim S4096x256 ![] bcast_S_S4096x256 main_cst_4
  let main_v16 : IVec S4096x256 1 := cmpf .olt main_v14 main_v15
  fn_part1 (F := F) main_arg4 main_arg5 main_v13 main_v16
-- ==== Kernel.lean ====
abbrev S4x2048x4096 : Shape := ⟨3, ![4, 2048, 4096]⟩
abbrev S4096x4096 : Shape := ⟨2, ![4096, 4096]⟩
abbrev S256x4096 : Shape := ⟨2, ![256, 4096]⟩
abbrev S4096x256 : Shape := ⟨2, ![4096, 256]⟩
abbrev S256 : Shape := ⟨1, ![256]⟩
abbrev S4096 : Shape := ⟨1, ![4096]⟩
abbrev S8192x4096 : Shape := ⟨2, ![8192, 4096]⟩
abbrev S1x256 : Shape := ⟨2, ![1, 256]⟩
abbrev S1x4096 : Shape := ⟨2, ![1, 4096]⟩
abbrev S512x4096 : Shape := ⟨2, ![512, 4096]⟩
abbrev S512x256 : Shape := ⟨2, ![512, 256]⟩
abbrev S8192x256 : Shape := ⟨2, ![8192, 256]⟩
abbrev S2048x1024 : Shape := ⟨2, ![2048, 1024]⟩
abbrev S1024x1024 : Shape := ⟨2, ![1024, 1024]⟩
abbrev S2048x256 : Shape := ⟨2, ![2048, 256]⟩
abbrev S1024x256 : Shape := ⟨2, ![1024, 256]⟩
abbrev S1x1024 : Shape := ⟨2, ![1, 1024]⟩

abbrev nBuf : Space → Nat
  | .hbm => 15
  | .vmem => 29
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S256x4096, .f32⟩
  | .hbm, ⟨3, _⟩ => ⟨S4096x256, .f32⟩
  | .hbm, ⟨4, _⟩ => ⟨S256, .f32⟩
  | .hbm, ⟨5, _⟩ => ⟨S4096, .f32⟩
  | .hbm, ⟨6, _⟩ => ⟨S8192x4096, .f32⟩
  | .hbm, ⟨7, _⟩ => ⟨S1x256, .f32⟩
  | .hbm, ⟨8, _⟩ => ⟨S1x4096, .f32⟩
  | .hbm, ⟨9, _⟩ => ⟨S4096x4096, .bf16⟩
  | .hbm, ⟨10, _⟩ => ⟨S4096x256, .bf16⟩
  | .hbm, ⟨11, _⟩ => ⟨S8192x256, .bf16⟩
  | .hbm, ⟨12, _⟩ => ⟨S8192x4096, .bf16⟩
  | .hbm, ⟨13, _⟩ => ⟨S8192x4096, .f32⟩
  | .hbm, ⟨14, _⟩ => ⟨S4x2048x4096, .f32⟩
  | .local _ .vmem, ⟨0, _⟩ => ⟨S512x4096, .f32⟩
  | .local _ .vmem, ⟨1, _⟩ => ⟨S512x4096, .f32⟩
  | .local _ .vmem, ⟨2, _⟩ => ⟨S512x256, .f32⟩
  | .local _ .vmem, ⟨3, _⟩ => ⟨S512x256, .f32⟩
  | .local _ .vmem, ⟨4, _⟩ => ⟨S512x4096, .bf16⟩
  | .local _ .vmem, ⟨5, _⟩ => ⟨S512x4096, .bf16⟩
  | .local _ .vmem, ⟨6, _⟩ => ⟨S512x256, .bf16⟩
  | .local _ .vmem, ⟨7, _⟩ => ⟨S512x256, .bf16⟩
  | .local _ .vmem, ⟨8, _⟩ => ⟨S512x4096, .f32⟩
  | .local _ .vmem, ⟨9, _⟩ => ⟨S512x4096, .f32⟩
  | .local _ .vmem, ⟨10, _⟩ => ⟨S256x4096, .f32⟩
  | .local _ .vmem, ⟨11, _⟩ => ⟨S1x256, .f32⟩
  | .local _ .vmem, ⟨12, _⟩ => ⟨S512x256, .bf16⟩
  | .local _ .vmem, ⟨13, _⟩ => ⟨S512x256, .bf16⟩
  | .local _ .vmem, ⟨14, _⟩ => ⟨S512x4096, .bf16⟩
  | .local _ .vmem, ⟨15, _⟩ => ⟨S512x4096, .bf16⟩
  | .local _ .vmem, ⟨16, _⟩ => ⟨S2048x1024, .bf16⟩
  | .local _ .vmem, ⟨17, _⟩ => ⟨S2048x1024, .bf16⟩
  | .local _ .vmem, ⟨18, _⟩ => ⟨S1024x1024, .bf16⟩
  | .local _ .vmem, ⟨19, _⟩ => ⟨S1024x1024, .bf16⟩
  | .local _ .vmem, ⟨20, _⟩ => ⟨S2048x256, .bf16⟩
  | .local _ .vmem, ⟨21, _⟩ => ⟨S2048x256, .bf16⟩
  | .local _ .vmem, ⟨22, _⟩ => ⟨S1024x256, .bf16⟩
  | .local _ .vmem, ⟨23, _⟩ => ⟨S1024x256, .bf16⟩
  | .local _ .vmem, ⟨24, _⟩ => ⟨S1x1024, .f32⟩
  | .local _ .vmem, ⟨25, _⟩ => ⟨S1x1024, .f32⟩
  | .local _ .vmem, ⟨26, _⟩ => ⟨S2048x1024, .f32⟩
  | .local _ .vmem, ⟨27, _⟩ => ⟨S2048x1024, .f32⟩
  | .local _ .vmem, ⟨28, _⟩ => ⟨S2048x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v4_0 : Ref sig .tc := ⟨.hbm, 11, rfl⟩
abbrev main_v4_1 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg5_1 : Ref sig .tc := ⟨.vmem, 27, rfl⟩
abbrev cc2_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem4_1 : DmaSem sig := 25
abbrev cc2_sem5_0 : DmaSem sig := 26
abbrev cc2_sem5_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x4096 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨3, ![4, 4, 4], ![false, false, false]⟩

def k2_cond2 (i : grid2.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S2048x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false, false]

abbrev stage2_3 : Fin 2 → Memref sig .tc .vmem S1024x256 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true, false]

abbrev stage2_4 : Fin 2 → Memref sig .tc .vmem S1x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true, false]

abbrev stage2_5 : Fin 2 → Memref sig .tc .vmem S2048x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true, false]

class Facts₀ : Prop where
  shapeCasts_S4x2048x4096_S8192x4096 : S4x2048x4096.ShapeCasts S8192x4096
  shapeCasts_S256_S1x256 : S256.ShapeCasts S1x256
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  packedbf16_S512x4096_S512x4096_0_0 : (Rect.unit (s := S512x4096) ![0, 0] S512x4096.size inb_S512x4096_S512x4096_0_0).PackedRows (EltTy.packing .bf16)
  inb_S512x256_S512x256_0_0 : ∀ a, (![0, 0] : Fin 2 → Nat) a + S512x256.size a ≤ S512x256.size a
  h_S512x256 : 0 < S512x256.numel
  packedbf16_S512x256_S512x256_0_0 : (Rect.unit (s := S512x256) ![0, 0] S512x256.size inb_S512x256_S512x256_0_0).PackedRows (EltTy.packing .bf16)
  shapeCasts_S512x4096_S512x4096 : S512x4096.ShapeCasts S512x4096
  inb_S256x4096_S256x4096_0_0 : ∀ a, (![0, 0] : Fin 2 → Nat) a + S256x4096.size a ≤ S256x4096.size a
  h_S256x4096 : 0 < S256x4096.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S8192x4096_S4x2048x4096 : S8192x4096.ShapeCasts S4x2048x4096
  dot_S512x4096_S256x4096_S512x256_1_1_0_0_n_n_wf : DotDims.WF S512x4096 S256x4096 S512x256 [1] [1] [0] [0] [] []
  dot_S2048x256_S1024x256_S2048x1024_1_1_0_0_n_n_wf : DotDims.WF S2048x256 S1024x256 S2048x1024 [1] [1] [0] [0] [] []
  dot_S2048x1024_S1024x1024_S2048x1024_1_1_0_0_n_n_wf : DotDims.WF S2048x1024 S1024x1024 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S4096x256.size a
  hwx0_1 : ∀ i : grid0.Coords, EltTy.bits .f32 = 32 ∨ (Rect.block (s := S4096x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S4096x4096.size a
  hwx0_2 : ∀ i : grid0.Coords, EltTy.bits .bf16 = 32 ∨ (Rect.block (s := S4096x4096) S512x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S4096x256.size a
  hwx0_3 : ∀ i : grid0.Coords, EltTy.bits .bf16 = 32 ∨ (Rect.block (s := S4096x256) S512x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S8192x4096.size a
  hwx1_0 : ∀ i : grid1.Coords, EltTy.bits .f32 = 32 ∨ (Rect.block (s := S8192x4096) S512x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S256x4096.size a
  hwx1_1 : ∀ i : grid1.Coords, EltTy.bits .f32 = 32 ∨ (Rect.block (s := S256x4096) S256x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x256.size a ≤ S8192x256.size a
  hwx1_3 : ∀ i : grid1.Coords, EltTy.bits .bf16 = 32 ∨ (Rect.block (s := S8192x256) S512x256.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x4096.size a ≤ S8192x4096.size a
  hwx1_4 : ∀ i : grid1.Coords, EltTy.bits .bf16 = 32 ∨ (Rect.block (s := S8192x4096) S512x4096.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x1024.size a ≤ S8192x4096.size a
  hwx2_0 : ∀ i : grid2.Coords, EltTy.bits .bf16 = 32 ∨ (Rect.block (s := S8192x4096) S2048x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S4096x4096.size a
  hwx2_1 : ∀ i : grid2.Coords, EltTy.bits .bf16 = 32 ∨ (Rect.block (s := S4096x4096) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x256.size a ≤ S8192x256.size a
  hwx2_2 : ∀ i : grid2.Coords, EltTy.bits .bf16 = 32 ∨ (Rect.block (s := S8192x256) S2048x256.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x256.size a ≤ S4096x256.size a
  hwx2_3 : ∀ i : grid2.Coords, EltTy.bits .bf16 = 32 ∨ (Rect.block (s := S4096x256) S1024x256.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1024.size a ≤ S1x4096.size a
  hwx2_4 : ∀ i : grid2.Coords, EltTy.bits .f32 = 32 ∨ (Rect.block (s := S1x4096) S1x1024.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2048x1024.size a ≤ S8192x4096.size a
  hwx2_5 : ∀ i : grid2.Coords, EltTy.bits .f32 = 32 ∨ (Rect.block (s := S8192x4096) S2048x1024.size (cc2_transform_5 i) (hinb2_5 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf
def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf
def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3_0) S512x4096.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_1) S512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S256x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4_0) S512x256.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4_1) S512x4096.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v4_1) S2048x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3_0) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4_0) S2048x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v3_1) S1024x256.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v2) S1x1024.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v5) S2048x1024.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S256x4096 : Shape := ⟨2, ![256, 4096]⟩
abbrev S4096x256 : Shape := ⟨2, ![4096, 256]⟩
abbrev S256 : Shape := ⟨1, ![256]⟩
abbrev S4096 : Shape := ⟨1, ![4096]⟩
abbrev S4x2048x256 : Shape := ⟨3, ![4, 2048, 256]⟩
abbrev S1x1x256 : Shape := ⟨3, ![1, 1, 256]⟩
abbrev S1x1x4096 : Shape := ⟨3, ![1, 1, 4096]⟩

abbrev nBuf : Space → Nat
  | .hbm => 16
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S256x4096, .f32⟩
  | .hbm, ⟨3, _⟩ => ⟨S4096x256, .f32⟩
  | .hbm, ⟨4, _⟩ => ⟨S256, .f32⟩
  | .hbm, ⟨5, _⟩ => ⟨S4096, .f32⟩
  | .hbm, ⟨6, _⟩ => ⟨S4x2048x4096, .f32⟩
  | .hbm, ⟨7, _⟩ => ⟨S4x2048x256, .f32⟩
  | .hbm, ⟨8, _⟩ => ⟨S1x1x256, .f32⟩
  | .hbm, ⟨9, _⟩ => ⟨S4x2048x256, .f32⟩
  | .hbm, ⟨10, _⟩ => ⟨S4x2048x256, .f32⟩
  | .hbm, ⟨11, _⟩ => ⟨S4x2048x4096, .f32⟩
  | .hbm, ⟨12, _⟩ => ⟨S1x1x4096, .f32⟩
  | .hbm, ⟨13, _⟩ => ⟨S4x2048x4096, .f32⟩
  | .hbm, ⟨14, _⟩ => ⟨S4x2048x4096, .f32⟩
  | .hbm, ⟨15, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S4x2048x256_0_1_2 : S1x1x256.BroadcastsInDim S4x2048x256 (![0, 1, 2] : Fin 3 → Fin S4x2048x256.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S256x4096_S4x2048x256_2_1_01_0_n_n_wf : DotDims.WF S4x2048x4096 S256x4096 S4x2048x256 [2] [1] [0, 1] [0] [] []
  dot_S4x2048x256_S4096x256_S4x2048x4096_2_1_01_0_n_n_wf : DotDims.WF S4x2048x256 S4096x256 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S256x4096_S4x2048x256_2_1_01_0_n_n : DotDims S4x2048x4096 S256x4096 S4x2048x256 where
  lhsContracting := [2]
  rhsContracting := [1]
  lhsNonContracting := [0, 1]
  rhsNonContracting := [0]
  lhsBatch := []
  rhsBatch := []
  wf := dot_S4x2048x4096_S256x4096_S4x2048x256_2_1_01_0_n_n_wf
def dot_S4x2048x256_S4096x256_S4x2048x4096_2_1_01_0_n_n : DotDims S4x2048x256 S4096x256 S4x2048x4096 where
  lhsContracting := [2]
  rhsContracting := [1]
  lhsNonContracting := [0, 1]
  rhsNonContracting := [0]
  lhsBatch := []
  rhsBatch := []
  wf := dot_S4x2048x256_S4096x256_S4x2048x4096_2_1_01_0_n_n_wf

class Facts : Prop extends Facts₀ where

variable [Facts]
-- ==== Proof.K.R0.lean ====
/-
  The first kernel region: the weight matrix [4096, 4096] and the adapter's output matrix [4096, 256] are each
  converted to the narrower float format, eight row blocks of 512 rows, one block per grid point. Point `t` reads
  rows 512 t … 512 t + 511 of both matrices and writes the converted rows to the same rows of the two results; nothing
  is kept between points. Stated at a parameter `V`: what the core's buffers hold when the region is entered.
-/
import proofs.«165809_j40355512714085_2_alg».proof.Proof.Gen.Kernel.Launch
import proofs.«165809_j40355512714085_2_alg».proof.Proof.Gen.Kernel.Skeleton
import proofs.«165809_j40355512714085_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks -/

/-- Block `t` of window `w`'s array, as the region finds the array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The weight matrix's staging buffer holds its row block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The adapter matrix's staging buffer holds its row block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the body writes -/

/-- The whole [512, 4096] block and the whole [512, 256] block, as rectangles. -/
abbrev wholeW : Rect S512x4096 := Rect.unit (s := S512x4096) ![0, 0] S512x4096.size inb_S512x4096_S512x4096_0_0
abbrev wholeB : Rect S512x256 := Rect.unit (s := S512x256) ![0, 0] S512x256.size inb_S512x256_S512x256_0_0

/-- The converted weight block: one store of the whole block, the conversion of the block read. -/
def out0_2 (x0 : Vec F S512x4096 .f32) : Vec F S512x4096 .bf16 :=
  View.canon [⟨wholeW, k0_pay1 (View.ld x0 wholeW)⟩]

/-- The converted adapter block. -/
def out0_3 (x1 : Vec F S512x256 .f32) : Vec F S512x256 .bf16 :=
  View.canon [⟨wholeB, k0_pay2 (View.ld x1 wholeB)⟩]

theorem cover0_2 (p0 : Vec F S512x4096 .bf16) (y : S512x4096.Idx) :
    ∃ pc ∈ ([⟨wholeW, p0⟩] : List (View.Piece (Elt F) S512x4096 .bf16)), y ∈ pc.1.set :=
  View.cover_of_tiled [⟨wholeW, p0⟩] S512x4096.size (by rfl) y

theorem cover0_3 (p0 : Vec F S512x256 .bf16) (y : S512x256.Idx) :
    ∃ pc ∈ ([⟨wholeB, p0⟩] : List (View.Piece (Elt F) S512x256 .bf16)), y ∈ pc.1.set :=
  View.cover_of_tiled [⟨wholeB, p0⟩] S512x256.size (by rfl) y

/-! ## The body's triple -/

set_option maxHeartbeats 1000000 in
/-- On whole staging buffers, the two inputs' at contents `x0`, `x1` and the two outputs' at anything, the body runs to
    the continuation with the inputs as they were and each output at the conversion of its input. -/
theorem sound_kernel0 (c : Dev nD) (i : grid0.Coords) (E : Set ℕ)
    (arg1 : Memref sig .tc .vmem S512x4096 .f32) (harg1 : arg1.IsWhole) (arg2 : Memref sig .tc .vmem S512x256 .f32) (harg2 : arg2.IsWhole)
    (arg3 : Memref sig .tc .vmem S512x4096 .bf16) (harg3 : arg3.IsWhole) (arg4 : Memref sig .tc .vmem S512x256 .bf16) (harg4 : arg4.IsWhole)
    (x0 : Vec F S512x4096 .f32) (x1 : Vec F S512x256 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out0_2 x0) ∗ owns (c : Thread nD τ) arg4 fullShare (out0_3 x1)) -∗ K ⟨⟩))
      ⊢ wp frame (wpE (defs₀ (F := F)) Variants.none c none) E (cc0__cast_weights_kernel i arg1 harg1 arg2 harg2 arg3 harg3 arg4 harg4) K := by
  simp only [cc0__cast_weights_kernel_eq_skeleton]; unfold cc0__cast_weights_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  iexists _; isplitr
  swap; · iexact H3
  ipureintro
  exact View.read_writes_eq_canon _ _ _ (cover0_3 _)

/-! ## The proof data -/

/-- Region 0's proof data on core `c`: the arrays as the region finds them; after the body at point `t` each input's
    buffer still at its row block and each output's at the conversion of the input's row block; nothing kept between
    points beyond the scoped rest and the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t)
    | ⟨3, _⟩ => out0_3 (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) := by dsimp only [dat0]
theorem after0_3 (c : Dev nD) (t : Fin cfg0.N) : (dat0 V c).after 3 t = out0_3 (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their row blocks, so the triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c _ Set.univ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
/-
  The second kernel region: the activation [8192, 4096] in sixteen row blocks of 512 rows, one block per grid point.
  Point `t` reads rows 512 t … 512 t + 511 of the activation, the whole down-projection matrix [256, 4096] and the
  whole scaling row [1, 256] (both fetched once, at the first point), and writes the same rows of two results: the
  activation block converted to the narrower float format, and the block's rows multiplied against the rows of the
  down-projection matrix, scaled column by column, converted. Nothing is kept between points. Stated at a parameter
  `V`: what the core's buffers hold when the region is entered.
-/
import proofs.«165809_j40355512714085_2_alg».proof.Proof.Gen.Kernel.Launch
import proofs.«165809_j40355512714085_2_alg».proof.Proof.Gen.Kernel.Skeleton
import proofs.«165809_j40355512714085_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks -/

/-- Block `t` of window `w`'s array, as the region finds the array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activation's staging buffer holds its row block at every point (it is fetched at every point). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The down-projection matrix is one block, the whole array, fetched at the first point only: at a later point the
    block index has not moved and the body left the buffer as it found it, so the buffer holds the block still. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The scaling row [1, 256], likewise one block fetched once. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the body writes -/

/-- The whole [512, 4096], [256, 4096], [1, 256] and [512, 256] blocks, as rectangles. -/
abbrev wholeX : Rect S512x4096 := Rect.unit (s := S512x4096) ![0, 0] S512x4096.size inb_S512x4096_S512x4096_0_0
abbrev wholeA : Rect S256x4096 := Rect.unit (s := S256x4096) ![0, 0] S256x4096.size inb_S256x4096_S256x4096_0_0
abbrev wholeD : Rect S1x256 := Rect.unit (s := S1x256) ![0, 0] S1x256.size inb_S1x256_S1x256_0_0
abbrev wholeP : Rect S512x256 := Rect.unit (s := S512x256) ![0, 0] S512x256.size inb_S512x256_S512x256_0_0

/-- The converted activation block: one store of the whole block, the conversion of the block read. -/
def out1_4 (x0 : Vec F S512x4096 .f32) : Vec F S512x4096 .bf16 :=
  View.canon [⟨wholeX, k1_pay1 (View.ld x0 wholeX)⟩]

/-- The projected block: one store of the whole [512, 256] block, the rows of the activation block against the rows of
    the down-projection matrix, scaled column by column by the scaling row, converted. -/
def out1_3 (x0 : Vec F S512x4096 .f32) (x1 : Vec F S256x4096 .f32) (x2 : Vec F S1x256 .f32) : Vec F S512x256 .bf16 :=
  View.canon [⟨wholeP, k1_pay2 (View.ld x0 wholeX) (View.ld x1 wholeA) (View.ld x2 wholeD)⟩]

theorem cover1_4 (p0 : Vec F S512x4096 .bf16) (y : S512x4096.Idx) :
    ∃ pc ∈ ([⟨wholeX, p0⟩] : List (View.Piece (Elt F) S512x4096 .bf16)), y ∈ pc.1.set :=
  View.cover_of_tiled [⟨wholeX, p0⟩] S512x4096.size (by rfl) y

theorem cover1_3 (p0 : Vec F S512x256 .bf16) (y : S512x256.Idx) :
    ∃ pc ∈ ([⟨wholeP, p0⟩] : List (View.Piece (Elt F) S512x256 .bf16)), y ∈ pc.1.set :=
  View.cover_of_tiled [⟨wholeP, p0⟩] S512x256.size (by rfl) y

/-! ## The body's triple -/

set_option maxHeartbeats 1000000 in
/-- On whole staging buffers, the three inputs' at contents `x0`, `x1`, `x2` and the two outputs' at anything, the body
    runs to the continuation with the inputs as they were, the projected block in the first output and the converted
    activation block in the second. -/
theorem sound_kernel1 (c : Dev nD) (i : grid1.Coords) (E : Set ℕ)
    (arg1 : Memref sig .tc .vmem S512x4096 .f32) (harg1 : arg1.IsWhole) (arg2 : Memref sig .tc .vmem S256x4096 .f32) (harg2 : arg2.IsWhole)
    (arg3 : Memref sig .tc .vmem S1x256 .f32) (harg3 : arg3.IsWhole)
    (arg4 : Memref sig .tc .vmem S512x256 .bf16) (harg4 : arg4.IsWhole) (arg5 : Memref sig .tc .vmem S512x4096 .bf16) (harg5 : arg5.IsWhole)
    (x0 : Vec F S512x4096 .f32) (x1 : Vec F S256x4096 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2) ∗ owns (c : Thread nD τ) arg5 fullShare (out1_4 x0)) -∗ K ⟨⟩))
      ⊢ wp frame (wpE (defs₀ (F := F)) Variants.none c none) E (cc1__xa_kernel i arg1 harg1 arg2 harg2 arg3 harg3 arg4 harg4 arg5 harg5) K := by
  simp only [cc1__xa_kernel_eq_skeleton]; unfold cc1__xa_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_4 _)

/-! ## The proof data -/

/-- Region 1's proof data on core `c`: the arrays as the region finds them; after the body at point `t` each input's
    buffer still at its block, the first output's at the projected block and the second's at the converted activation
    block; nothing kept between points beyond the scoped rest and the generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]
theorem after1_4 (c : Dev nD) (t : Fin cfg1.N) : (dat1 V c).after 4 t = out1_4 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c _ Set.univ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2Runs.lean ====
import proofs.«165809_j40355512714085_2_alg».proof.Proof.Gen.Kernel.Launch
import proofs.«165809_j40355512714085_2_alg».proof.Proof.Gen.Kernel.Skeleton
import proofs.«165809_j40355512714085_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The accumulating kernel (third call): what its three control cases share -/

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (unfetched, the
    block index has not moved), for any proof data whose array is the entry contents and whose body leaves the
    block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The two conditions on the innermost coordinate k -/

/-- `k = 0`: the accumulator is initialised. -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

/-- `k = 3`: the accumulator is copied to the output block. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the output window is idle -/

/-- At `k = 0` the output window is idle and its block is not written back. -/
theorem idleAt2_5_A : ∀ t : Fin cfg2.N, cond2_0 (grid2.coords t) → ¬cond2_1 (grid2.coords t) → cfg2.idle 5 (grid2.coords t) = true := by decide +kernel
theorem noFlush2_5_A : ∀ t : Fin cfg2.N, cond2_0 (grid2.coords t) → ¬cond2_1 (grid2.coords t) → (cfg2.win 5).flush t = false := by decide +kernel
/-- At `k = 1, 2` likewise. -/
theorem idleAt2_5_B : ∀ t : Fin cfg2.N, ¬cond2_0 (grid2.coords t) → ¬cond2_1 (grid2.coords t) → cfg2.idle 5 (grid2.coords t) = true := by decide +kernel
theorem noFlush2_5_B : ∀ t : Fin cfg2.N, ¬cond2_0 (grid2.coords t) → ¬cond2_1 (grid2.coords t) → (cfg2.win 5).flush t = false := by decide +kernel
/-- At `k = 3` it is live. -/
theorem liveAt2_5_C : ∀ t : Fin cfg2.N, ¬cond2_0 (grid2.coords t) → cond2_1 (grid2.coords t) → cfg2.idle 5 (grid2.coords t) = false := by decide +kernel

/-! ## The memrefs the body is called on -/

/-- One staging buffer of the output window, through which its contents are stated (the choice does not matter). -/
abbrev VO2_5 : View sig .tc .vmem S2048x1024 .f32 := (Memref.whole cc2_stg5_0 : Memref sig .tc .vmem S2048x1024 .f32).view
abbrev ms2_0 (t : Fin cfg2.N) : Memref sig .tc .vmem S2048x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x256 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x256 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1024 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S2048x1024 .f32 := win2_5.stage (cfg2.slots t 5)
abbrev hs2_5 (t : Fin cfg2.N) : (ms2_5 t).IsWhole := hstage2_5 ((cfg2.slots t 5).cast nbuf2_5)
/-- The accumulator: a whole scoped buffer of the kernel's own, carried between grid points. -/
abbrev scM2 : Memref sig .tc .vmem S2048x1024 .f32 := Memref.whole cc2_scratch0
abbrev VS2 : View sig .tc .vmem S2048x1024 .f32 := scM2.view

/-- The core's scoped buffers other than this call's staging buffers and the accumulator, unopened. -/
abbrev Rest2 (c : Dev nD) : sProp 𝕄 :=
  Pipeline.scopedRestBut (Ix := Unit) (Name := ℕ) (U := UR sig nD τ) (Lvl := ℕ) (Val := Elt F) spec2 c [cc2_scratch0]

/-- The class invariant with the accumulator split off as a memref owned at some contents. -/
theorem PhiA2_eq (c : Dev nD) :
    (Pipeline.ΦA spec2 c : sProp 𝕄)
      = iprop(iprop((∃ d, owns (c : Thread nD τ) scM2 fullShare d) ∗ Rest2 c) ∗ (∃ r, prngReg c r)) := by
  unfold Pipeline.ΦA; rw [Pipeline.scopedRest_split_of_list spec2 c [cc2_scratch0] (by decide) (by decide)]
  simp only [scM2, owns_whole]; try rfl

end Cert.Kernel.Hand

end
-- ==== Proof.K.R2RunA.lean ====
import proofs.«165809_j40355512714085_2_alg».proof.Proof.K.R2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 4000000 in
/-- CASE A (`k = 0`). On whole memrefs — the five inputs at their contents, the output window's buffer at contents
    handed back untouched, the accumulator at anything — the body runs to the continuation holding the inputs as they
    were and the accumulator with its two stores written (the initial value, then the first partial product added),
    as pieces, last first. -/
noncomputable def kernelRun2_A (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S2048x256 .bf16) (harg5 : arg5.IsWhole) (arg6 : Memref sig .tc .vmem S1024x256 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (hc0 : cond2_0 i) (hc1 : ¬cond2_1 i)
    (x0 : Vec F S2048x1024 .bf16) (x1 : Vec F S1024x1024 .bf16) (x2 : Vec F S2048x256 .bf16) (x3 : Vec F S1024x256 .bf16) (x4 : Vec F S1x1024 .f32) :
    Σ' (L5 : List (View.Piece (Elt F) S2048x1024 .f32)), { LS : List (View.Piece (Elt F) S2048x1024 .f32) //
      ∀ (xi5 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS)) -∗ K ⟨⟩))
          ⊢ wp frame (wpE (defs₀ (F := F)) Variants.none c none) E (cc2__main_kernel i arg3 harg3 arg4 harg4 arg5 harg5 arg6 harg6 arg7 harg7 arg8 harg8 arg9 harg9) K } := by
  refine ⟨[], ?_, fun xi5 E K => ?run⟩
  case run =>
    simp only [cc2__main_kernel_eq_skeleton]; unfold cc2__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS

end Cert.Kernel.Hand

end
-- ==== Proof.K.R2RunB.lean ====
import proofs.«165809_j40355512714085_2_alg».proof.Proof.K.R2RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 4000000 in
/-- CASE B (`k = 1, 2`). As case A, the accumulator at what the point before left (`xs`): one store, the
    partial product added onto it. -/
noncomputable def kernelRun2_B (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S2048x256 .bf16) (harg5 : arg5.IsWhole) (arg6 : Memref sig .tc .vmem S1024x256 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (hc0 : ¬cond2_0 i) (hc1 : ¬cond2_1 i)
    (x0 : Vec F S2048x1024 .bf16) (x1 : Vec F S1024x1024 .bf16) (x2 : Vec F S2048x256 .bf16) (x3 : Vec F S1024x256 .bf16) (x4 : Vec F S1x1024 .f32) (xs : Vec F S2048x1024 .f32) :
    Σ' (L5 : List (View.Piece (Elt F) S2048x1024 .f32)), { LS : List (View.Piece (Elt F) S2048x1024 .f32) //
      ∀ (xi5 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS)) -∗ K ⟨⟩))
          ⊢ wp frame (wpE (defs₀ (F := F)) Variants.none c none) E (cc2__main_kernel i arg3 harg3 arg4 harg4 arg5 harg5 arg6 harg6 arg7 harg7 arg8 harg8 arg9 harg9) K } := by
  refine ⟨[], ?_, fun xi5 E K => ?run⟩
  case run =>
    simp only [cc2__main_kernel_eq_skeleton]; unfold cc2__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS

end Cert.Kernel.Hand

end
-- ==== Proof.K.R2RunC.lean ====
import proofs.«165809_j40355512714085_2_alg».proof.Proof.K.R2RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 4000000 in
/-- CASE C (`k = 3`). As case B, and the accumulator is then copied to the output window's buffer, handed in at
    anything: one piece each. -/
noncomputable def kernelRun2_C (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S2048x256 .bf16) (harg5 : arg5.IsWhole) (arg6 : Memref sig .tc .vmem S1024x256 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (hc0 : ¬cond2_0 i) (hc1 : cond2_1 i)
    (x0 : Vec F S2048x1024 .bf16) (x1 : Vec F S1024x1024 .bf16) (x2 : Vec F S2048x256 .bf16) (x3 : Vec F S1024x256 .bf16) (x4 : Vec F S1x1024 .f32) (xs : Vec F S2048x1024 .f32) :
    Σ' (L5 : List (View.Piece (Elt F) S2048x1024 .f32)), { LS : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS)) -∗ K ⟨⟩))
          ⊢ wp frame (wpE (defs₀ (F := F)) Variants.none c none) E (cc2__main_kernel i arg3 harg3 arg4 harg4 arg5 harg5 arg6 harg6 arg7 harg7 arg8 harg8 arg9 harg9) K } := by
  refine ⟨?_, ?_, fun E K => ?run⟩
  case run =>
    simp only [cc2__main_kernel_eq_skeleton]; unfold cc2__main_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS

end Cert.Kernel.Hand

end
-- ==== Proof.K.R2.lean ====
import proofs.«165809_j40355512714085_2_alg».proof.Proof.K.R2RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The accumulating kernel (third call): its proof data and body obligation at the entry contents `V`

Grid point (i, j, k), k innermost. The accumulator holds, after the point, the initial value (the low-rank product plus
the bias row) plus the partial products of the slabs 0 … k; at k = 3 the output block (i, j) receives it. -/

/-- Case A's pieces for the accumulator tile it, so they cover it. -/
theorem scover2_A (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S2048x256 .bf16) (harg5 : arg5.IsWhole) (arg6 : Memref sig .tc .vmem S1024x256 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (hc0 : cond2_0 i) (hc1 : ¬cond2_1 i)
    (x0 : Vec F S2048x1024 .bf16) (x1 : Vec F S1024x1024 .bf16) (x2 : Vec F S2048x256 .bf16) (x3 : Vec F S1024x256 .bf16) (x4 : Vec F S1x1024 .f32) (y : S2048x1024.Idx) :
    ∃ pc ∈ (kernelRun2_A c i arg3 harg3 arg4 harg4 arg5 harg5 arg6 harg6 arg7 harg7 arg8 harg8 arg9 harg9 hc0 hc1 x0 x1 x2 x3 x4).2.1, y ∈ pc.1.set :=
  View.cover_of_tiledL (kernelRun2_A c i arg3 harg3 arg4 harg4 arg5 harg5 arg6 harg6 arg7 harg7 arg8 harg8 arg9 harg9 hc0 hc1 x0 x1 x2 x3 x4).2.1 S2048x1024.size (by sl_kernel_rfl) y

/-- What case A leaves in the accumulator: its two stores read back. -/
def sout2_A (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S2048x256 .bf16) (harg5 : arg5.IsWhole) (arg6 : Memref sig .tc .vmem S1024x256 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (hc0 : cond2_0 i) (hc1 : ¬cond2_1 i)
    (x0 : Vec F S2048x1024 .bf16) (x1 : Vec F S1024x1024 .bf16) (x2 : Vec F S2048x256 .bf16) (x3 : Vec F S1024x256 .bf16) (x4 : Vec F S1x1024 .f32) : Vec F S2048x1024 .f32 :=
  VS2.read (Elt F) (VS2.writes (Elt F) VS2.junk (kernelRun2_A c i arg3 harg3 arg4 harg4 arg5 harg5 arg6 harg6 arg7 harg7 arg8 harg8 arg9 harg9 hc0 hc1 x0 x1 x2 x3 x4).2.1)

/-- Case B's pieces for the accumulator tile it, so they cover it. -/
theorem scover2_B (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S2048x256 .bf16) (harg5 : arg5.IsWhole) (arg6 : Memref sig .tc .vmem S1024x256 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (hc0 : ¬cond2_0 i) (hc1 : ¬cond2_1 i)
    (x0 : Vec F S2048x1024 .bf16) (x1 : Vec F S1024x1024 .bf16) (x2 : Vec F S2048x256 .bf16) (x3 : Vec F S1024x256 .bf16) (x4 : Vec F S1x1024 .f32) (xs : Vec F S2048x1024 .f32) (y : S2048x1024.Idx) :
    ∃ pc ∈ (kernelRun2_B c i arg3 harg3 arg4 harg4 arg5 harg5 arg6 harg6 arg7 harg7 arg8 harg8 arg9 harg9 hc0 hc1 x0 x1 x2 x3 x4 xs).2.1, y ∈ pc.1.set :=
  View.cover_of_tiledL (kernelRun2_B c i arg3 harg3 arg4 harg4 arg5 harg5 arg6 harg6 arg7 harg7 arg8 harg8 arg9 harg9 hc0 hc1 x0 x1 x2 x3 x4 xs).2.1 S2048x1024.size (by sl_kernel_rfl) y

/-- What case B leaves in the accumulator: its store read back. -/
def sout2_B (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S2048x256 .bf16) (harg5 : arg5.IsWhole) (arg6 : Memref sig .tc .vmem S1024x256 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (hc0 : ¬cond2_0 i) (hc1 : ¬cond2_1 i)
    (x0 : Vec F S2048x1024 .bf16) (x1 : Vec F S1024x1024 .bf16) (x2 : Vec F S2048x256 .bf16) (x3 : Vec F S1024x256 .bf16) (x4 : Vec F S1x1024 .f32) (xs : Vec F S2048x1024 .f32) : Vec F S2048x1024 .f32 :=
  VS2.read (Elt F) (VS2.writes (Elt F) VS2.junk (kernelRun2_B c i arg3 harg3 arg4 harg4 arg5 harg5 arg6 harg6 arg7 harg7 arg8 harg8 arg9 harg9 hc0 hc1 x0 x1 x2 x3 x4 xs).2.1)

/-- Case C's pieces for the accumulator tile it, so they cover it. -/
theorem scover2_C (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S2048x256 .bf16) (harg5 : arg5.IsWhole) (arg6 : Memref sig .tc .vmem S1024x256 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (hc0 : ¬cond2_0 i) (hc1 : cond2_1 i)
    (x0 : Vec F S2048x1024 .bf16) (x1 : Vec F S1024x1024 .bf16) (x2 : Vec F S2048x256 .bf16) (x3 : Vec F S1024x256 .bf16) (x4 : Vec F S1x1024 .f32) (xs : Vec F S2048x1024 .f32) (y : S2048x1024.Idx) :
    ∃ pc ∈ (kernelRun2_C c i arg3 harg3 arg4 harg4 arg5 harg5 arg6 harg6 arg7 harg7 arg8 harg8 arg9 harg9 hc0 hc1 x0 x1 x2 x3 x4 xs).2.1, y ∈ pc.1.set :=
  View.cover_of_tiledL (kernelRun2_C c i arg3 harg3 arg4 harg4 arg5 harg5 arg6 harg6 arg7 harg7 arg8 harg8 arg9 harg9 hc0 hc1 x0 x1 x2 x3 x4 xs).2.1 S2048x1024.size (by sl_kernel_rfl) y

/-- What case C leaves in the accumulator: its store read back. -/
def sout2_C (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S2048x256 .bf16) (harg5 : arg5.IsWhole) (arg6 : Memref sig .tc .vmem S1024x256 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (hc0 : ¬cond2_0 i) (hc1 : cond2_1 i)
    (x0 : Vec F S2048x1024 .bf16) (x1 : Vec F S1024x1024 .bf16) (x2 : Vec F S2048x256 .bf16) (x3 : Vec F S1024x256 .bf16) (x4 : Vec F S1x1024 .f32) (xs : Vec F S2048x1024 .f32) : Vec F S2048x1024 .f32 :=
  VS2.read (Elt F) (VS2.writes (Elt F) VS2.junk (kernelRun2_C c i arg3 harg3 arg4 harg4 arg5 harg5 arg6 harg6 arg7 harg7 arg8 harg8 arg9 harg9 hc0 hc1 x0 x1 x2 x3 x4 xs).2.1)

/-- Case C's piece for the output window's buffer tiles it, so it covers it. -/
theorem cover2_C_5 (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S2048x256 .bf16) (harg5 : arg5.IsWhole) (arg6 : Memref sig .tc .vmem S1024x256 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (hc0 : ¬cond2_0 i) (hc1 : cond2_1 i)
    (x0 : Vec F S2048x1024 .bf16) (x1 : Vec F S1024x1024 .bf16) (x2 : Vec F S2048x256 .bf16) (x3 : Vec F S1024x256 .bf16) (x4 : Vec F S1x1024 .f32) (xs : Vec F S2048x1024 .f32) (y : S2048x1024.Idx) :
    ∃ pc ∈ (kernelRun2_C c i arg3 harg3 arg4 harg4 arg5 harg5 arg6 harg6 arg7 harg7 arg8 harg8 arg9 harg9 hc0 hc1 x0 x1 x2 x3 x4 xs).1, y ∈ pc.1.set :=
  View.cover_of_tiledL (kernelRun2_C c i arg3 harg3 arg4 harg4 arg5 harg5 arg6 harg6 arg7 harg7 arg8 harg8 arg9 harg9 hc0 hc1 x0 x1 x2 x3 x4 xs).1 S2048x1024.size (by sl_kernel_rfl) y

/-- What case C leaves in the output window's buffer: its store read back. -/
def out2_C_5 (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S2048x256 .bf16) (harg5 : arg5.IsWhole) (arg6 : Memref sig .tc .vmem S1024x256 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (hc0 : ¬cond2_0 i) (hc1 : cond2_1 i)
    (x0 : Vec F S2048x1024 .bf16) (x1 : Vec F S1024x1024 .bf16) (x2 : Vec F S2048x256 .bf16) (x3 : Vec F S1024x256 .bf16) (x4 : Vec F S1x1024 .f32) (xs : Vec F S2048x1024 .f32) : Vec F S2048x1024 .f32 :=
  VO2_5.read (Elt F) (VO2_5.writes (Elt F) VO2_5.junk (kernelRun2_C c i arg3 harg3 arg4 harg4 arg5 harg5 arg6 harg6 arg7 harg7 arg8 harg8 arg9 harg9 hc0 hc1 x0 x1 x2 x3 x4 xs).1)

/-! ## What the output window's buffer and the accumulator hold after each point -/

/-- THE ACCUMULATION, by recursion on the point: (the output window's buffer, the accumulator) after the body at
    position `n` — the case `n % 4` selects, run at the point's memrefs and input blocks, over what the point before
    left in the accumulator. Where the output window is idle (k ≠ 3) the first component is a placeholder nothing reads. -/
def outsAt2 (c : Dev nD) : (n : ℕ) → n < cfg2.N → Vec F S2048x1024 .f32 × Vec F S2048x1024 .f32
  | 0, hn => (sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩), sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩))
  | n + 1, hn =>
    if h0 : (n + 1) % 4 = 0 then
      if h1 : (n + 1) % 4 = 3 then
        False.elim (by omega)
      else
        (sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩), sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩))
    else
      if h1 : (n + 1) % 4 = 3 then
        (out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2, sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2)
      else
        (sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2)

/-- `outsAt2` at a point with k = 0. -/
theorem outsAt2_A (c : Dev nD) (t : Fin cfg2.N) (h0 : t.val % 4 = 0) (h1 : ¬t.val % 4 = 3) :
    outsAt2 V c t.val t.isLt = (sout2_A c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) ((hcond2_0 t).mpr h0) (fun h => h1 ((hcond2_1 t).mp h)) (iblk2 V c 0 t) (iblk2 V c 1 t) (iblk2 V c 2 t) (iblk2 V c 3 t) (iblk2 V c 4 t), sout2_A c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) ((hcond2_0 t).mpr h0) (fun h => h1 ((hcond2_1 t).mp h)) (iblk2 V c 0 t) (iblk2 V c 1 t) (iblk2 V c 2 t) (iblk2 V c 3 t) (iblk2 V c 4 t)) := by
  obtain ⟨n, hn⟩ := t
  cases n with
  | zero => exact rfl
  | succ n => exact (dif_pos h0).trans ((dif_neg h1).trans rfl)

/-- `outsAt2` at a point with k = 1, 2: over what the point before left. -/
theorem outsAt2_B (c : Dev nD) (t : Fin cfg2.N) (h0 : ¬t.val % 4 = 0) (h1 : ¬t.val % 4 = 3) :
    outsAt2 V c t.val t.isLt = (sout2_B c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2, sout2_B c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point with k = 3: over what the point before left. -/
theorem outsAt2_C (c : Dev nD) (t : Fin cfg2.N) (h0 : ¬t.val % 4 = 0) (h1 : t.val % 4 = 3) :
    outsAt2 V c t.val t.isLt = (out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2, sout2_C c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer at anything);
    afterwards the accumulator at what the point before left, the other scoped buffers unopened, the generator
    register at some state. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ Rest2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare ((outsAt2 V c n hn).2) ∗ Rest2 c) ∗ (∃ r, prngReg c r)) := rfl

theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ Rest2 c) ∗ (∃ r, prngReg c r)) := by
  cases n with
  | zero => exact absurd rfl hz
  | succ n => rfl

/-! ## The pipeline's proof data -/

/-- The proof data on core `c`: the arrays as the region finds them; after the body each input's buffer at its block and
    the output's at `outsAt2`'s first component; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ (dat2 V c).leavesExact 5 t)

set_option maxHeartbeats 4800000 in
/-- The body at any point: the inputs' memrefs hold their blocks; `t % 4` says which case the point is in; the invariant
    hands the body the accumulator at what the point before left (at anything where k = 0) and takes it back at this
    point's contents; the output window's buffer is handed back as found where k ≠ 3. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  rw [after2_0, after2_1, after2_2, after2_3, after2_4]
  have hN : t.val < 64 := lt_of_lt_of_eq t.isLt (show cfg2.N = 64 from N_2)
  by_cases h0 : t.val % 4 = 0
  · by_cases h1 : t.val % 4 = 3
    · exfalso; omega
    · rw [Dat.leavesExact_idle (dat2 V c) 5 t (idleAt2_5_A t ((hcond2_0 t).mpr h0) (fun h => h1 ((hcond2_1 t).mp h))) (noFlush2_5_A t ((hcond2_0 t).mpr h0) (fun h => h1 ((hcond2_1 t).mp h)))]
      rw [outsAt2_A V c t h0 h1]
      unfold sout2_A; (try dsimp only)
      by_cases hz : t.val = 0
      · rw [PhiS2_castSucc V c t, PhiS2_zero V c _ _ hz, PhiA2_eq]
        iintro ⟨⟨⟨HS, Hr⟩, Hg⟩, Ho, ⟨%d0, H0⟩, ⟨%d1, H1⟩, ⟨%d2, H2⟩, ⟨%d3, H3⟩, ⟨%d4, H4⟩, ⟨%d5, H5⟩⟩
        iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexact HS
        iintro ⟨H0, H1, H2, H3, H4, H5, ⟨%es, HS⟩⟩
        isplitl [HS Hr Hg]
        · isplitl [HS Hr]
          · isplitl [HS]
            · unfold owns; iexists _; isplitr
              swap; · iexact HS
              ipureintro; exact View.read_writes_of_cover _ _ _ _ _ (scover2_A c _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS2_castSucc V c t, PhiS2_pos V c _ _ hz]
        iintro ⟨⟨⟨HS, Hr⟩, Hg⟩, Ho, ⟨%d0, H0⟩, ⟨%d1, H1⟩, ⟨%d2, H2⟩, ⟨%d3, H3⟩, ⟨%d4, H4⟩, ⟨%d5, H5⟩⟩
        iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexists _; iexact HS
        iintro ⟨H0, H1, H2, H3, H4, H5, ⟨%es, HS⟩⟩
        isplitl [HS Hr Hg]
        · isplitl [HS Hr]
          · isplitl [HS]
            · unfold owns; iexists _; isplitr
              swap; · iexact HS
              ipureintro; exact View.read_writes_of_cover _ _ _ _ _ (scover2_A c _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · have hz : t.val ≠ 0 := fun e => h0 (by rw [e])
    by_cases h1 : t.val % 4 = 3
    · rw [show (dat2 V c).leavesExact 5 t = owns (c : Thread nD τ) (ms2_5 t) fullShare ((dat2 V c).after 5 t) from by
          unfold Dat.leavesExact; rw [liveAt2_5_C t (fun h => h0 ((hcond2_0 t).mp h)) ((hcond2_1 t).mpr h1)], after2_5]
      rw [outsAt2_C V c t h0 h1]
      unfold out2_C_5 sout2_C; (try dsimp only)
      rw [PhiS2_castSucc V c t, PhiS2_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩⟩
      iapply ((kernelRun2_C c (grid2.coords t) _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS Hr Hg]
      · isplitl [HS Hr]
        · isplitl [HS]
          · unfold owns; iexists _; isplitr
            swap; · iexact HS
            ipureintro; exact View.read_writes_of_cover _ _ _ _ _ (scover2_C c _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover2_C_5 c _ _ _ _ _ _ _ _ _ _ _ _ _ _ _ _ _ _ _ _ _ _ _)
    · rw [Dat.leavesExact_idle (dat2 V c) 5 t (idleAt2_5_B t (fun h => h0 ((hcond2_0 t).mp h)) (fun h => h1 ((hcond2_1 t).mp h))) (noFlush2_5_B t (fun h => h0 ((hcond2_0 t).mp h)) (fun h => h1 ((hcond2_1 t).mp h)))]
      rw [outsAt2_B V c t h0 h1]
      unfold sout2_B; (try dsimp only)
      rw [PhiS2_castSucc V c t, PhiS2_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩⟩
      iapply ((kernelRun2_B c (grid2.coords t) _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hr Hg]
      · isplitl [HS Hr]
        · isplitl [HS]
          · unfold owns; iexists _; isplitr
            swap; · iexact HS
            ipureintro; exact View.read_writes_of_cover _ _ _ _ _ (scover2_B c _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the accumulator's contents are forgotten. -/
theorem Phi_out2 (c : Dev nD) (t : Fin (cfg2.N + 1)) (ht : t.val ≠ 0) : (dat2 V c).Φ t ⊢ (Pipeline.ΦA spec2 c : sProp 𝕄) := by
  rw [show (dat2 V c).Φ t = PhiS2 V c t.val (Nat.le_of_lt_succ t.isLt) from rfl, PhiS2_pos V c _ _ ht, PhiA2_eq]
  iintro ⟨⟨HS, Hr⟩, Hg⟩
  isplitl [HS Hr]
  · isplitl [HS]
    · iexists _; iexact HS
    iexact Hr
  iexact Hg

/-- The same after the last point. -/
theorem hout2 (c : Dev nD) : (dat2 V c).Φ (Fin.last cfg2.N) ⊢ (Pipeline.ΦA spec2 c : sProp 𝕄) :=
  Phi_out2 V c _ (by rw [Fin.val_last]; have : cfg2.N = 64 := N_2; omega)

end Cert.Kernel.Hand

end
-- ==== Proof.K.Run.lean ====
/-
  The whole program as a run: two stretches of host reshapes around three kernel regions, in order. The contents of
  every unscoped buffer are followed from the launch through each item — a host stretch applies its operations; a
  region leaves its result arrays at what its write-backs produce and everything else untouched — and the final memory
  is read against the last of these valuations. No core owes another anything; the only things that ride along are
  the generator register and the (empty) tallies.
-/
import proofs.«165809_j40355512714085_2_alg».proof.Proof.K.R0
import proofs.«165809_j40355512714085_2_alg».proof.Proof.K.R1
import proofs.«165809_j40355512714085_2_alg».proof.Proof.K.R2
import proofs.«165809_j40355512714085_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev W0 : Dev nD → Valuation τ sig (Elt F) := fun c b => m (c, b)
/-- After the leading reshapes. -/
abbrev W1 : Dev nD → Valuation τ sig (Elt F) := fun c => StableHlo.after hostOps0 (W0 m c)
abbrev E1 : (c : Dev nD) → (b : Ref sig .tc) → Buf (Elt F) ((c : Thread nD τ).loc b) := fun c b => W1 m c b

/-- After region 0: its arrays at what its write-backs leave, every other buffer as before it. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- After region 1: its arrays at what its write-backs leave, every other buffer as before it. -/
def W3 (c : Dev nD) : Valuation τ sig (Elt F) :=
  Pipeline.withArrays spec1 c (W2 m c) fun w => (dat1 (E2 m) c).arrAt w cfg1.N
theorem W3_arr (c : Dev nD) (w : Fin cfg1.W) :
    W3 m c (Proc.devRef .tc (Pipeline.arrRef spec1 w)) = (dat1 (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same read at the TensorCore's references. -/
abbrev E3 : (c : Dev nD) → (b : Ref sig .tc) → Buf (Elt F) ((c : Thread nD τ).loc b) := fun c b => W3 m c b
theorem hF1 (c : Dev nD) (w : Fin cfg1.W) : (dat1 (E2 m) c).arrAt w cfg1.N = E3 m c (Pipeline.arrRef spec1 w) :=
  (W3_arr m c w).symm
theorem hrest1 (c : Dev nD) : ∀ b, b ∉ Finset.univ.image (Pipeline.arrRef spec1) → E3 m c b = E2 m c b :=
  fun b hb => W3_of_ne m c b fun w e => hb (Finset.mem_image.mpr ⟨w, Finset.mem_univ _, e⟩)

/-- After region 2: its arrays at what its write-backs leave, every other buffer as before it. -/
def W4 (c : Dev nD) : Valuation τ sig (Elt F) :=
  Pipeline.withArrays spec2 c (W3 m c) fun w => (dat2 (E3 m) c).arrAt w cfg2.N
theorem W4_arr (c : Dev nD) (w : Fin cfg2.W) :
    W4 m c (Proc.devRef .tc (Pipeline.arrRef spec2 w)) = (dat2 (E3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
/-- The same read at the TensorCore's references. -/
abbrev E4 : (c : Dev nD) → (b : Ref sig .tc) → Buf (Elt F) ((c : Thread nD τ).loc b) := fun c b => W4 m c b
theorem hF2 (c : Dev nD) (w : Fin cfg2.W) : (dat2 (E3 m) c).arrAt w cfg2.N = E4 m c (Pipeline.arrRef spec2 w) :=
  (W4_arr m c w).symm
theorem hrest2 (c : Dev nD) : ∀ b, b ∉ Finset.univ.image (Pipeline.arrRef spec2) → E4 m c b = E3 m c b :=
  fun b hb => W4_of_ne m c b fun w e => hb (Finset.mem_image.mpr ⟨w, Finset.mem_univ _, e⟩)

/-- After the trailing reshape. -/
abbrev W5 : Dev nD → Valuation τ sig (Elt F) := fun c => StableHlo.after hostOps3 (W4 m c)

/-! ## The proof data family and what rides along -/

def pdats : (p : Fin 3) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E2 m) c
  | ⟨2, _⟩ => fun c => dat2 (E3 m) c
abbrev 𝒱₀ : Variants := Variants.none
abbrev L : GSem nD τ sig → Finset Unit := fun _ => ∅
abbrev lv : GSem nD τ sig → Unit → ℕ := fun _ _ => 0
/-- Beside the buffers: the generator register at some state, and nothing owed. -/
abbrev R (c : Dev nD) : sProp 𝕄 := iprop((∃ r, prngReg c r) ∗ ∃ W, owes (c : Thread nD τ) (0 : CellTallies nD τ sig Unit) W)
/-- A host stretch as a segment over all unscoped references, a rest riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) (rest : Dev nD → sProp 𝕄) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rest

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered with every unscoped buffer at the contents before it, left with the
    region's arrays at what its write-backs leave and every other buffer as entered. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]
    unfold Pipeline.ΦA
    iintro ⟨Hp, -, Hr⟩
    isplitl [Hr]; · iexact Hr
    iexact Hp
  hout c := by
    rw [Pipeline.ownSems0_none]
    rw [show (pdats m 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with the
    region's arrays at what its write-backs leave and every other buffer as entered. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]
    unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the contents before it, left with the
    region's arrays at what its write-backs leave and every other buffer as entered. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (E3 m) c).Φ 0 from rfl]
    refine BIBase.Entails.trans ?_ (hin2 (E3 m) c)
    unfold Pipeline.ΦA
    iintro ⟨Hp, -, Hr⟩
    isplitl [Hr]; · iexact Hr
    iexact Hp
  hout c := by
    rw [Pipeline.ownSems0_none]
    rw [show (pdats m 2 c).Φ (Fin.last _) = (dat2 (E3 m) c).Φ (Fin.last cfg2.N) from rfl]
    refine BIBase.Entails.trans (hout2 (E3 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E3 m c) (E4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (W0 m) R),
    .region (reg0 m),
    .region (reg1 m),
    .region (reg2 m),
    .host (hseg hostOps3 hostOps3_sub hostOps3_fresh (W4 m) fun c => iprop(∃ W, owes (c : Thread nD τ) (0 : CellTallies nD τ sig Unit) W)) ]

theorem main_run (c : Dev nD) : main (F := F) c = Pipeline.Seg.run (segs m) := (main_chain c).trans (by chain_rfl)

set_option backward.isDefEq.respectTransparency.types false in
/-- Every weakly fair execution of @main from memory `m` with zero counters terminates without a fault, and every final
    memory holds each unscoped buffer at the last valuation. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W5 m c))
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨Hh, HSI⟩
      unfold StableHlo.held
      imodintro
      iapply (pointsTo_read_all (Pipeline.ucRefs τ sig) (fun b => (((c : Thread nD τ)).1, b)) (W5 m c) s')
      isplitl [Hh] <;> iassumption)
    (hQ := fun s h => h)

end Cert.Kernel.Hand

end
-- ==== Proof.K.Frame.lean ====
/-
  The frame: no item of the program writes an argument array — a host reshape writes only its own result, and a
  kernel region either reads an argument through an input window (whose array ends as it began) or does not touch it
  — so each argument's buffer, read at the last valuation, walks back to its launch contents.
-/
import proofs.«165809_j40355512714085_2_alg».proof.Proof.K.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ)

theorem W5_main_arg0 (c : Dev nD) : W5 m c (Proc.devRef .tc main_arg0) = m ((c : Thread nD τ).loc main_arg0) :=
  calc W5 m c (Proc.devRef .tc main_arg0)
    _ = W4 m c (Proc.devRef .tc main_arg0) := (StableHlo.after_of_writes_sub hostOps3 _ hostOps3_writes (by decide))
    _ = W3 m c (Proc.devRef .tc main_arg0) := W4_of_ne m c main_arg0 (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := (StableHlo.after_of_writes_sub hostOps0 _ hostOps0_writes (by decide))
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := (StableHlo.after_of_writes_sub hostOps3 _ hostOps3_writes (by decide))
    _ = W3 m c (Proc.devRef .tc main_arg1) := W4_of_ne m c main_arg1 (by decide)
    _ = W2 m c (Proc.devRef .tc main_arg1) := W3_of_ne m c main_arg1 (by decide)
    _ = W1 m c (Proc.devRef .tc main_arg1) := (W2_arr m c 0).trans (((dat0 (E1 m) c).arrAt_in 0 rfl _).trans (A_eq0 (E1 m) c 0))
    _ = W0 m c (Proc.devRef .tc main_arg1) := (StableHlo.after_of_writes_sub hostOps0 _ hostOps0_writes (by decide))
    _ = m ((c : Thread nD τ).loc main_arg1) := rfl

theorem W5_main_arg2 (c : Dev nD) : W5 m c (Proc.devRef .tc main_arg2) = m ((c : Thread nD τ).loc main_arg2) :=
  calc W5 m c (Proc.devRef .tc main_arg2)
    _ = W4 m c (Proc.devRef .tc main_arg2) := (StableHlo.after_of_writes_sub hostOps3 _ hostOps3_writes (by decide))
    _ = W3 m c (Proc.devRef .tc main_arg2) := W4_of_ne m c main_arg2 (by decide)
    _ = W2 m c (Proc.devRef .tc main_arg2) := (W3_arr m c 1).trans (((dat1 (E2 m) c).arrAt_in 1 rfl _).trans (A_eq1 (E2 m) c 1))
    _ = W1 m c (Proc.devRef .tc main_arg2) := W2_of_ne m c main_arg2 (by decide)
    _ = W0 m c (Proc.devRef .tc main_arg2) := (StableHlo.after_of_writes_sub hostOps0 _ hostOps0_writes (by decide))
    _ = m ((c : Thread nD τ).loc main_arg2) := rfl

theorem W5_main_arg3 (c : Dev nD) : W5 m c (Proc.devRef .tc main_arg3) = m ((c : Thread nD τ).loc main_arg3) :=
  calc W5 m c (Proc.devRef .tc main_arg3)
    _ = W4 m c (Proc.devRef .tc main_arg3) := (StableHlo.after_of_writes_sub hostOps3 _ hostOps3_writes (by decide))
    _ = W3 m c (Proc.devRef .tc main_arg3) := W4_of_ne m c main_arg3 (by decide)
    _ = W2 m c (Proc.devRef .tc main_arg3) := W3_of_ne m c main_arg3 (by decide)
    _ = W1 m c (Proc.devRef .tc main_arg3) := (W2_arr m c 1).trans (((dat0 (E1 m) c).arrAt_in 1 rfl _).trans (A_eq0 (E1 m) c 1))
    _ = W0 m c (Proc.devRef .tc main_arg3) := (StableHlo.after_of_writes_sub hostOps0 _ hostOps0_writes (by decide))
    _ = m ((c : Thread nD τ).loc main_arg3) := rfl

theorem W5_main_arg4 (c : Dev nD) : W5 m c (Proc.devRef .tc main_arg4) = m ((c : Thread nD τ).loc main_arg4) :=
  calc W5 m c (Proc.devRef .tc main_arg4)
    _ = W4 m c (Proc.devRef .tc main_arg4) := (StableHlo.after_of_writes_sub hostOps3 _ hostOps3_writes (by decide))
    _ = W3 m c (Proc.devRef .tc main_arg4) := W4_of_ne m c main_arg4 (by decide)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := (StableHlo.after_of_writes_sub hostOps0 _ hostOps0_writes (by decide))
    _ = m ((c : Thread nD τ).loc main_arg4) := rfl

theorem W5_main_arg5 (c : Dev nD) : W5 m c (Proc.devRef .tc main_arg5) = m ((c : Thread nD τ).loc main_arg5) :=
  calc W5 m c (Proc.devRef .tc main_arg5)
    _ = W4 m c (Proc.devRef .tc main_arg5) := (StableHlo.after_of_writes_sub hostOps3 _ hostOps3_writes (by decide))
    _ = W3 m c (Proc.devRef .tc main_arg5) := W4_of_ne m c main_arg5 (by decide)
    _ = W2 m c (Proc.devRef .tc main_arg5) := W3_of_ne m c main_arg5 (by decide)
    _ = W1 m c (Proc.devRef .tc main_arg5) := W2_of_ne m c main_arg5 (by decide)
    _ = W0 m c (Proc.devRef .tc main_arg5) := (StableHlo.after_of_writes_sub hostOps0 _ hostOps0_writes (by decide))
    _ = m ((c : Thread nD τ).loc main_arg5) := rfl

/-- Every weakly fair execution of @main terminates without a fault with every argument array as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c)⟩) (run_all m ρ)

end Cert.Kernel.Hand

end
-- ==== Proof.KI.R0.lean ====
/-
  The first kernel region: the weight matrix [4096, 4096] and the adapter's output matrix [4096, 256] are each
  converted to the narrower float format, eight row blocks of 512 rows, one block per grid point. Point `t` reads
  rows 512 t … 512 t + 511 of both matrices and writes the converted rows to the same rows of the two results; nothing
  is kept between points. Stated at a parameter `V`: what the core's buffers hold when the region is entered.
-/
import proofs.«165809_j40355512714085_2_alg».proof.Proof.Gen.KernelIdeal.Launch
import proofs.«165809_j40355512714085_2_alg».proof.Proof.Gen.KernelIdeal.Skeleton
import proofs.«165809_j40355512714085_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks -/

/-- Block `t` of window `w`'s array, as the region finds the array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The weight matrix's staging buffer holds its row block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The adapter matrix's staging buffer holds its row block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the body writes -/

/-- The whole [512, 4096] block and the whole [512, 256] block, as rectangles. -/
abbrev wholeW : Rect S512x4096 := Rect.unit (s := S512x4096) ![0, 0] S512x4096.size inb_S512x4096_S512x4096_0_0
abbrev wholeB : Rect S512x256 := Rect.unit (s := S512x256) ![0, 0] S512x256.size inb_S512x256_S512x256_0_0

/-- The converted weight block: one store of the whole block, the conversion of the block read. -/
def out0_2 (x0 : Vec F S512x4096 .f32) : Vec F S512x4096 .bf16 :=
  View.canon [⟨wholeW, k0_pay1 (View.ld x0 wholeW)⟩]

/-- The converted adapter block. -/
def out0_3 (x1 : Vec F S512x256 .f32) : Vec F S512x256 .bf16 :=
  View.canon [⟨wholeB, k0_pay2 (View.ld x1 wholeB)⟩]

theorem cover0_2 (p0 : Vec F S512x4096 .bf16) (y : S512x4096.Idx) :
    ∃ pc ∈ ([⟨wholeW, p0⟩] : List (View.Piece (Elt F) S512x4096 .bf16)), y ∈ pc.1.set :=
  View.cover_of_tiled [⟨wholeW, p0⟩] S512x4096.size (by rfl) y

theorem cover0_3 (p0 : Vec F S512x256 .bf16) (y : S512x256.Idx) :
    ∃ pc ∈ ([⟨wholeB, p0⟩] : List (View.Piece (Elt F) S512x256 .bf16)), y ∈ pc.1.set :=
  View.cover_of_tiled [⟨wholeB, p0⟩] S512x256.size (by rfl) y

/-! ## The body's triple -/

set_option maxHeartbeats 1000000 in
/-- On whole staging buffers, the two inputs' at contents `x0`, `x1` and the two outputs' at anything, the body runs to
    the continuation with the inputs as they were and each output at the conversion of its input. -/
theorem sound_kernel0 (c : Dev nD) (i : grid0.Coords) (E : Set ℕ)
    (arg1 : Memref sig .tc .vmem S512x4096 .f32) (harg1 : arg1.IsWhole) (arg2 : Memref sig .tc .vmem S512x256 .f32) (harg2 : arg2.IsWhole)
    (arg3 : Memref sig .tc .vmem S512x4096 .bf16) (harg3 : arg3.IsWhole) (arg4 : Memref sig .tc .vmem S512x256 .bf16) (harg4 : arg4.IsWhole)
    (x0 : Vec F S512x4096 .f32) (x1 : Vec F S512x256 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out0_2 x0) ∗ owns (c : Thread nD τ) arg4 fullShare (out0_3 x1)) -∗ K ⟨⟩))
      ⊢ wp frame (wpE (defs₀ (F := F)) Variants.none c none) E (cc0__cast_weights_kernel i arg1 harg1 arg2 harg2 arg3 harg3 arg4 harg4) K := by
  simp only [cc0__cast_weights_kernel_eq_skeleton]; unfold cc0__cast_weights_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  iexists _; isplitr
  swap; · iexact H3
  ipureintro
  exact View.read_writes_eq_canon _ _ _ (cover0_3 _)

/-! ## The proof data -/

/-- Region 0's proof data on core `c`: the arrays as the region finds them; after the body at point `t` each input's
    buffer still at its row block and each output's at the conversion of the input's row block; nothing kept between
    points beyond the scoped rest and the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t)
    | ⟨3, _⟩ => out0_3 (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) := by dsimp only [dat0]
theorem after0_3 (c : Dev nD) (t : Fin cfg0.N) : (dat0 V c).after 3 t = out0_3 (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their row blocks, so the triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c _ Set.univ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
/-
  The second kernel region: the activation [8192, 4096] in sixteen row blocks of 512 rows, one block per grid point.
  Point `t` reads rows 512 t … 512 t + 511 of the activation, the whole down-projection matrix [256, 4096] and the
  whole scaling row [1, 256] (both fetched once, at the first point), and writes the same rows of two results: the
  activation block converted to the narrower float format, and the block's rows multiplied against the rows of the
  down-projection matrix, scaled column by column, converted. Nothing is kept between points. Stated at a parameter
  `V`: what the core's buffers hold when the region is entered.
-/
import proofs.«165809_j40355512714085_2_alg».proof.Proof.Gen.KernelIdeal.Launch
import proofs.«165809_j40355512714085_2_alg».proof.Proof.Gen.KernelIdeal.Skeleton
import proofs.«165809_j40355512714085_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks -/

/-- Block `t` of window `w`'s array, as the region finds the array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activation's staging buffer holds its row block at every point (it is fetched at every point). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The down-projection matrix is one block, the whole array, fetched at the first point only: at a later point the
    block index has not moved and the body left the buffer as it found it, so the buffer holds the block still. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The scaling row [1, 256], likewise one block fetched once. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the body writes -/

/-- The whole [512, 4096], [256, 4096], [1, 256] and [512, 256] blocks, as rectangles. -/
abbrev wholeX : Rect S512x4096 := Rect.unit (s := S512x4096) ![0, 0] S512x4096.size inb_S512x4096_S512x4096_0_0
abbrev wholeA : Rect S256x4096 := Rect.unit (s := S256x4096) ![0, 0] S256x4096.size inb_S256x4096_S256x4096_0_0
abbrev wholeD : Rect S1x256 := Rect.unit (s := S1x256) ![0, 0] S1x256.size inb_S1x256_S1x256_0_0
abbrev wholeP : Rect S512x256 := Rect.unit (s := S512x256) ![0, 0] S512x256.size inb_S512x256_S512x256_0_0

/-- The converted activation block: one store of the whole block, the conversion of the block read. -/
def out1_4 (x0 : Vec F S512x4096 .f32) : Vec F S512x4096 .bf16 :=
  View.canon [⟨wholeX, k1_pay1 (View.ld x0 wholeX)⟩]

/-- The projected block: one store of the whole [512, 256] block, the rows of the activation block against the rows of
    the down-projection matrix, scaled column by column by the scaling row, converted. -/
def out1_3 (x0 : Vec F S512x4096 .f32) (x1 : Vec F S256x4096 .f32) (x2 : Vec F S1x256 .f32) : Vec F S512x256 .bf16 :=
  View.canon [⟨wholeP, k1_pay2 (View.ld x0 wholeX) (View.ld x1 wholeA) (View.ld x2 wholeD)⟩]

theorem cover1_4 (p0 : Vec F S512x4096 .bf16) (y : S512x4096.Idx) :
    ∃ pc ∈ ([⟨wholeX, p0⟩] : List (View.Piece (Elt F) S512x4096 .bf16)), y ∈ pc.1.set :=
  View.cover_of_tiled [⟨wholeX, p0⟩] S512x4096.size (by rfl) y

theorem cover1_3 (p0 : Vec F S512x256 .bf16) (y : S512x256.Idx) :
    ∃ pc ∈ ([⟨wholeP, p0⟩] : List (View.Piece (Elt F) S512x256 .bf16)), y ∈ pc.1.set :=
  View.cover_of_tiled [⟨wholeP, p0⟩] S512x256.size (by rfl) y

/-! ## The body's triple -/

set_option maxHeartbeats 1000000 in
/-- On whole staging buffers, the three inputs' at contents `x0`, `x1`, `x2` and the two outputs' at anything, the body
    runs to the continuation with the inputs as they were, the projected block in the first output and the converted
    activation block in the second. -/
theorem sound_kernel1 (c : Dev nD) (i : grid1.Coords) (E : Set ℕ)
    (arg1 : Memref sig .tc .vmem S512x4096 .f32) (harg1 : arg1.IsWhole) (arg2 : Memref sig .tc .vmem S256x4096 .f32) (harg2 : arg2.IsWhole)
    (arg3 : Memref sig .tc .vmem S1x256 .f32) (harg3 : arg3.IsWhole)
    (arg4 : Memref sig .tc .vmem S512x256 .bf16) (harg4 : arg4.IsWhole) (arg5 : Memref sig .tc .vmem S512x4096 .bf16) (harg5 : arg5.IsWhole)
    (x0 : Vec F S512x4096 .f32) (x1 : Vec F S256x4096 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2) ∗ owns (c : Thread nD τ) arg5 fullShare (out1_4 x0)) -∗ K ⟨⟩))
      ⊢ wp frame (wpE (defs₀ (F := F)) Variants.none c none) E (cc1__xa_kernel i arg1 harg1 arg2 harg2 arg3 harg3 arg4 harg4 arg5 harg5) K := by
  simp only [cc1__xa_kernel_eq_skeleton]; unfold cc1__xa_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_4 _)

/-! ## The proof data -/

/-- Region 1's proof data on core `c`: the arrays as the region finds them; after the body at point `t` each input's
    buffer still at its block, the first output's at the projected block and the second's at the converted activation
    block; nothing kept between points beyond the scoped rest and the generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]
theorem after1_4 (c : Dev nD) (t : Fin cfg1.N) : (dat1 V c).after 4 t = out1_4 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c _ Set.univ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2Runs.lean ====
import proofs.«165809_j40355512714085_2_alg».proof.Proof.Gen.KernelIdeal.Launch
import proofs.«165809_j40355512714085_2_alg».proof.Proof.Gen.KernelIdeal.Skeleton
import proofs.«165809_j40355512714085_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The accumulating kernel (third call): what its three control cases share -/

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (unfetched, the
    block index has not moved), for any proof data whose array is the entry contents and whose body leaves the
    block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The two conditions on the innermost coordinate k -/

/-- `k = 0`: the accumulator is initialised. -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

/-- `k = 3`: the accumulator is copied to the output block. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the output window is idle -/

/-- At `k = 0` the output window is idle and its block is not written back. -/
theorem idleAt2_5_A : ∀ t : Fin cfg2.N, cond2_0 (grid2.coords t) → ¬cond2_1 (grid2.coords t) → cfg2.idle 5 (grid2.coords t) = true := by decide +kernel
theorem noFlush2_5_A : ∀ t : Fin cfg2.N, cond2_0 (grid2.coords t) → ¬cond2_1 (grid2.coords t) → (cfg2.win 5).flush t = false := by decide +kernel
/-- At `k = 1, 2` likewise. -/
theorem idleAt2_5_B : ∀ t : Fin cfg2.N, ¬cond2_0 (grid2.coords t) → ¬cond2_1 (grid2.coords t) → cfg2.idle 5 (grid2.coords t) = true := by decide +kernel
theorem noFlush2_5_B : ∀ t : Fin cfg2.N, ¬cond2_0 (grid2.coords t) → ¬cond2_1 (grid2.coords t) → (cfg2.win 5).flush t = false := by decide +kernel
/-- At `k = 3` it is live. -/
theorem liveAt2_5_C : ∀ t : Fin cfg2.N, ¬cond2_0 (grid2.coords t) → cond2_1 (grid2.coords t) → cfg2.idle 5 (grid2.coords t) = false := by decide +kernel

/-! ## The memrefs the body is called on -/

/-- One staging buffer of the output window, through which its contents are stated (the choice does not matter). -/
abbrev VO2_5 : View sig .tc .vmem S2048x1024 .f32 := (Memref.whole cc2_stg5_0 : Memref sig .tc .vmem S2048x1024 .f32).view
abbrev ms2_0 (t : Fin cfg2.N) : Memref sig .tc .vmem S2048x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x256 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x256 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1024 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S2048x1024 .f32 := win2_5.stage (cfg2.slots t 5)
abbrev hs2_5 (t : Fin cfg2.N) : (ms2_5 t).IsWhole := hstage2_5 ((cfg2.slots t 5).cast nbuf2_5)
/-- The accumulator: a whole scoped buffer of the kernel's own, carried between grid points. -/
abbrev scM2 : Memref sig .tc .vmem S2048x1024 .f32 := Memref.whole cc2_scratch0
abbrev VS2 : View sig .tc .vmem S2048x1024 .f32 := scM2.view

/-- The core's scoped buffers other than this call's staging buffers and the accumulator, unopened. -/
abbrev Rest2 (c : Dev nD) : sProp 𝕄 :=
  Pipeline.scopedRestBut (Ix := Unit) (Name := ℕ) (U := UR sig nD τ) (Lvl := ℕ) (Val := Elt F) spec2 c [cc2_scratch0]

/-- The class invariant with the accumulator split off as a memref owned at some contents. -/
theorem PhiA2_eq (c : Dev nD) :
    (Pipeline.ΦA spec2 c : sProp 𝕄)
      = iprop(iprop((∃ d, owns (c : Thread nD τ) scM2 fullShare d) ∗ Rest2 c) ∗ (∃ r, prngReg c r)) := by
  unfold Pipeline.ΦA; rw [Pipeline.scopedRest_split_of_list spec2 c [cc2_scratch0] (by decide) (by decide)]
  simp only [scM2, owns_whole]; try rfl

end Cert.KernelIdeal.Hand

end
-- ==== Proof.KI.R2RunA.lean ====
import proofs.«165809_j40355512714085_2_alg».proof.Proof.KI.R2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 4000000 in
/-- CASE A (`k = 0`). On whole memrefs — the five inputs at their contents, the output window's buffer at contents
    handed back untouched, the accumulator at anything — the body runs to the continuation holding the inputs as they
    were and the accumulator with its two stores written (the initial value, then the first partial product added),
    as pieces, last first. -/
noncomputable def kernelRun2_A (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S2048x256 .bf16) (harg5 : arg5.IsWhole) (arg6 : Memref sig .tc .vmem S1024x256 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (hc0 : cond2_0 i) (hc1 : ¬cond2_1 i)
    (x0 : Vec F S2048x1024 .bf16) (x1 : Vec F S1024x1024 .bf16) (x2 : Vec F S2048x256 .bf16) (x3 : Vec F S1024x256 .bf16) (x4 : Vec F S1x1024 .f32) :
    Σ' (L5 : List (View.Piece (Elt F) S2048x1024 .f32)), { LS : List (View.Piece (Elt F) S2048x1024 .f32) //
      ∀ (xi5 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS)) -∗ K ⟨⟩))
          ⊢ wp frame (wpE (defs₀ (F := F)) Variants.none c none) E (cc2__main_kernel i arg3 harg3 arg4 harg4 arg5 harg5 arg6 harg6 arg7 harg7 arg8 harg8 arg9 harg9) K } := by
  refine ⟨[], ?_, fun xi5 E K => ?run⟩
  case run =>
    simp only [cc2__main_kernel_eq_skeleton]; unfold cc2__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS

end Cert.KernelIdeal.Hand

end
-- ==== Proof.KI.R2RunB.lean ====
import proofs.«165809_j40355512714085_2_alg».proof.Proof.KI.R2RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 4000000 in
/-- CASE B (`k = 1, 2`). As case A, the accumulator at what the point before left (`xs`): one store, the
    partial product added onto it. -/
noncomputable def kernelRun2_B (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S2048x256 .bf16) (harg5 : arg5.IsWhole) (arg6 : Memref sig .tc .vmem S1024x256 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (hc0 : ¬cond2_0 i) (hc1 : ¬cond2_1 i)
    (x0 : Vec F S2048x1024 .bf16) (x1 : Vec F S1024x1024 .bf16) (x2 : Vec F S2048x256 .bf16) (x3 : Vec F S1024x256 .bf16) (x4 : Vec F S1x1024 .f32) (xs : Vec F S2048x1024 .f32) :
    Σ' (L5 : List (View.Piece (Elt F) S2048x1024 .f32)), { LS : List (View.Piece (Elt F) S2048x1024 .f32) //
      ∀ (xi5 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS)) -∗ K ⟨⟩))
          ⊢ wp frame (wpE (defs₀ (F := F)) Variants.none c none) E (cc2__main_kernel i arg3 harg3 arg4 harg4 arg5 harg5 arg6 harg6 arg7 harg7 arg8 harg8 arg9 harg9) K } := by
  refine ⟨[], ?_, fun xi5 E K => ?run⟩
  case run =>
    simp only [cc2__main_kernel_eq_skeleton]; unfold cc2__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS

end Cert.KernelIdeal.Hand

end
-- ==== Proof.KI.R2RunC.lean ====
import proofs.«165809_j40355512714085_2_alg».proof.Proof.KI.R2RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 4000000 in
/-- CASE C (`k = 3`). As case B, and the accumulator is then copied to the output window's buffer, handed in at
    anything: one piece each. -/
noncomputable def kernelRun2_C (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S2048x256 .bf16) (harg5 : arg5.IsWhole) (arg6 : Memref sig .tc .vmem S1024x256 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (hc0 : ¬cond2_0 i) (hc1 : cond2_1 i)
    (x0 : Vec F S2048x1024 .bf16) (x1 : Vec F S1024x1024 .bf16) (x2 : Vec F S2048x256 .bf16) (x3 : Vec F S1024x256 .bf16) (x4 : Vec F S1x1024 .f32) (xs : Vec F S2048x1024 .f32) :
    Σ' (L5 : List (View.Piece (Elt F) S2048x1024 .f32)), { LS : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS)) -∗ K ⟨⟩))
          ⊢ wp frame (wpE (defs₀ (F := F)) Variants.none c none) E (cc2__main_kernel i arg3 harg3 arg4 harg4 arg5 harg5 arg6 harg6 arg7 harg7 arg8 harg8 arg9 harg9) K } := by
  refine ⟨?_, ?_, fun E K => ?run⟩
  case run =>
    simp only [cc2__main_kernel_eq_skeleton]; unfold cc2__main_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS

end Cert.KernelIdeal.Hand

end
-- ==== Proof.KI.R2.lean ====
import proofs.«165809_j40355512714085_2_alg».proof.Proof.KI.R2RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The accumulating kernel (third call): its proof data and body obligation at the entry contents `V`

Grid point (i, j, k), k innermost. The accumulator holds, after the point, the initial value (the low-rank product plus
the bias row) plus the partial products of the slabs 0 … k; at k = 3 the output block (i, j) receives it. -/

/-- Case A's pieces for the accumulator tile it, so they cover it. -/
theorem scover2_A (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S2048x256 .bf16) (harg5 : arg5.IsWhole) (arg6 : Memref sig .tc .vmem S1024x256 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (hc0 : cond2_0 i) (hc1 : ¬cond2_1 i)
    (x0 : Vec F S2048x1024 .bf16) (x1 : Vec F S1024x1024 .bf16) (x2 : Vec F S2048x256 .bf16) (x3 : Vec F S1024x256 .bf16) (x4 : Vec F S1x1024 .f32) (y : S2048x1024.Idx) :
    ∃ pc ∈ (kernelRun2_A c i arg3 harg3 arg4 harg4 arg5 harg5 arg6 harg6 arg7 harg7 arg8 harg8 arg9 harg9 hc0 hc1 x0 x1 x2 x3 x4).2.1, y ∈ pc.1.set :=
  View.cover_of_tiledL (kernelRun2_A c i arg3 harg3 arg4 harg4 arg5 harg5 arg6 harg6 arg7 harg7 arg8 harg8 arg9 harg9 hc0 hc1 x0 x1 x2 x3 x4).2.1 S2048x1024.size (by sl_kernel_rfl) y

/-- What case A leaves in the accumulator: its two stores read back. -/
def sout2_A (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S2048x256 .bf16) (harg5 : arg5.IsWhole) (arg6 : Memref sig .tc .vmem S1024x256 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (hc0 : cond2_0 i) (hc1 : ¬cond2_1 i)
    (x0 : Vec F S2048x1024 .bf16) (x1 : Vec F S1024x1024 .bf16) (x2 : Vec F S2048x256 .bf16) (x3 : Vec F S1024x256 .bf16) (x4 : Vec F S1x1024 .f32) : Vec F S2048x1024 .f32 :=
  VS2.read (Elt F) (VS2.writes (Elt F) VS2.junk (kernelRun2_A c i arg3 harg3 arg4 harg4 arg5 harg5 arg6 harg6 arg7 harg7 arg8 harg8 arg9 harg9 hc0 hc1 x0 x1 x2 x3 x4).2.1)

/-- Case B's pieces for the accumulator tile it, so they cover it. -/
theorem scover2_B (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S2048x256 .bf16) (harg5 : arg5.IsWhole) (arg6 : Memref sig .tc .vmem S1024x256 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (hc0 : ¬cond2_0 i) (hc1 : ¬cond2_1 i)
    (x0 : Vec F S2048x1024 .bf16) (x1 : Vec F S1024x1024 .bf16) (x2 : Vec F S2048x256 .bf16) (x3 : Vec F S1024x256 .bf16) (x4 : Vec F S1x1024 .f32) (xs : Vec F S2048x1024 .f32) (y : S2048x1024.Idx) :
    ∃ pc ∈ (kernelRun2_B c i arg3 harg3 arg4 harg4 arg5 harg5 arg6 harg6 arg7 harg7 arg8 harg8 arg9 harg9 hc0 hc1 x0 x1 x2 x3 x4 xs).2.1, y ∈ pc.1.set :=
  View.cover_of_tiledL (kernelRun2_B c i arg3 harg3 arg4 harg4 arg5 harg5 arg6 harg6 arg7 harg7 arg8 harg8 arg9 harg9 hc0 hc1 x0 x1 x2 x3 x4 xs).2.1 S2048x1024.size (by sl_kernel_rfl) y

/-- What case B leaves in the accumulator: its store read back. -/
def sout2_B (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S2048x256 .bf16) (harg5 : arg5.IsWhole) (arg6 : Memref sig .tc .vmem S1024x256 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (hc0 : ¬cond2_0 i) (hc1 : ¬cond2_1 i)
    (x0 : Vec F S2048x1024 .bf16) (x1 : Vec F S1024x1024 .bf16) (x2 : Vec F S2048x256 .bf16) (x3 : Vec F S1024x256 .bf16) (x4 : Vec F S1x1024 .f32) (xs : Vec F S2048x1024 .f32) : Vec F S2048x1024 .f32 :=
  VS2.read (Elt F) (VS2.writes (Elt F) VS2.junk (kernelRun2_B c i arg3 harg3 arg4 harg4 arg5 harg5 arg6 harg6 arg7 harg7 arg8 harg8 arg9 harg9 hc0 hc1 x0 x1 x2 x3 x4 xs).2.1)

/-- Case C's pieces for the accumulator tile it, so they cover it. -/
theorem scover2_C (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S2048x256 .bf16) (harg5 : arg5.IsWhole) (arg6 : Memref sig .tc .vmem S1024x256 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (hc0 : ¬cond2_0 i) (hc1 : cond2_1 i)
    (x0 : Vec F S2048x1024 .bf16) (x1 : Vec F S1024x1024 .bf16) (x2 : Vec F S2048x256 .bf16) (x3 : Vec F S1024x256 .bf16) (x4 : Vec F S1x1024 .f32) (xs : Vec F S2048x1024 .f32) (y : S2048x1024.Idx) :
    ∃ pc ∈ (kernelRun2_C c i arg3 harg3 arg4 harg4 arg5 harg5 arg6 harg6 arg7 harg7 arg8 harg8 arg9 harg9 hc0 hc1 x0 x1 x2 x3 x4 xs).2.1, y ∈ pc.1.set :=
  View.cover_of_tiledL (kernelRun2_C c i arg3 harg3 arg4 harg4 arg5 harg5 arg6 harg6 arg7 harg7 arg8 harg8 arg9 harg9 hc0 hc1 x0 x1 x2 x3 x4 xs).2.1 S2048x1024.size (by sl_kernel_rfl) y

/-- What case C leaves in the accumulator: its store read back. -/
def sout2_C (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S2048x256 .bf16) (harg5 : arg5.IsWhole) (arg6 : Memref sig .tc .vmem S1024x256 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (hc0 : ¬cond2_0 i) (hc1 : cond2_1 i)
    (x0 : Vec F S2048x1024 .bf16) (x1 : Vec F S1024x1024 .bf16) (x2 : Vec F S2048x256 .bf16) (x3 : Vec F S1024x256 .bf16) (x4 : Vec F S1x1024 .f32) (xs : Vec F S2048x1024 .f32) : Vec F S2048x1024 .f32 :=
  VS2.read (Elt F) (VS2.writes (Elt F) VS2.junk (kernelRun2_C c i arg3 harg3 arg4 harg4 arg5 harg5 arg6 harg6 arg7 harg7 arg8 harg8 arg9 harg9 hc0 hc1 x0 x1 x2 x3 x4 xs).2.1)

/-- Case C's piece for the output window's buffer tiles it, so it covers it. -/
theorem cover2_C_5 (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S2048x256 .bf16) (harg5 : arg5.IsWhole) (arg6 : Memref sig .tc .vmem S1024x256 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (hc0 : ¬cond2_0 i) (hc1 : cond2_1 i)
    (x0 : Vec F S2048x1024 .bf16) (x1 : Vec F S1024x1024 .bf16) (x2 : Vec F S2048x256 .bf16) (x3 : Vec F S1024x256 .bf16) (x4 : Vec F S1x1024 .f32) (xs : Vec F S2048x1024 .f32) (y : S2048x1024.Idx) :
    ∃ pc ∈ (kernelRun2_C c i arg3 harg3 arg4 harg4 arg5 harg5 arg6 harg6 arg7 harg7 arg8 harg8 arg9 harg9 hc0 hc1 x0 x1 x2 x3 x4 xs).1, y ∈ pc.1.set :=
  View.cover_of_tiledL (kernelRun2_C c i arg3 harg3 arg4 harg4 arg5 harg5 arg6 harg6 arg7 harg7 arg8 harg8 arg9 harg9 hc0 hc1 x0 x1 x2 x3 x4 xs).1 S2048x1024.size (by sl_kernel_rfl) y

/-- What case C leaves in the output window's buffer: its store read back. -/
def out2_C_5 (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S2048x256 .bf16) (harg5 : arg5.IsWhole) (arg6 : Memref sig .tc .vmem S1024x256 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (hc0 : ¬cond2_0 i) (hc1 : cond2_1 i)
    (x0 : Vec F S2048x1024 .bf16) (x1 : Vec F S1024x1024 .bf16) (x2 : Vec F S2048x256 .bf16) (x3 : Vec F S1024x256 .bf16) (x4 : Vec F S1x1024 .f32) (xs : Vec F S2048x1024 .f32) : Vec F S2048x1024 .f32 :=
  VO2_5.read (Elt F) (VO2_5.writes (Elt F) VO2_5.junk (kernelRun2_C c i arg3 harg3 arg4 harg4 arg5 harg5 arg6 harg6 arg7 harg7 arg8 harg8 arg9 harg9 hc0 hc1 x0 x1 x2 x3 x4 xs).1)

/-! ## What the output window's buffer and the accumulator hold after each point -/

/-- THE ACCUMULATION, by recursion on the point: (the output window's buffer, the accumulator) after the body at
    position `n` — the case `n % 4` selects, run at the point's memrefs and input blocks, over what the point before
    left in the accumulator. Where the output window is idle (k ≠ 3) the first component is a placeholder nothing reads. -/
def outsAt2 (c : Dev nD) : (n : ℕ) → n < cfg2.N → Vec F S2048x1024 .f32 × Vec F S2048x1024 .f32
  | 0, hn => (sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩), sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩))
  | n + 1, hn =>
    if h0 : (n + 1) % 4 = 0 then
      if h1 : (n + 1) % 4 = 3 then
        False.elim (by omega)
      else
        (sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩), sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩))
    else
      if h1 : (n + 1) % 4 = 3 then
        (out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2, sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2)
      else
        (sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2)

/-- `outsAt2` at a point with k = 0. -/
theorem outsAt2_A (c : Dev nD) (t : Fin cfg2.N) (h0 : t.val % 4 = 0) (h1 : ¬t.val % 4 = 3) :
    outsAt2 V c t.val t.isLt = (sout2_A c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) ((hcond2_0 t).mpr h0) (fun h => h1 ((hcond2_1 t).mp h)) (iblk2 V c 0 t) (iblk2 V c 1 t) (iblk2 V c 2 t) (iblk2 V c 3 t) (iblk2 V c 4 t), sout2_A c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) ((hcond2_0 t).mpr h0) (fun h => h1 ((hcond2_1 t).mp h)) (iblk2 V c 0 t) (iblk2 V c 1 t) (iblk2 V c 2 t) (iblk2 V c 3 t) (iblk2 V c 4 t)) := by
  obtain ⟨n, hn⟩ := t
  cases n with
  | zero => exact rfl
  | succ n => exact (dif_pos h0).trans ((dif_neg h1).trans rfl)

/-- `outsAt2` at a point with k = 1, 2: over what the point before left. -/
theorem outsAt2_B (c : Dev nD) (t : Fin cfg2.N) (h0 : ¬t.val % 4 = 0) (h1 : ¬t.val % 4 = 3) :
    outsAt2 V c t.val t.isLt = (sout2_B c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2, sout2_B c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point with k = 3: over what the point before left. -/
theorem outsAt2_C (c : Dev nD) (t : Fin cfg2.N) (h0 : ¬t.val % 4 = 0) (h1 : t.val % 4 = 3) :
    outsAt2 V c t.val t.isLt = (out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2, sout2_C c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer at anything);
    afterwards the accumulator at what the point before left, the other scoped buffers unopened, the generator
    register at some state. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ Rest2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare ((outsAt2 V c n hn).2) ∗ Rest2 c) ∗ (∃ r, prngReg c r)) := rfl

theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ Rest2 c) ∗ (∃ r, prngReg c r)) := by
  cases n with
  | zero => exact absurd rfl hz
  | succ n => rfl

/-! ## The pipeline's proof data -/

/-- The proof data on core `c`: the arrays as the region finds them; after the body each input's buffer at its block and
    the output's at `outsAt2`'s first component; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ (dat2 V c).leavesExact 5 t)

set_option maxHeartbeats 4800000 in
/-- The body at any point: the inputs' memrefs hold their blocks; `t % 4` says which case the point is in; the invariant
    hands the body the accumulator at what the point before left (at anything where k = 0) and takes it back at this
    point's contents; the output window's buffer is handed back as found where k ≠ 3. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  rw [after2_0, after2_1, after2_2, after2_3, after2_4]
  have hN : t.val < 64 := lt_of_lt_of_eq t.isLt (show cfg2.N = 64 from N_2)
  by_cases h0 : t.val % 4 = 0
  · by_cases h1 : t.val % 4 = 3
    · exfalso; omega
    · rw [Dat.leavesExact_idle (dat2 V c) 5 t (idleAt2_5_A t ((hcond2_0 t).mpr h0) (fun h => h1 ((hcond2_1 t).mp h))) (noFlush2_5_A t ((hcond2_0 t).mpr h0) (fun h => h1 ((hcond2_1 t).mp h)))]
      rw [outsAt2_A V c t h0 h1]
      unfold sout2_A; (try dsimp only)
      by_cases hz : t.val = 0
      · rw [PhiS2_castSucc V c t, PhiS2_zero V c _ _ hz, PhiA2_eq]
        iintro ⟨⟨⟨HS, Hr⟩, Hg⟩, Ho, ⟨%d0, H0⟩, ⟨%d1, H1⟩, ⟨%d2, H2⟩, ⟨%d3, H3⟩, ⟨%d4, H4⟩, ⟨%d5, H5⟩⟩
        iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexact HS
        iintro ⟨H0, H1, H2, H3, H4, H5, ⟨%es, HS⟩⟩
        isplitl [HS Hr Hg]
        · isplitl [HS Hr]
          · isplitl [HS]
            · unfold owns; iexists _; isplitr
              swap; · iexact HS
              ipureintro; exact View.read_writes_of_cover _ _ _ _ _ (scover2_A c _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS2_castSucc V c t, PhiS2_pos V c _ _ hz]
        iintro ⟨⟨⟨HS, Hr⟩, Hg⟩, Ho, ⟨%d0, H0⟩, ⟨%d1, H1⟩, ⟨%d2, H2⟩, ⟨%d3, H3⟩, ⟨%d4, H4⟩, ⟨%d5, H5⟩⟩
        iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexists _; iexact HS
        iintro ⟨H0, H1, H2, H3, H4, H5, ⟨%es, HS⟩⟩
        isplitl [HS Hr Hg]
        · isplitl [HS Hr]
          · isplitl [HS]
            · unfold owns; iexists _; isplitr
              swap; · iexact HS
              ipureintro; exact View.read_writes_of_cover _ _ _ _ _ (scover2_A c _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · have hz : t.val ≠ 0 := fun e => h0 (by rw [e])
    by_cases h1 : t.val % 4 = 3
    · rw [show (dat2 V c).leavesExact 5 t = owns (c : Thread nD τ) (ms2_5 t) fullShare ((dat2 V c).after 5 t) from by
          unfold Dat.leavesExact; rw [liveAt2_5_C t (fun h => h0 ((hcond2_0 t).mp h)) ((hcond2_1 t).mpr h1)], after2_5]
      rw [outsAt2_C V c t h0 h1]
      unfold out2_C_5 sout2_C; (try dsimp only)
      rw [PhiS2_castSucc V c t, PhiS2_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩⟩
      iapply ((kernelRun2_C c (grid2.coords t) _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS Hr Hg]
      · isplitl [HS Hr]
        · isplitl [HS]
          · unfold owns; iexists _; isplitr
            swap; · iexact HS
            ipureintro; exact View.read_writes_of_cover _ _ _ _ _ (scover2_C c _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover2_C_5 c _ _ _ _ _ _ _ _ _ _ _ _ _ _ _ _ _ _ _ _ _ _ _)
    · rw [Dat.leavesExact_idle (dat2 V c) 5 t (idleAt2_5_B t (fun h => h0 ((hcond2_0 t).mp h)) (fun h => h1 ((hcond2_1 t).mp h))) (noFlush2_5_B t (fun h => h0 ((hcond2_0 t).mp h)) (fun h => h1 ((hcond2_1 t).mp h)))]
      rw [outsAt2_B V c t h0 h1]
      unfold sout2_B; (try dsimp only)
      rw [PhiS2_castSucc V c t, PhiS2_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩⟩
      iapply ((kernelRun2_B c (grid2.coords t) _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hr Hg]
      · isplitl [HS Hr]
        · isplitl [HS]
          · unfold owns; iexists _; isplitr
            swap; · iexact HS
            ipureintro; exact View.read_writes_of_cover _ _ _ _ _ (scover2_B c _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the accumulator's contents are forgotten. -/
theorem Phi_out2 (c : Dev nD) (t : Fin (cfg2.N + 1)) (ht : t.val ≠ 0) : (dat2 V c).Φ t ⊢ (Pipeline.ΦA spec2 c : sProp 𝕄) := by
  rw [show (dat2 V c).Φ t = PhiS2 V c t.val (Nat.le_of_lt_succ t.isLt) from rfl, PhiS2_pos V c _ _ ht, PhiA2_eq]
  iintro ⟨⟨HS, Hr⟩, Hg⟩
  isplitl [HS Hr]
  · isplitl [HS]
    · iexists _; iexact HS
    iexact Hr
  iexact Hg

/-- The same after the last point. -/
theorem hout2 (c : Dev nD) : (dat2 V c).Φ (Fin.last cfg2.N) ⊢ (Pipeline.ΦA spec2 c : sProp 𝕄) :=
  Phi_out2 V c _ (by rw [Fin.val_last]; have : cfg2.N = 64 := N_2; omega)

end Cert.KernelIdeal.Hand

end
-- ==== Proof.KI.Run.lean ====
/-
  The whole program as a run: two stretches of host reshapes around three kernel regions, in order. The contents of
  every unscoped buffer are followed from the launch through each item — a host stretch applies its operations; a
  region leaves its result arrays at what its write-backs produce and everything else untouched — and the final memory
  is read against the last of these valuations. No core owes another anything; the only things that ride along are
  the generator register and the (empty) tallies.
-/
import proofs.«165809_j40355512714085_2_alg».proof.Proof.KI.R0
import proofs.«165809_j40355512714085_2_alg».proof.Proof.KI.R1
import proofs.«165809_j40355512714085_2_alg».proof.Proof.KI.R2
import proofs.«165809_j40355512714085_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev W0 : Dev nD → Valuation τ sig (Elt F) := fun c b => m (c, b)
/-- After the leading reshapes. -/
abbrev W1 : Dev nD → Valuation τ sig (Elt F) := fun c => StableHlo.after hostOps0 (W0 m c)
abbrev E1 : (c : Dev nD) → (b : Ref sig .tc) → Buf (Elt F) ((c : Thread nD τ).loc b) := fun c b => W1 m c b

/-- After region 0: its arrays at what its write-backs leave, every other buffer as before it. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- After region 1: its arrays at what its write-backs leave, every other buffer as before it. -/
def W3 (c : Dev nD) : Valuation τ sig (Elt F) :=
  Pipeline.withArrays spec1 c (W2 m c) fun w => (dat1 (E2 m) c).arrAt w cfg1.N
theorem W3_arr (c : Dev nD) (w : Fin cfg1.W) :
    W3 m c (Proc.devRef .tc (Pipeline.arrRef spec1 w)) = (dat1 (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same read at the TensorCore's references. -/
abbrev E3 : (c : Dev nD) → (b : Ref sig .tc) → Buf (Elt F) ((c : Thread nD τ).loc b) := fun c b => W3 m c b
theorem hF1 (c : Dev nD) (w : Fin cfg1.W) : (dat1 (E2 m) c).arrAt w cfg1.N = E3 m c (Pipeline.arrRef spec1 w) :=
  (W3_arr m c w).symm
theorem hrest1 (c : Dev nD) : ∀ b, b ∉ Finset.univ.image (Pipeline.arrRef spec1) → E3 m c b = E2 m c b :=
  fun b hb => W3_of_ne m c b fun w e => hb (Finset.mem_image.mpr ⟨w, Finset.mem_univ _, e⟩)

/-- After region 2: its arrays at what its write-backs leave, every other buffer as before it. -/
def W4 (c : Dev nD) : Valuation τ sig (Elt F) :=
  Pipeline.withArrays spec2 c (W3 m c) fun w => (dat2 (E3 m) c).arrAt w cfg2.N
theorem W4_arr (c : Dev nD) (w : Fin cfg2.W) :
    W4 m c (Proc.devRef .tc (Pipeline.arrRef spec2 w)) = (dat2 (E3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
/-- The same read at the TensorCore's references. -/
abbrev E4 : (c : Dev nD) → (b : Ref sig .tc) → Buf (Elt F) ((c : Thread nD τ).loc b) := fun c b => W4 m c b
theorem hF2 (c : Dev nD) (w : Fin cfg2.W) : (dat2 (E3 m) c).arrAt w cfg2.N = E4 m c (Pipeline.arrRef spec2 w) :=
  (W4_arr m c w).symm
theorem hrest2 (c : Dev nD) : ∀ b, b ∉ Finset.univ.image (Pipeline.arrRef spec2) → E4 m c b = E3 m c b :=
  fun b hb => W4_of_ne m c b fun w e => hb (Finset.mem_image.mpr ⟨w, Finset.mem_univ _, e⟩)

/-- After the trailing reshape. -/
abbrev W5 : Dev nD → Valuation τ sig (Elt F) := fun c => StableHlo.after hostOps3 (W4 m c)

/-! ## The proof data family and what rides along -/

def pdats : (p : Fin 3) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E2 m) c
  | ⟨2, _⟩ => fun c => dat2 (E3 m) c
abbrev 𝒱₀ : Variants := Variants.none
abbrev L : GSem nD τ sig → Finset Unit := fun _ => ∅
abbrev lv : GSem nD τ sig → Unit → ℕ := fun _ _ => 0
/-- Beside the buffers: the generator register at some state, and nothing owed. -/
abbrev R (c : Dev nD) : sProp 𝕄 := iprop((∃ r, prngReg c r) ∗ ∃ W, owes (c : Thread nD τ) (0 : CellTallies nD τ sig Unit) W)
/-- A host stretch as a segment over all unscoped references, a rest riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) (rest : Dev nD → sProp 𝕄) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rest

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered with every unscoped buffer at the contents before it, left with the
    region's arrays at what its write-backs leave and every other buffer as entered. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]
    unfold Pipeline.ΦA
    iintro ⟨Hp, -, Hr⟩
    isplitl [Hr]; · iexact Hr
    iexact Hp
  hout c := by
    rw [Pipeline.ownSems0_none]
    rw [show (pdats m 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with the
    region's arrays at what its write-backs leave and every other buffer as entered. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]
    unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the contents before it, left with the
    region's arrays at what its write-backs leave and every other buffer as entered. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (E3 m) c).Φ 0 from rfl]
    refine BIBase.Entails.trans ?_ (hin2 (E3 m) c)
    unfold Pipeline.ΦA
    iintro ⟨Hp, -, Hr⟩
    isplitl [Hr]; · iexact Hr
    iexact Hp
  hout c := by
    rw [Pipeline.ownSems0_none]
    rw [show (pdats m 2 c).Φ (Fin.last _) = (dat2 (E3 m) c).Φ (Fin.last cfg2.N) from rfl]
    refine BIBase.Entails.trans (hout2 (E3 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E3 m c) (E4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (W0 m) R),
    .region (reg0 m),
    .region (reg1 m),
    .region (reg2 m),
    .host (hseg hostOps3 hostOps3_sub hostOps3_fresh (W4 m) fun c => iprop(∃ W, owes (c : Thread nD τ) (0 : CellTallies nD τ sig Unit) W)) ]

theorem main_run (c : Dev nD) : main (F := F) c = Pipeline.Seg.run (segs m) := (main_chain c).trans (by chain_rfl)

set_option backward.isDefEq.respectTransparency.types false in
/-- Every weakly fair execution of @main from memory `m` with zero counters terminates without a fault, and every final
    memory holds each unscoped buffer at the last valuation. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W5 m c))
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨Hh, HSI⟩
      unfold StableHlo.held
      imodintro
      iapply (pointsTo_read_all (Pipeline.ucRefs τ sig) (fun b => (((c : Thread nD τ)).1, b)) (W5 m c) s')
      isplitl [Hh] <;> iassumption)
    (hQ := fun s h => h)

end Cert.KernelIdeal.Hand

end
-- ==== Proof.KI.Frame.lean ====
/-
  The frame: no item of the program writes an argument array — a host reshape writes only its own result, and a
  kernel region either reads an argument through an input window (whose array ends as it began) or does not touch it
  — so each argument's buffer, read at the last valuation, walks back to its launch contents.
-/
import proofs.«165809_j40355512714085_2_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ)

theorem W5_main_arg0 (c : Dev nD) : W5 m c (Proc.devRef .tc main_arg0) = m ((c : Thread nD τ).loc main_arg0) :=
  calc W5 m c (Proc.devRef .tc main_arg0)
    _ = W4 m c (Proc.devRef .tc main_arg0) := (StableHlo.after_of_writes_sub hostOps3 _ hostOps3_writes (by decide))
    _ = W3 m c (Proc.devRef .tc main_arg0) := W4_of_ne m c main_arg0 (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := (StableHlo.after_of_writes_sub hostOps0 _ hostOps0_writes (by decide))
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := (StableHlo.after_of_writes_sub hostOps3 _ hostOps3_writes (by decide))
    _ = W3 m c (Proc.devRef .tc main_arg1) := W4_of_ne m c main_arg1 (by decide)
    _ = W2 m c (Proc.devRef .tc main_arg1) := W3_of_ne m c main_arg1 (by decide)
    _ = W1 m c (Proc.devRef .tc main_arg1) := (W2_arr m c 0).trans (((dat0 (E1 m) c).arrAt_in 0 rfl _).trans (A_eq0 (E1 m) c 0))
    _ = W0 m c (Proc.devRef .tc main_arg1) := (StableHlo.after_of_writes_sub hostOps0 _ hostOps0_writes (by decide))
    _ = m ((c : Thread nD τ).loc main_arg1) := rfl

theorem W5_main_arg2 (c : Dev nD) : W5 m c (Proc.devRef .tc main_arg2) = m ((c : Thread nD τ).loc main_arg2) :=
  calc W5 m c (Proc.devRef .tc main_arg2)
    _ = W4 m c (Proc.devRef .tc main_arg2) := (StableHlo.after_of_writes_sub hostOps3 _ hostOps3_writes (by decide))
    _ = W3 m c (Proc.devRef .tc main_arg2) := W4_of_ne m c main_arg2 (by decide)
    _ = W2 m c (Proc.devRef .tc main_arg2) := (W3_arr m c 1).trans (((dat1 (E2 m) c).arrAt_in 1 rfl _).trans (A_eq1 (E2 m) c 1))
    _ = W1 m c (Proc.devRef .tc main_arg2) := W2_of_ne m c main_arg2 (by decide)
    _ = W0 m c (Proc.devRef .tc main_arg2) := (StableHlo.after_of_writes_sub hostOps0 _ hostOps0_writes (by decide))
    _ = m ((c : Thread nD τ).loc main_arg2) := rfl

theorem W5_main_arg3 (c : Dev nD) : W5 m c (Proc.devRef .tc main_arg3) = m ((c : Thread nD τ).loc main_arg3) :=
  calc W5 m c (Proc.devRef .tc main_arg3)
    _ = W4 m c (Proc.devRef .tc main_arg3) := (StableHlo.after_of_writes_sub hostOps3 _ hostOps3_writes (by decide))
    _ = W3 m c (Proc.devRef .tc main_arg3) := W4_of_ne m c main_arg3 (by decide)
    _ = W2 m c (Proc.devRef .tc main_arg3) := W3_of_ne m c main_arg3 (by decide)
    _ = W1 m c (Proc.devRef .tc main_arg3) := (W2_arr m c 1).trans (((dat0 (E1 m) c).arrAt_in 1 rfl _).trans (A_eq0 (E1 m) c 1))
    _ = W0 m c (Proc.devRef .tc main_arg3) := (StableHlo.after_of_writes_sub hostOps0 _ hostOps0_writes (by decide))
    _ = m ((c : Thread nD τ).loc main_arg3) := rfl

theorem W5_main_arg4 (c : Dev nD) : W5 m c (Proc.devRef .tc main_arg4) = m ((c : Thread nD τ).loc main_arg4) :=
  calc W5 m c (Proc.devRef .tc main_arg4)
    _ = W4 m c (Proc.devRef .tc main_arg4) := (StableHlo.after_of_writes_sub hostOps3 _ hostOps3_writes (by decide))
    _ = W3 m c (Proc.devRef .tc main_arg4) := W4_of_ne m c main_arg4 (by decide)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := (StableHlo.after_of_writes_sub hostOps0 _ hostOps0_writes (by decide))
    _ = m ((c : Thread nD τ).loc main_arg4) := rfl

theorem W5_main_arg5 (c : Dev nD) : W5 m c (Proc.devRef .tc main_arg5) = m ((c : Thread nD τ).loc main_arg5) :=
  calc W5 m c (Proc.devRef .tc main_arg5)
    _ = W4 m c (Proc.devRef .tc main_arg5) := (StableHlo.after_of_writes_sub hostOps3 _ hostOps3_writes (by decide))
    _ = W3 m c (Proc.devRef .tc main_arg5) := W4_of_ne m c main_arg5 (by decide)
    _ = W2 m c (Proc.devRef .tc main_arg5) := W3_of_ne m c main_arg5 (by decide)
    _ = W1 m c (Proc.devRef .tc main_arg5) := W2_of_ne m c main_arg5 (by decide)
    _ = W0 m c (Proc.devRef .tc main_arg5) := (StableHlo.after_of_writes_sub hostOps0 _ hostOps0_writes (by decide))
    _ = m ((c : Thread nD τ).loc main_arg5) := rfl

/-- Every weakly fair execution of @main terminates without a fault with every argument array as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c)⟩) (run_all m ρ)

end Cert.KernelIdeal.Hand

end
-- ==== Proof.KI.R0Value.lean ====
/-
  The first kernel region's VALUE at the ideal instance: the two converted matrices are the matrices themselves.

  Point `t` of the eight reads rows 512 t … 512 t + 511 of the weight matrix [4096, 4096] and of the adapter's output
  matrix [4096, 256], converts them to the narrower float format and writes them to the same rows of the two results. On
  the extended reals the conversion is the identity, so what point `t` writes back is the row block `t` of the input
  matrix, read where the output's block lies: both index maps send `t` to the block `(t, 0)`. The eight row blocks
  cover every row (row `r` is in block `r / 512`), so each result array ends as its input matrix.
-/
import proofs.«165809_j40355512714085_2_alg».proof.Proof.KI.R0
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-! ## The index maps over the grid, and the conversion on the extended reals -/

/-- The zero offsets of a whole-block rectangle. -/
theorem zeros0 : (![0, 0] : Fin 2 → Nat) = fun _ => 0 := funext fun a => by fin_cases a <;> rfl

/-- The printed index maps, decided over the eight points: each input's block moves with its output's, and the
    output's block at point `t` is `(t, 0)`. -/
theorem idx_facts0 : ∀ t : Fin cfg0.N, win0_0.index t (0 : Fin 2) = win0_2.index t (0 : Fin 2)
    ∧ win0_0.index t (1 : Fin 2) = win0_2.index t (1 : Fin 2)
    ∧ win0_1.index t (0 : Fin 2) = win0_3.index t (0 : Fin 2)
    ∧ win0_1.index t (1 : Fin 2) = win0_3.index t (1 : Fin 2) :=
  (by decide +kernel : ∀ t : Fin grid0.N, _)

/-- Every row block of the weight result is some point's. -/
theorem idx_onto0_2 : ∀ q : Fin 8, ∃ t : Fin cfg0.N, win0_2.index t = ![q.val, 0] :=
  (by decide +kernel : ∀ q : Fin 8, ∃ t : Fin grid0.N, win0_2.index t = ![q.val, 0])

/-- Every row block of the adapter result is some point's. -/
theorem idx_onto0_3 : ∀ q : Fin 8, ∃ t : Fin cfg0.N, win0_3.index t = ![q.val, 0] :=
  (by decide +kernel : ∀ q : Fin 8, ∃ t : Fin grid0.N, win0_3.index t = ![q.val, 0])

/-- On the extended reals the conversion of the weight block is the block. -/
theorem pay0_2_apply (x0 : Vec Ideal S512x4096 .f32) (j : S512x4096.Idx) : k0_pay1 (F := Ideal) x0 j = x0 j := rfl

/-- On the extended reals the conversion of the adapter block is the block. -/
theorem pay0_3_apply (x1 : Vec Ideal S512x256 .f32) (j : S512x256.Idx) : k0_pay2 (F := Ideal) x1 j = x1 j := rfl

/-! ## The weight result -/

/-- WHAT POINT `t` WRITES BACK to the weight result is row block `t` of the weight matrix as the region finds it. -/
theorem flushed0_2_eq (c : Dev nD) (t : Fin cfg0.N) :
    (dat0 (F := Ideal) V c).flushed 2 t = ((cfg0.win 2).blk t).view.read (Elt Ideal) (V c main_arg1) := by
  show (cfg0.win 2).cut (grid0.coords t) ((dat0 (F := Ideal) V c).after 2 t) = _
  rw [after0_2]
  unfold out0_2
  rw [View.canon_unit_zero zeros0]
  simp only [View.ld_unit_zero (S := S512x4096) zeros0]
  obtain ⟨e0, e1, -, -⟩ := idx_facts0 t
  funext j
  show V c main_arg1 (((cfg0.win 0).blk t).view.emb j) = V c main_arg1 (((cfg0.win 2).blk t).view.emb j)
  have h0 : ((cfg0.win 0).blk t).view.emb j = ((cfg0.win 2).blk t).view.emb j := by
    funext a; apply Fin.ext
    match a with
    | ⟨0, _⟩ => show win0_0.index t (0 : Fin 2) * 512 + 1 * (j 0).val = win0_2.index t (0 : Fin 2) * 512 + 1 * (j 0).val; omega
    | ⟨1, _⟩ => show win0_0.index t (1 : Fin 2) * 4096 + 1 * (j 1).val = win0_2.index t (1 : Fin 2) * 4096 + 1 * (j 1).val; omega
  rw [h0]

/-- An index of the weight result is in point `t`'s block iff each coordinate is in the block's range on its axis. -/
theorem mem_blk0_2 (t : Fin cfg0.N) (i : S4096x4096.Idx) :
    i ∈ ((cfg0.win 2).blk t).view.set ↔ ∀ a : Fin 2, win0_2.index t a * S512x4096.size a ≤ (i a).val ∧ (i a).val < win0_2.index t a * S512x4096.size a + S512x4096.size a := by
  show i ∈ ((View.whole main_v3_0).slice (win0_2.rect t)).set ↔ _
  rw [View.set_slice_whole, Rect.mem_set_unit]
  exact Iff.rfl

/-- Every index of the weight result is in some point's block: row `r` in block `r / 512`. -/
theorem covered0_2 (i : S4096x4096.Idx) :
    ∃ t : Fin cfg0.N, (cfg0.win 2).flush t = true ∧ i ∈ ((cfg0.win 2).blk t).view.set := by
  have hi0 : (i 0).val < 4096 := (i 0).isLt
  have hi1 : (i 1).val < 4096 := (i 1).isLt
  obtain ⟨t, ht⟩ := idx_onto0_2 ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_blk0_2]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 4096 ≤ (i 1).val ∧ (i 1).val < win0_2.index t (1 : Fin 2) * 4096 + 4096; omega

/-- THE WEIGHT RESULT after the region is the weight matrix as the region finds it. -/
theorem val0_2 (c : Dev nD) : (dat0 (F := Ideal) V c).arrAt 2 cfg0.N = V c main_arg1 :=
  (dat0 (F := Ideal) V c).arrAt_eq_of_cover 2 (V c main_arg1) (fun t _ => flushed0_2_eq V c t) covered0_2

/-! ## The adapter result -/

/-- WHAT POINT `t` WRITES BACK to the adapter result is row block `t` of the adapter matrix as the region finds it. -/
theorem flushed0_3_eq (c : Dev nD) (t : Fin cfg0.N) :
    (dat0 (F := Ideal) V c).flushed 3 t = ((cfg0.win 3).blk t).view.read (Elt Ideal) (V c main_arg3) := by
  show (cfg0.win 3).cut (grid0.coords t) ((dat0 (F := Ideal) V c).after 3 t) = _
  rw [after0_3]
  unfold out0_3
  rw [View.canon_unit_zero zeros0]
  simp only [View.ld_unit_zero (S := S512x256) zeros0]
  obtain ⟨-, -, e2, e3⟩ := idx_facts0 t
  funext j
  show V c main_arg3 (((cfg0.win 1).blk t).view.emb j) = V c main_arg3 (((cfg0.win 3).blk t).view.emb j)
  have h1 : ((cfg0.win 1).blk t).view.emb j = ((cfg0.win 3).blk t).view.emb j := by
    funext a; apply Fin.ext
    match a with
    | ⟨0, _⟩ => show win0_1.index t (0 : Fin 2) * 512 + 1 * (j 0).val = win0_3.index t (0 : Fin 2) * 512 + 1 * (j 0).val; omega
    | ⟨1, _⟩ => show win0_1.index t (1 : Fin 2) * 256 + 1 * (j 1).val = win0_3.index t (1 : Fin 2) * 256 + 1 * (j 1).val; omega
  rw [h1]

/-- An index of the adapter result is in point `t`'s block iff each coordinate is in the block's range on its axis. -/
theorem mem_blk0_3 (t : Fin cfg0.N) (i : S4096x256.Idx) :
    i ∈ ((cfg0.win 3).blk t).view.set ↔ ∀ a : Fin 2, win0_3.index t a * S512x256.size a ≤ (i a).val ∧ (i a).val < win0_3.index t a * S512x256.size a + S512x256.size a := by
  show i ∈ ((View.whole main_v3_1).slice (win0_3.rect t)).set ↔ _
  rw [View.set_slice_whole, Rect.mem_set_unit]
  exact Iff.rfl

/-- Every index of the adapter result is in some point's block: row `r` in block `r / 512`. -/
theorem covered0_3 (i : S4096x256.Idx) :
    ∃ t : Fin cfg0.N, (cfg0.win 3).flush t = true ∧ i ∈ ((cfg0.win 3).blk t).view.set := by
  have hi0 : (i 0).val < 4096 := (i 0).isLt
  have hi1 : (i 1).val < 256 := (i 1).isLt
  obtain ⟨t, ht⟩ := idx_onto0_3 ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk0_3]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 256 ≤ (i 1).val ∧ (i 1).val < win0_3.index t (1 : Fin 2) * 256 + 256; omega

/-- THE ADAPTER RESULT after the region is the adapter matrix as the region finds it. -/
theorem val0_3 (c : Dev nD) : (dat0 (F := Ideal) V c).arrAt 3 cfg0.N = V c main_arg3 :=
  (dat0 (F := Ideal) V c).arrAt_eq_of_cover 3 (V c main_arg3) (fun t _ => flushed0_3_eq V c t) covered0_3

end Cert.KernelIdeal.Hand

end
-- ==== Proof.Spec.lean ====
/-
  The mathematics of the fused linear layer with a low-rank adapter, as pure functions on the extended reals.

  With rows `m < 8192` (the batch and sequence axes flattened), inputs `i < 4096`, outputs `o < 4096` and rank
  `r < 256`:
    xa[m, r]  = (Σ_i x[m, i] · A[r, i]) · d[r]
    out[m, o] = ((((Σ_r xa[m, r] · B[o, r] + b[o]) + P₀) + P₁) + P₂) + P₃,   P_k = Σ_{i < 1024} x[m, 1024k + i] · W[o, 1024k + i]
  is what the tiled computation accumulates (the contraction over the inputs cut into four slabs of 1024 and added to
  the adapter term one slab at a time), and
    ref[m, o] = (Σ_i x[m, i] · W[o, i]) + ((Σ_r xa[m, r] · B[o, r]) + b[o])
  is the plain formula. They agree on the extended reals because only the order and grouping of a finite sum differ:
  addition there is commutative and associative, so no finiteness of the entries is needed.
-/
import Idealize.ShloMosaic.PureOps.Ideal
import Idealize.ShloMosaic.Lib.ValueIdx

noncomputable section

namespace Cert.Vera

open Idealize.ShloMosaic Idealize.ShloMosaic.ValueIdx
open scoped BigOperators

/-! ## Shapes (literal, shared by every program) -/

abbrev SX3 : Shape := ⟨3, ![4, 2048, 4096]⟩
abbrev SX : Shape := ⟨2, ![8192, 4096]⟩
abbrev SW : Shape := ⟨2, ![4096, 4096]⟩
abbrev SA : Shape := ⟨2, ![256, 4096]⟩
abbrev SB : Shape := ⟨2, ![4096, 256]⟩
abbrev SXA : Shape := ⟨2, ![8192, 256]⟩
abbrev SD2 : Shape := ⟨2, ![1, 256]⟩
abbrev SBias2 : Shape := ⟨2, ![1, 4096]⟩
abbrev SD : Shape := ⟨1, ![256]⟩
abbrev SBias : Shape := ⟨1, ![4096]⟩

/-! ## The pieces on flattened rows -/

/-- The projected and scaled row entry `xa[m, r] = (Σ_i x[m, i] · A[r, i]) · d[r]`, the scale read from a one-row array. -/
def xaAt (x : SX.Idx → EReal) (A : SA.Idx → EReal) (d2 : SD2.Idx → EReal) (m : Fin 8192) (r : Fin 256) : EReal :=
  (∑ i : Fin 4096, x (ix2 m i) * A (ix2 r i)) * d2 (ix2 (0 : Fin 1) r)

/-- The array of those entries. -/
def xaK (x : SX.Idx → EReal) (A : SA.Idx → EReal) (d2 : SD2.Idx → EReal) : SXA.Idx → EReal :=
  fun j => xaAt x A d2 (j 0) (j 1)

/-- Input `i` of slab `k`: `1024 k + i`. -/
def slabIdx (k : Fin 4) (i : Fin 1024) : Fin 4096 := ⟨k.val * 1024 + i.val, by omega⟩

/-- The slab term `P_k[m, o] = Σ_{i < 1024} x[m, 1024 k + i] · W[o, 1024 k + i]`. -/
def partAt (x : SX.Idx → EReal) (W : SW.Idx → EReal) (m : Fin 8192) (o : Fin 4096) (k : Fin 4) : EReal :=
  ∑ i : Fin 1024, x (ix2 m (slabIdx k i)) * W (ix2 o (slabIdx k i))

/-- The adapter term with the bias, `Σ_r xa[m, r] · B[o, r] + b[o]`, the bias read from a one-row array. -/
def initAt (xa : SXA.Idx → EReal) (B : SB.Idx → EReal) (b2 : SBias2.Idx → EReal) (m : Fin 8192) (o : Fin 4096) : EReal :=
  (∑ r : Fin 256, xa (ix2 m r) * B (ix2 o r)) + b2 (ix2 (0 : Fin 1) o)

/-- What the accumulation over the four slabs ends with at `[m, o]`. -/
def mainAt (x : SX.Idx → EReal) (W : SW.Idx → EReal) (xa : SXA.Idx → EReal) (B : SB.Idx → EReal) (b2 : SBias2.Idx → EReal)
    (m : Fin 8192) (o : Fin 4096) : EReal :=
  (((initAt xa B b2 m o + partAt x W m o 0) + partAt x W m o 1) + partAt x W m o 2) + partAt x W m o 3

/-- The array of those entries. -/
def mainK (x : SX.Idx → EReal) (W : SW.Idx → EReal) (xa : SXA.Idx → EReal) (B : SB.Idx → EReal) (b2 : SBias2.Idx → EReal) :
    SX.Idx → EReal :=
  fun j => mainAt x W xa B b2 (j 0) (j 1)

/-! ## Flattening the batch and sequence axes -/

/-- Row `2048 bt + s` of the flattened array. -/
def rowOf (bt : Fin 4) (s : Fin 2048) : Fin 8192 := ⟨bt.val * 2048 + s.val, by omega⟩

/-- The rows of a `[4, 2048, 4096]` array as a `[8192, 4096]` array (row-major). -/
def flat (x : SX3.Idx → EReal) : SX.Idx → EReal :=
  fun j => x (ix3 (⟨(j 0).val / 2048, by have := idx2_lt0 j; omega⟩ : Fin 4) (⟨(j 0).val % 2048, by omega⟩ : Fin 2048) (j 1))

/-- A vector as a one-row array. -/
def row256 (d : SD.Idx → EReal) : SD2.Idx → EReal := fun j => d (ix1 (j 1))
def row4096 (b : SBias.Idx → EReal) : SBias2.Idx → EReal := fun j => b (ix1 (j 1))

/-! ## The two whole-array functions of the arguments -/

/-- The tiled computation's result: the accumulation on the flattened rows, read back at `[bt, s, o]`. -/
def Gker (x : SX3.Idx → EReal) (W : SW.Idx → EReal) (A : SA.Idx → EReal) (B : SB.Idx → EReal) (d : SD.Idx → EReal) (b : SBias.Idx → EReal) :
    SX3.Idx → EReal :=
  fun j => mainAt (flat x) W (xaK (flat x) A (row256 d)) B (row4096 b) (rowOf (j 0) (j 1)) (j 2)

/-- The plain formula at `[bt, s, o]`: the base product plus the adapter term with the bias. -/
def Gref (x : SX3.Idx → EReal) (W : SW.Idx → EReal) (A : SA.Idx → EReal) (B : SB.Idx → EReal) (d : SD.Idx → EReal) (b : SBias.Idx → EReal) :
    SX3.Idx → EReal :=
  fun j => (∑ i : Fin 4096, x (ix3 (j 0) (j 1) i) * W (ix2 (j 2) i))
    + ((∑ r : Fin 256, ((∑ i : Fin 4096, x (ix3 (j 0) (j 1) i) * A (ix2 r i)) * d (ix1 r)) * B (ix2 (j 2) r)) + b (ix1 (j 2)))

end Cert.Vera

end
-- ==== Proof.KI.R1Value.lean ====
/-
  What the second kernel region leaves in its two result arrays, at the exact (extended real) values: the converted
  activation is the activation itself, and the projected array is, entry by entry, the activation row against the
  down-projection row, times the scaling entry. Each point writes back rows 512 t … 512 t + 511; the sixteen row blocks
  tile the 8192 rows, so the arrays end at one function of the arrays the region found.
-/
import proofs.«165809_j40355512714085_2_alg».proof.Proof.KI.R1
import proofs.«165809_j40355512714085_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx
open scoped BigOperators

/-! ## The payloads at an entry -/

/-- At the exact values the conversion to the narrower format changes nothing: the converted block is the block. -/
theorem k1_pay1_at (v0 : Vec Ideal S512x4096 .f32) (j : S512x4096.Idx) : k1_pay1 v0 j = v0 j := by
  unfold k1_pay1
  show shapeCast S512x4096 v0 shapeCasts_S512x4096_S512x4096 j = v0 j
  rw [shapeCast_self]

/-- The operand indices of the block product at an output entry and a contraction index, coordinate by coordinate. -/
theorem lhs_xa_0 (i : S512x256.Idx) (q : dot_S512x4096_S256x4096_S512x256_1_1_0_0_n_n.contr.Idx) :
    (dot_S512x4096_S256x4096_S512x256_1_1_0_0_n_n.lhsIdx i q 0).val = (i 0).val := by
  unfold DotDims.lhsIdx
  rw [dif_neg (show ¬(0 : Fin S512x4096.rank) ∈ dot_S512x4096_S256x4096_S512x256_1_1_0_0_n_n.lhsBatch by decide), dif_pos (show (0 : Fin S512x4096.rank) ∈ dot_S512x4096_S256x4096_S512x256_1_1_0_0_n_n.lhsNonContracting by decide)]
  rfl
theorem lhs_xa_1 (i : S512x256.Idx) (q : dot_S512x4096_S256x4096_S512x256_1_1_0_0_n_n.contr.Idx) :
    (dot_S512x4096_S256x4096_S512x256_1_1_0_0_n_n.lhsIdx i q 1).val = (q ⟨0, by decide⟩).val :=
  dot_S512x4096_S256x4096_S512x256_1_1_0_0_n_n.lhsIdx_val_of_single rfl i q
theorem rhs_xa_0 (i : S512x256.Idx) (q : dot_S512x4096_S256x4096_S512x256_1_1_0_0_n_n.contr.Idx) :
    (dot_S512x4096_S256x4096_S512x256_1_1_0_0_n_n.rhsIdx i q 0).val = (i 1).val := by
  unfold DotDims.rhsIdx
  rw [dif_neg (show ¬(0 : Fin S256x4096.rank) ∈ dot_S512x4096_S256x4096_S512x256_1_1_0_0_n_n.rhsBatch by decide), dif_pos (show (0 : Fin S256x4096.rank) ∈ dot_S512x4096_S256x4096_S512x256_1_1_0_0_n_n.rhsNonContracting by decide)]
  rfl
theorem rhs_xa_1 (i : S512x256.Idx) (q : dot_S512x4096_S256x4096_S512x256_1_1_0_0_n_n.contr.Idx) :
    (dot_S512x4096_S256x4096_S512x256_1_1_0_0_n_n.rhsIdx i q 1).val = (q ⟨0, by decide⟩).val :=
  dot_S512x4096_S256x4096_S512x256_1_1_0_0_n_n.rhsIdx_val_of_single rfl i q

/-- The projected block at row `a`, column `r`: the activation row against row `r` of the down-projection matrix, times
    the scaling entry at `r`. -/
theorem k1_pay2_at (v0 : Vec Ideal S512x4096 .f32) (v4 : Vec Ideal S256x4096 .f32) (v7 : Vec Ideal S1x256 .f32)
    (a : Fin 512) (r : Fin 256) :
    k1_pay2 v0 v4 v7 (ix2 a r) = (∑ i : Fin 4096, v0 (ix2 a i) * v4 (ix2 r i)) * v7 (ix2 (0 : Fin 1) r) := by
  unfold k1_pay2
  show FloatOps.matmul dot_S512x4096_S256x4096_S512x256_1_1_0_0_n_n none (k1_pay1 v0) (truncf .bf16 v4 bitsLt_bf16_f32)
        (constant S512x256 .f32 0x00000000#32) (ix2 a r)
      * broadcastTo S512x256 (shapeCast S1x256 v7 shapeCasts_S1x256_S1x256) broadcasts_S1x256_S512x256 (ix2 a r) = _
  rw [shapeCast_self, broadcastTo_1b_ab_apply, Ideal.matmul_constant_zero_apply,
    ← Equiv.sum_comp (contrEquiv1 dot_S512x4096_S256x4096_S512x256_1_1_0_0_n_n 4096 rfl rfl).symm]
  refine congrArg (· * v7 (ix2 (0 : Fin 1) r)) (Finset.sum_congr rfl fun k _ => ?_)
  have hk := contrEquiv1_symm_val dot_S512x4096_S256x4096_S512x256_1_1_0_0_n_n 4096 rfl rfl k
  have el : dot_S512x4096_S256x4096_S512x256_1_1_0_0_n_n.lhsIdx (ix2 a r) ((contrEquiv1 dot_S512x4096_S256x4096_S512x256_1_1_0_0_n_n 4096 rfl rfl).symm k) = ix2 a k := funext fun ax => Fin.ext (by
    match ax with
    | ⟨0, _⟩ => exact lhs_xa_0 _ _
    | ⟨1, _⟩ => exact (lhs_xa_1 _ _).trans hk)
  have er : dot_S512x4096_S256x4096_S512x256_1_1_0_0_n_n.rhsIdx (ix2 a r) ((contrEquiv1 dot_S512x4096_S256x4096_S512x256_1_1_0_0_n_n 4096 rfl rfl).symm k) = ix2 r k := funext fun ax => Fin.ext (by
    match ax with
    | ⟨0, _⟩ => exact rhs_xa_0 _ _
    | ⟨1, _⟩ => exact (rhs_xa_1 _ _).trans hk)
  rw [el, er, k1_pay1_at]
  rfl

/-! ## From the row blocks to the arrays -/

variable (V : (c : Dev nD) → (b : Ref sig .tc) → Buf (Elt Ideal) ((c : Thread nD τ).loc b))

theorem zeros2 : (![0, 0] : Fin 2 → Nat) = fun _ => 0 := funext fun a => by fin_cases a <;> rfl

/-- The block indices over the grid: the activation and the two results move down one row block per point, on the
    first axis only; the down-projection matrix and the scaling row stay at block (0, 0). -/
theorem index1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- An entry of the projected block is the entry of the projected array at the same row of the activation: the block's
    row read from the activation array, the other two operands read whole. -/
theorem xa_entry (x : S8192x4096.Idx → EReal) (A : S256x4096.Idx → EReal) (d : S1x256.Idx → EReal)
    (x0 : Vec Ideal S512x4096 .f32) (x1 : Vec Ideal S256x4096 .f32) (x2 : Vec Ideal S1x256 .f32)
    (i : S8192x256.Idx) (j : S512x256.Idx)
    (h0 : ∀ k : Fin 4096, x0 (ix2 (j 0) k) = x (ix2 (i 0) k))
    (h1 : ∀ y, x1 y = A y) (h2 : ∀ y, x2 y = d y) (hi1 : (i 1).val = (j 1).val) :
    k1_pay2 x0 x1 x2 j = Cert.Vera.xaK x A d i := by
  have e1 : (i 1 : Fin 256) = j 1 := Fin.ext hi1
  have hj : j = ix2 (n0 := 512) (n1 := 256) (j 0) (j 1) := eq_ix2 (n0 := 512) (n1 := 256) j
  refine (congrArg (k1_pay2 x0 x1 x2) hj).trans ((k1_pay2_at x0 x1 x2 (j 0) (j 1)).trans ?_)
  unfold Cert.Vera.xaK Cert.Vera.xaAt
  rw [e1, h2]
  refine congrArg (· * d (ix2 (0 : Fin 1) (j 1))) (Finset.sum_congr rfl fun k _ => ?_)
  rw [h0, h1]

/-- What point `t` writes back to the converted activation is its row block of the activation. -/
theorem flushed1_4_eq (c : Dev nD) (t : Fin cfg1.N) :
    (dat1 (F := Ideal) V c).flushed 4 t = ((cfg1.win 4).blk t).view.read (Elt Ideal) (V c main_v0) := by
  show (cfg1.win 4).cut (grid1.coords t) ((dat1 V c).after 4 t) = _
  rw [after1_4]
  unfold out1_4
  rw [View.canon_unit_zero zeros2]
  simp only [View.ld_unit_zero (S := S512x4096) zeros2]
  obtain ⟨e00, e01, e10, e11, e20, e21, e30, e31, e40, e41⟩ := index1 t
  funext j
  refine (k1_pay1_at _ j).trans ?_
  show V c main_v0 (((cfg1.win 0).blk t).view.emb j) = V c main_v0 (((cfg1.win 4).blk t).view.emb j)
  refine congrArg (V c main_v0) (funext fun a => Fin.ext ?_)
  match a with
  | ⟨0, _⟩ => show win1_0.index t (0 : Fin 2) * 512 + 1 * (j 0).val = win1_4.index t (0 : Fin 2) * 512 + 1 * (j 0).val; omega
  | ⟨1, _⟩ => show win1_0.index t (1 : Fin 2) * 4096 + 1 * (j 1).val = win1_4.index t (1 : Fin 2) * 4096 + 1 * (j 1).val; omega

/-- What point `t` writes back to the projected array is its row block of the projected array of the arrays found. -/
theorem flushed1_3_eq (c : Dev nD) (t : Fin cfg1.N) :
    (dat1 (F := Ideal) V c).flushed 3 t
      = ((cfg1.win 3).blk t).view.read (Elt Ideal) (Cert.Vera.xaK (V c main_v0) (V c main_arg2) (V c main_v1)) := by
  show (cfg1.win 3).cut (grid1.coords t) ((dat1 V c).after 3 t) = _
  rw [after1_3]
  unfold out1_3
  rw [View.canon_unit_zero zeros2]
  simp only [View.ld_unit_zero (S := S512x4096) zeros2, View.ld_unit_zero (S := S256x4096) zeros2,
    View.ld_unit_zero (S := S1x256) zeros2]
  obtain ⟨e00, e01, e10, e11, e20, e21, e30, e31, e40, e41⟩ := index1 t
  funext j
  show k1_pay2 (iblk1 V c 0 t) (iblk1 V c 1 t) (iblk1 V c 2 t) j
    = Cert.Vera.xaK (V c main_v0) (V c main_arg2) (V c main_v1) (((cfg1.win 3).blk t).view.emb j)
  refine xa_entry _ _ _ _ _ _ _ j (fun k => ?_) (fun y => ?_) (fun y => ?_) ?_
  · show V c main_v0 (((cfg1.win 0).blk t).view.emb (ix2 (j 0) k)) = V c main_v0 (ix2 ((((cfg1.win 3).blk t).view.emb j) 0) k)
    refine congrArg (V c main_v0) (funext fun a => Fin.ext ?_)
    match a with
    | ⟨0, _⟩ => show win1_0.index t (0 : Fin 2) * 512 + 1 * (j 0).val = win1_3.index t (0 : Fin 2) * 512 + 1 * (j 0).val; omega
    | ⟨1, _⟩ => show win1_0.index t (1 : Fin 2) * 4096 + 1 * k.val = k.val; omega
  · show V c main_arg2 (((cfg1.win 1).blk t).view.emb y) = V c main_arg2 y
    refine congrArg (V c main_arg2) (funext fun a => Fin.ext ?_)
    match a with
    | ⟨0, _⟩ => show win1_1.index t (0 : Fin 2) * 256 + 1 * (y 0).val = (y 0).val; omega
    | ⟨1, _⟩ => show win1_1.index t (1 : Fin 2) * 4096 + 1 * (y 1).val = (y 1).val; omega
  · show V c main_v1 (((cfg1.win 2).blk t).view.emb y) = V c main_v1 y
    refine congrArg (V c main_v1) (funext fun a => Fin.ext ?_)
    match a with
    | ⟨0, _⟩ => show win1_2.index t (0 : Fin 2) * 1 + 1 * (y 0).val = (y 0).val; omega
    | ⟨1, _⟩ => show win1_2.index t (1 : Fin 2) * 256 + 1 * (y 1).val = (y 1).val; omega
  · show win1_3.index t (1 : Fin 2) * 256 + 1 * (j 1).val = (j 1).val; omega

/-- An index of a result array is in point `t`'s block iff each coordinate is in the block's range on its axis. -/
theorem mem_blk1_4 (t : Fin cfg1.N) (i : S8192x4096.Idx) :
    i ∈ ((cfg1.win 4).blk t).view.set ↔ ∀ a : Fin 2, win1_4.index t a * S512x4096.size a ≤ (i a).val ∧ (i a).val < win1_4.index t a * S512x4096.size a + S512x4096.size a := by
  show i ∈ ((View.whole main_v4_1).slice (win1_4.rect t)).set ↔ _
  rw [View.set_slice_whole, Rect.mem_set_unit]
  exact Iff.rfl

theorem mem_blk1_3 (t : Fin cfg1.N) (i : S8192x256.Idx) :
    i ∈ ((cfg1.win 3).blk t).view.set ↔ ∀ a : Fin 2, win1_3.index t a * S512x256.size a ≤ (i a).val ∧ (i a).val < win1_3.index t a * S512x256.size a + S512x256.size a := by
  show i ∈ ((View.whole main_v4_0).slice (win1_3.rect t)).set ↔ _
  rw [View.set_slice_whole, Rect.mem_set_unit]
  exact Iff.rfl

/-- Row `r` is in the block of point `r / 512`: the sixteen row blocks fill the 8192 rows. -/
theorem covered1_4 (i : S8192x4096.Idx) :
    ∃ t : Fin cfg1.N, (cfg1.win 4).flush t = true ∧ i ∈ ((cfg1.win 4).blk t).view.set := by
  have hi0 : (i 0).val < 8192 := (i 0).isLt
  have hi1 : (i 1).val < 4096 := (i 1).isLt
  have hN : (i 0).val / 512 < cfg1.N := by show (i 0).val / 512 < grid1.N; rw [N_1]; omega
  refine ⟨⟨(i 0).val / 512, hN⟩, flush1_4 _, ?_⟩
  obtain ⟨e00, e01, e10, e11, e20, e21, e30, e31, e40, e41⟩ := index1 ⟨(i 0).val / 512, hN⟩
  have ht : (⟨(i 0).val / 512, hN⟩ : Fin cfg1.N).val = (i 0).val / 512 := rfl
  rw [mem_blk1_4]
  intro a
  match a with
  | ⟨0, _⟩ => show win1_4.index ⟨(i 0).val / 512, hN⟩ (0 : Fin 2) * 512 ≤ (i 0).val ∧ (i 0).val < win1_4.index ⟨(i 0).val / 512, hN⟩ (0 : Fin 2) * 512 + 512; omega
  | ⟨1, _⟩ => show win1_4.index ⟨(i 0).val / 512, hN⟩ (1 : Fin 2) * 4096 ≤ (i 1).val ∧ (i 1).val < win1_4.index ⟨(i 0).val / 512, hN⟩ (1 : Fin 2) * 4096 + 4096; omega

theorem covered1_3 (i : S8192x256.Idx) :
    ∃ t : Fin cfg1.N, (cfg1.win 3).flush t = true ∧ i ∈ ((cfg1.win 3).blk t).view.set := by
  have hi0 : (i 0).val < 8192 := (i 0).isLt
  have hi1 : (i 1).val < 256 := (i 1).isLt
  have hN : (i 0).val / 512 < cfg1.N := by show (i 0).val / 512 < grid1.N; rw [N_1]; omega
  refine ⟨⟨(i 0).val / 512, hN⟩, flush1_3 _, ?_⟩
  obtain ⟨e00, e01, e10, e11, e20, e21, e30, e31, e40, e41⟩ := index1 ⟨(i 0).val / 512, hN⟩
  have ht : (⟨(i 0).val / 512, hN⟩ : Fin cfg1.N).val = (i 0).val / 512 := rfl
  rw [mem_blk1_3]
  intro a
  match a with
  | ⟨0, _⟩ => show win1_3.index ⟨(i 0).val / 512, hN⟩ (0 : Fin 2) * 512 ≤ (i 0).val ∧ (i 0).val < win1_3.index ⟨(i 0).val / 512, hN⟩ (0 : Fin 2) * 512 + 512; omega
  | ⟨1, _⟩ => show win1_3.index ⟨(i 0).val / 512, hN⟩ (1 : Fin 2) * 256 ≤ (i 1).val ∧ (i 1).val < win1_3.index ⟨(i 0).val / 512, hN⟩ (1 : Fin 2) * 256 + 256; omega

/-! ## The two result arrays after the region -/

/-- The converted activation ends at the activation the region found. -/
theorem val1_4 (c : Dev nD) : (dat1 (F := Ideal) V c).arrAt 4 cfg1.N = V c main_v0 :=
  (dat1 (F := Ideal) V c).arrAt_eq_of_cover 4 (V c main_v0) (fun t _ => flushed1_4_eq V c t) covered1_4

/-- The projected array ends at the projected and scaled rows of the arrays the region found. -/
theorem val1_3 (c : Dev nD) :
    (dat1 (F := Ideal) V c).arrAt 3 cfg1.N = Cert.Vera.xaK (V c main_v0) (V c main_arg2) (V c main_v1) :=
  (dat1 (F := Ideal) V c).arrAt_eq_of_cover 3 (Cert.Vera.xaK (V c main_v0) (V c main_arg2) (V c main_v1))
    (fun t _ => flushed1_3_eq V c t) covered1_3

end Cert.KernelIdeal.Hand

end
-- ==== Proof.KI.R2Pay.lean ====
/-
  The two values the third kernel region's body stores into its accumulator, read at an entry at the exact (extended
  real) values: at the first slab the adapter term with the bias, row `a` of the projected block against row `b` of the
  adapter's output block plus the bias entry at `b`; at every slab the accumulator's entry plus row `a` of the
  activation slab against row `b` of the weight slab.
-/
import proofs.«165809_j40355512714085_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic
open Idealize.ShloMosaic.ValueIdx
open scoped BigOperators

/-! ## The adapter term with the bias -/

/-- The operand indices of the adapter product at an output entry and a contraction index, coordinate by coordinate. -/
theorem lhs_ad_0 (i : S2048x1024.Idx) (q : dot_S2048x256_S1024x256_S2048x1024_1_1_0_0_n_n.contr.Idx) :
    (dot_S2048x256_S1024x256_S2048x1024_1_1_0_0_n_n.lhsIdx i q 0).val = (i 0).val := by
  unfold DotDims.lhsIdx
  rw [dif_neg (show ¬(0 : Fin S2048x256.rank) ∈ dot_S2048x256_S1024x256_S2048x1024_1_1_0_0_n_n.lhsBatch by decide), dif_pos (show (0 : Fin S2048x256.rank) ∈ dot_S2048x256_S1024x256_S2048x1024_1_1_0_0_n_n.lhsNonContracting by decide)]
  rfl
theorem lhs_ad_1 (i : S2048x1024.Idx) (q : dot_S2048x256_S1024x256_S2048x1024_1_1_0_0_n_n.contr.Idx) :
    (dot_S2048x256_S1024x256_S2048x1024_1_1_0_0_n_n.lhsIdx i q 1).val = (q ⟨0, by decide⟩).val :=
  dot_S2048x256_S1024x256_S2048x1024_1_1_0_0_n_n.lhsIdx_val_of_single rfl i q
theorem rhs_ad_0 (i : S2048x1024.Idx) (q : dot_S2048x256_S1024x256_S2048x1024_1_1_0_0_n_n.contr.Idx) :
    (dot_S2048x256_S1024x256_S2048x1024_1_1_0_0_n_n.rhsIdx i q 0).val = (i 1).val := by
  unfold DotDims.rhsIdx
  rw [dif_neg (show ¬(0 : Fin S1024x256.rank) ∈ dot_S2048x256_S1024x256_S2048x1024_1_1_0_0_n_n.rhsBatch by decide), dif_pos (show (0 : Fin S1024x256.rank) ∈ dot_S2048x256_S1024x256_S2048x1024_1_1_0_0_n_n.rhsNonContracting by decide)]
  rfl
theorem rhs_ad_1 (i : S2048x1024.Idx) (q : dot_S2048x256_S1024x256_S2048x1024_1_1_0_0_n_n.contr.Idx) :
    (dot_S2048x256_S1024x256_S2048x1024_1_1_0_0_n_n.rhsIdx i q 1).val = (q ⟨0, by decide⟩).val :=
  dot_S2048x256_S1024x256_S2048x1024_1_1_0_0_n_n.rhsIdx_val_of_single rfl i q

/-- The first slab's store at row `a`, column `b`: the projected row against row `b` of the adapter's output matrix,
    plus the bias entry at `b`. -/
theorem k2_pay1_at (v16 : Vec Ideal S2048x256 .bf16) (v18 : Vec Ideal S1024x256 .bf16) (v21 : Vec Ideal S1x1024 .f32)
    (a : Fin 2048) (b : Fin 1024) :
    k2_pay1 (F := Ideal) v16 v18 v21 (ix2 a b) = (∑ q : Fin 256, v16 (ix2 a q) * v18 (ix2 b q)) + v21 (ix2 (0 : Fin 1) b) := by
  unfold k2_pay1
  rw [shapeCast_self, shapeCast_self, shapeCast_self, shapeCast_self]
  show (FloatOps.matmul (F := Ideal) dot_S2048x256_S1024x256_S2048x1024_1_1_0_0_n_n none (v16 : FVec Ideal S2048x256 .bf16) (v18 : FVec Ideal S1024x256 .bf16)
        (constant (F := Ideal) S2048x1024 .f32 0x00000000#32) (ix2 a b) : EReal)
      + (broadcastTo S2048x1024 v21 broadcasts_S1x1024_S2048x1024 (ix2 a b) : EReal) = _
  rw [broadcastTo_1b_ab_apply, Ideal.matmul_constant_zero_apply,
    ← Equiv.sum_comp (contrEquiv1 dot_S2048x256_S1024x256_S2048x1024_1_1_0_0_n_n 256 rfl rfl).symm]
  refine congrArg (· + v21 (ix2 (0 : Fin 1) b)) (Finset.sum_congr rfl fun k _ => ?_)
  have hk := contrEquiv1_symm_val dot_S2048x256_S1024x256_S2048x1024_1_1_0_0_n_n 256 rfl rfl k
  have el : dot_S2048x256_S1024x256_S2048x1024_1_1_0_0_n_n.lhsIdx (ix2 a b) ((contrEquiv1 dot_S2048x256_S1024x256_S2048x1024_1_1_0_0_n_n 256 rfl rfl).symm k) = ix2 a k := funext fun ax => Fin.ext (by
    match ax with
    | ⟨0, _⟩ => exact lhs_ad_0 _ _
    | ⟨1, _⟩ => exact (lhs_ad_1 _ _).trans hk)
  have er : dot_S2048x256_S1024x256_S2048x1024_1_1_0_0_n_n.rhsIdx (ix2 a b) ((contrEquiv1 dot_S2048x256_S1024x256_S2048x1024_1_1_0_0_n_n 256 rfl rfl).symm k) = ix2 b k := funext fun ax => Fin.ext (by
    match ax with
    | ⟨0, _⟩ => exact rhs_ad_0 _ _
    | ⟨1, _⟩ => exact (rhs_ad_1 _ _).trans hk)
  rw [el, er]

/-! ## One slab added to the accumulator -/

/-- The operand indices of the slab product at an output entry and a contraction index, coordinate by coordinate. -/
theorem lhs_acc_0 (i : S2048x1024.Idx) (q : dot_S2048x1024_S1024x1024_S2048x1024_1_1_0_0_n_n.contr.Idx) :
    (dot_S2048x1024_S1024x1024_S2048x1024_1_1_0_0_n_n.lhsIdx i q 0).val = (i 0).val := by
  unfold DotDims.lhsIdx
  rw [dif_neg (show ¬(0 : Fin S2048x1024.rank) ∈ dot_S2048x1024_S1024x1024_S2048x1024_1_1_0_0_n_n.lhsBatch by decide), dif_pos (show (0 : Fin S2048x1024.rank) ∈ dot_S2048x1024_S1024x1024_S2048x1024_1_1_0_0_n_n.lhsNonContracting by decide)]
  rfl
theorem lhs_acc_1 (i : S2048x1024.Idx) (q : dot_S2048x1024_S1024x1024_S2048x1024_1_1_0_0_n_n.contr.Idx) :
    (dot_S2048x1024_S1024x1024_S2048x1024_1_1_0_0_n_n.lhsIdx i q 1).val = (q ⟨0, by decide⟩).val :=
  dot_S2048x1024_S1024x1024_S2048x1024_1_1_0_0_n_n.lhsIdx_val_of_single rfl i q
theorem rhs_acc_0 (i : S2048x1024.Idx) (q : dot_S2048x1024_S1024x1024_S2048x1024_1_1_0_0_n_n.contr.Idx) :
    (dot_S2048x1024_S1024x1024_S2048x1024_1_1_0_0_n_n.rhsIdx i q 0).val = (i 1).val := by
  unfold DotDims.rhsIdx
  rw [dif_neg (show ¬(0 : Fin S1024x1024.rank) ∈ dot_S2048x1024_S1024x1024_S2048x1024_1_1_0_0_n_n.rhsBatch by decide), dif_pos (show (0 : Fin S1024x1024.rank) ∈ dot_S2048x1024_S1024x1024_S2048x1024_1_1_0_0_n_n.rhsNonContracting by decide)]
  rfl
theorem rhs_acc_1 (i : S2048x1024.Idx) (q : dot_S2048x1024_S1024x1024_S2048x1024_1_1_0_0_n_n.contr.Idx) :
    (dot_S2048x1024_S1024x1024_S2048x1024_1_1_0_0_n_n.rhsIdx i q 1).val = (q ⟨0, by decide⟩).val :=
  dot_S2048x1024_S1024x1024_S2048x1024_1_1_0_0_n_n.rhsIdx_val_of_single rfl i q

/-- Every slab's store at row `a`, column `b`: the accumulator's entry plus the activation slab's row against row `b`
    of the weight slab. -/
theorem k2_pay2_at (v3 : Vec Ideal S2048x1024 .f32) (v4 : Vec Ideal S2048x1024 .bf16) (v6 : Vec Ideal S1024x1024 .bf16)
    (a : Fin 2048) (b : Fin 1024) :
    k2_pay2 (F := Ideal) v3 v4 v6 (ix2 a b) = v3 (ix2 a b) + ∑ q : Fin 1024, v4 (ix2 a q) * v6 (ix2 b q) := by
  unfold k2_pay2
  rw [shapeCast_self, shapeCast_self, shapeCast_self]
  show (v3 (ix2 a b) : EReal) + (FloatOps.matmul (F := Ideal) dot_S2048x1024_S1024x1024_S2048x1024_1_1_0_0_n_n none (v4 : FVec Ideal S2048x1024 .bf16) (v6 : FVec Ideal S1024x1024 .bf16)
        (constant (F := Ideal) S2048x1024 .f32 0x00000000#32) (ix2 a b) : EReal) = _
  rw [Ideal.matmul_constant_zero_apply, ← Equiv.sum_comp (contrEquiv1 dot_S2048x1024_S1024x1024_S2048x1024_1_1_0_0_n_n 1024 rfl rfl).symm]
  refine congrArg (v3 (ix2 a b) + ·) (Finset.sum_congr rfl fun k _ => ?_)
  have hk := contrEquiv1_symm_val dot_S2048x1024_S1024x1024_S2048x1024_1_1_0_0_n_n 1024 rfl rfl k
  have el : dot_S2048x1024_S1024x1024_S2048x1024_1_1_0_0_n_n.lhsIdx (ix2 a b) ((contrEquiv1 dot_S2048x1024_S1024x1024_S2048x1024_1_1_0_0_n_n 1024 rfl rfl).symm k) = ix2 a k := funext fun ax => Fin.ext (by
    match ax with
    | ⟨0, _⟩ => exact lhs_acc_0 _ _
    | ⟨1, _⟩ => exact (lhs_acc_1 _ _).trans hk)
  have er : dot_S2048x1024_S1024x1024_S2048x1024_1_1_0_0_n_n.rhsIdx (ix2 a b) ((contrEquiv1 dot_S2048x1024_S1024x1024_S2048x1024_1_1_0_0_n_n 1024 rfl rfl).symm k) = ix2 b k := funext fun ax => Fin.ext (by
    match ax with
    | ⟨0, _⟩ => exact rhs_acc_0 _ _
    | ⟨1, _⟩ => exact (rhs_acc_1 _ _).trans hk)
  rw [el, er]

end Cert.KernelIdeal.Hand

end
-- ==== Proof.KI.R2Value.lean ====
/-
  The accumulating kernel's value on the extended reals: after the region the output array holds, at row m and column o,
  the low-rank term with the bias plus the four slabs' partial products added one at a time,
    ((((Σ_r xa[m, r] · B[o, r] + b[o]) + P₀) + P₁) + P₂) + P₃,   P_k = Σ_{q < 1024} x[m, 1024 k + q] · W[o, 1024 k + q].
  Grid point t = 16 i + 4 j + k works on rows 2048 i …, columns 1024 j …, slab k; the accumulator is initialised at k = 0,
  added to at every k, and written to the output block (i, j) at k = 3.
-/
import proofs.«165809_j40355512714085_2_alg».proof.Proof.KI.R2
import proofs.«165809_j40355512714085_2_alg».proof.Proof.KI.R2Pay
import proofs.«165809_j40355512714085_2_alg».proof.Proof.Spec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.ValueIdx
open Idealize.ShloMosaic.Pipeline (Dat)
open scoped BigOperators

/-! ## What each case leaves, as the kernel's two payloads of the blocks -/

section Cases
variable {F : FTy → Type} [FloatOps F]

theorem zero_off : (![0, 0] : Fin 2 → Nat) = fun _ => 0 := funext fun a => by fin_cases a <;> rfl

/-- At k = 0 the accumulator ends at the initial value with the first partial product added. -/
theorem sout2_A_eq (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S2048x256 .bf16) (harg5 : arg5.IsWhole) (arg6 : Memref sig .tc .vmem S1024x256 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (hc0 : cond2_0 i) (hc1 : ¬cond2_1 i)
    (x0 : Vec F S2048x1024 .bf16) (x1 : Vec F S1024x1024 .bf16) (x2 : Vec F S2048x256 .bf16) (x3 : Vec F S1024x256 .bf16) (x4 : Vec F S1x1024 .f32) :
    sout2_A c i arg3 harg3 arg4 harg4 arg5 harg5 arg6 harg6 arg7 harg7 arg8 harg8 arg9 harg9 hc0 hc1 x0 x1 x2 x3 x4 = k2_pay2 (k2_pay1 x2 x3 x4) x0 x1 := by
  unfold sout2_A
  rw [View.read_writes_eq_canon _ _ _ (scover2_A c i arg3 harg3 arg4 harg4 arg5 harg5 arg6 harg6 arg7 harg7 arg8 harg8 arg9 harg9 hc0 hc1 x0 x1 x2 x3 x4)]
  unfold kernelRun2_A
  dsimp only
  try sl_unfold_words
  rw [View.canon_cons_unit_zero zero_off, View.readCov_unit_zero (S := S2048x1024) _ zero_off]
  simp only [View.readAt_eq_ld, harg3.read_unread, harg4.read_unread, harg5.read_unread, harg6.read_unread, harg7.read_unread, harg9.read_unread,
    View.ld_unit_zero (S := S2048x1024) zero_off, View.ld_unit_zero (S := S1024x1024) zero_off, View.ld_unit_zero (S := S2048x256) zero_off,
    View.ld_unit_zero (S := S1024x256) zero_off, View.ld_unit_zero (S := S1x1024) zero_off]

/-- At k = 1, 2 the partial product is added onto what the accumulator held. -/
theorem sout2_B_eq (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S2048x256 .bf16) (harg5 : arg5.IsWhole) (arg6 : Memref sig .tc .vmem S1024x256 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (hc0 : ¬cond2_0 i) (hc1 : ¬cond2_1 i)
    (x0 : Vec F S2048x1024 .bf16) (x1 : Vec F S1024x1024 .bf16) (x2 : Vec F S2048x256 .bf16) (x3 : Vec F S1024x256 .bf16) (x4 : Vec F S1x1024 .f32) (xs : Vec F S2048x1024 .f32) :
    sout2_B c i arg3 harg3 arg4 harg4 arg5 harg5 arg6 harg6 arg7 harg7 arg8 harg8 arg9 harg9 hc0 hc1 x0 x1 x2 x3 x4 xs = k2_pay2 xs x0 x1 := by
  unfold sout2_B
  rw [View.read_writes_eq_canon _ _ _ (scover2_B c i arg3 harg3 arg4 harg4 arg5 harg5 arg6 harg6 arg7 harg7 arg8 harg8 arg9 harg9 hc0 hc1 x0 x1 x2 x3 x4 xs)]
  unfold kernelRun2_B
  dsimp only
  try sl_unfold_words
  rw [View.canon_unit_zero zero_off]
  simp only [View.readAt_eq_ld, harg3.read_unread, harg4.read_unread, harg5.read_unread, harg6.read_unread, harg7.read_unread, harg9.read_unread,
    View.ld_unit_zero (S := S2048x1024) zero_off, View.ld_unit_zero (S := S1024x1024) zero_off, View.ld_unit_zero (S := S2048x256) zero_off,
    View.ld_unit_zero (S := S1024x256) zero_off, View.ld_unit_zero (S := S1x1024) zero_off]

/-- At k = 3 likewise, -/
theorem sout2_C_eq (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S2048x256 .bf16) (harg5 : arg5.IsWhole) (arg6 : Memref sig .tc .vmem S1024x256 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (hc0 : ¬cond2_0 i) (hc1 : cond2_1 i)
    (x0 : Vec F S2048x1024 .bf16) (x1 : Vec F S1024x1024 .bf16) (x2 : Vec F S2048x256 .bf16) (x3 : Vec F S1024x256 .bf16) (x4 : Vec F S1x1024 .f32) (xs : Vec F S2048x1024 .f32) :
    sout2_C c i arg3 harg3 arg4 harg4 arg5 harg5 arg6 harg6 arg7 harg7 arg8 harg8 arg9 harg9 hc0 hc1 x0 x1 x2 x3 x4 xs = k2_pay2 xs x0 x1 := by
  unfold sout2_C
  rw [View.read_writes_eq_canon _ _ _ (scover2_C c i arg3 harg3 arg4 harg4 arg5 harg5 arg6 harg6 arg7 harg7 arg8 harg8 arg9 harg9 hc0 hc1 x0 x1 x2 x3 x4 xs)]
  unfold kernelRun2_C
  dsimp only
  try sl_unfold_words
  rw [View.canon_unit_zero zero_off]
  simp only [View.readAt_eq_ld, harg3.read_unread, harg4.read_unread, harg5.read_unread, harg6.read_unread, harg7.read_unread, harg9.read_unread,
    View.ld_unit_zero (S := S2048x1024) zero_off, View.ld_unit_zero (S := S1024x1024) zero_off, View.ld_unit_zero (S := S2048x256) zero_off,
    View.ld_unit_zero (S := S1024x256) zero_off, View.ld_unit_zero (S := S1x1024) zero_off]

/-- and the output block receives the accumulator. -/
theorem out2_C_eq (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S2048x256 .bf16) (harg5 : arg5.IsWhole) (arg6 : Memref sig .tc .vmem S1024x256 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (hc0 : ¬cond2_0 i) (hc1 : cond2_1 i)
    (x0 : Vec F S2048x1024 .bf16) (x1 : Vec F S1024x1024 .bf16) (x2 : Vec F S2048x256 .bf16) (x3 : Vec F S1024x256 .bf16) (x4 : Vec F S1x1024 .f32) (xs : Vec F S2048x1024 .f32) :
    out2_C_5 c i arg3 harg3 arg4 harg4 arg5 harg5 arg6 harg6 arg7 harg7 arg8 harg8 arg9 harg9 hc0 hc1 x0 x1 x2 x3 x4 xs = k2_pay2 xs x0 x1 := by
  unfold out2_C_5
  rw [View.read_writes_eq_canon _ _ _ (cover2_C_5 c i arg3 harg3 arg4 harg4 arg5 harg5 arg6 harg6 arg7 harg7 arg8 harg8 arg9 harg9 hc0 hc1 x0 x1 x2 x3 x4 xs)]
  unfold kernelRun2_C
  dsimp only
  try sl_unfold_words
  rw [View.canon_unit_zero zero_off, View.readCov_unit_zero (S := S2048x1024) _ zero_off]
  simp only [View.readAt_eq_ld, harg3.read_unread, harg4.read_unread, harg5.read_unread, harg6.read_unread, harg7.read_unread, harg9.read_unread,
    View.ld_unit_zero (S := S2048x1024) zero_off, View.ld_unit_zero (S := S1024x1024) zero_off, View.ld_unit_zero (S := S2048x256) zero_off,
    View.ld_unit_zero (S := S1024x256) zero_off, View.ld_unit_zero (S := S1x1024) zero_off]

end Cases

/-! ## The printed index maps, decided over the grid

Point `t = 16 i + 4 j + k`: the row block is `i = t / 16`, the column block `j = t / 4 % 4`, the slab `k = t % 4`. -/

theorem blockIdx2 : ∀ t : Fin cfg2.N,
    win2_0.index t (0 : Fin 2) = t.val / 16 ∧ win2_0.index t (1 : Fin 2) = t.val % 4
    ∧ win2_1.index t (0 : Fin 2) = t.val / 4 % 4 ∧ win2_1.index t (1 : Fin 2) = t.val % 4
    ∧ win2_2.index t (0 : Fin 2) = t.val / 16 ∧ win2_2.index t (1 : Fin 2) = 0
    ∧ win2_3.index t (0 : Fin 2) = t.val / 4 % 4 ∧ win2_3.index t (1 : Fin 2) = 0
    ∧ win2_4.index t (0 : Fin 2) = 0 ∧ win2_4.index t (1 : Fin 2) = t.val / 4 % 4
    ∧ win2_5.index t (0 : Fin 2) = t.val / 16 ∧ win2_5.index t (1 : Fin 2) = t.val / 4 % 4 :=
  (by decide +kernel : ∀ t : Fin grid2.N, _)

section Blocks
variable {F : FTy → Type} [FloatOps F]
variable (V : (c : Dev nD) → (b : Ref sig .tc) → Buf (Elt F) ((c : Thread nD τ).loc b))

/-- An element of window 0's block at point `t` is the array's element at the block's offset plus its coordinates. -/
theorem iblk2_0_at (c : Dev nD) (t : Fin cfg2.N) (y : S2048x1024.Idx) (j : S8192x4096.Idx)
    (h0 : (j 0).val = 2048 * (t.val / 16) + (y 0).val) (h1 : (j 1).val = 1024 * (t.val % 4) + (y 1).val) :
    (iblk2 V c 0 t : Vec F S2048x1024 .bf16) y = (V c main_v4_1 : S8192x4096.Idx → Elt F .bf16) j := by
  obtain ⟨e00, e01, e10, e11, e20, e21, e30, e31, e40, e41, e50, e51⟩ := blockIdx2 t
  unfold iblk2
  rw [View.read_apply]
  show V c main_v4_1 _ = V c main_v4_1 _
  congr 1
  funext a
  apply Fin.ext
  match a with
  | ⟨0, _⟩ => show win2_0.index t (0 : Fin 2) * 2048 + 1 * (y 0).val = (j 0).val; rw [e00, h0]; omega
  | ⟨1, _⟩ => show win2_0.index t (1 : Fin 2) * 1024 + 1 * (y 1).val = (j 1).val; rw [e01, h1]; omega

/-- An element of window 1's block at point `t` is the array's element at the block's offset plus its coordinates. -/
theorem iblk2_1_at (c : Dev nD) (t : Fin cfg2.N) (y : S1024x1024.Idx) (j : S4096x4096.Idx)
    (h0 : (j 0).val = 1024 * (t.val / 4 % 4) + (y 0).val) (h1 : (j 1).val = 1024 * (t.val % 4) + (y 1).val) :
    (iblk2 V c 1 t : Vec F S1024x1024 .bf16) y = (V c main_v3_0 : S4096x4096.Idx → Elt F .bf16) j := by
  obtain ⟨e00, e01, e10, e11, e20, e21, e30, e31, e40, e41, e50, e51⟩ := blockIdx2 t
  unfold iblk2
  rw [View.read_apply]
  show V c main_v3_0 _ = V c main_v3_0 _
  congr 1
  funext a
  apply Fin.ext
  match a with
  | ⟨0, _⟩ => show win2_1.index t (0 : Fin 2) * 1024 + 1 * (y 0).val = (j 0).val; rw [e10, h0]; omega
  | ⟨1, _⟩ => show win2_1.index t (1 : Fin 2) * 1024 + 1 * (y 1).val = (j 1).val; rw [e11, h1]; omega

/-- An element of window 2's block at point `t` is the array's element at the block's offset plus its coordinates. -/
theorem iblk2_2_at (c : Dev nD) (t : Fin cfg2.N) (y : S2048x256.Idx) (j : S8192x256.Idx)
    (h0 : (j 0).val = 2048 * (t.val / 16) + (y 0).val) (h1 : (j 1).val = 0 + (y 1).val) :
    (iblk2 V c 2 t : Vec F S2048x256 .bf16) y = (V c main_v4_0 : S8192x256.Idx → Elt F .bf16) j := by
  obtain ⟨e00, e01, e10, e11, e20, e21, e30, e31, e40, e41, e50, e51⟩ := blockIdx2 t
  unfold iblk2
  rw [View.read_apply]
  show V c main_v4_0 _ = V c main_v4_0 _
  congr 1
  funext a
  apply Fin.ext
  match a with
  | ⟨0, _⟩ => show win2_2.index t (0 : Fin 2) * 2048 + 1 * (y 0).val = (j 0).val; rw [e20, h0]; omega
  | ⟨1, _⟩ => show win2_2.index t (1 : Fin 2) * 256 + 1 * (y 1).val = (j 1).val; rw [e21, h1]; omega

/-- An element of window 3's block at point `t` is the array's element at the block's offset plus its coordinates. -/
theorem iblk2_3_at (c : Dev nD) (t : Fin cfg2.N) (y : S1024x256.Idx) (j : S4096x256.Idx)
    (h0 : (j 0).val = 1024 * (t.val / 4 % 4) + (y 0).val) (h1 : (j 1).val = 0 + (y 1).val) :
    (iblk2 V c 3 t : Vec F S1024x256 .bf16) y = (V c main_v3_1 : S4096x256.Idx → Elt F .bf16) j := by
  obtain ⟨e00, e01, e10, e11, e20, e21, e30, e31, e40, e41, e50, e51⟩ := blockIdx2 t
  unfold iblk2
  rw [View.read_apply]
  show V c main_v3_1 _ = V c main_v3_1 _
  congr 1
  funext a
  apply Fin.ext
  match a with
  | ⟨0, _⟩ => show win2_3.index t (0 : Fin 2) * 1024 + 1 * (y 0).val = (j 0).val; rw [e30, h0]; omega
  | ⟨1, _⟩ => show win2_3.index t (1 : Fin 2) * 256 + 1 * (y 1).val = (j 1).val; rw [e31, h1]; omega

/-- An element of window 4's block at point `t` is the array's element at the block's offset plus its coordinates. -/
theorem iblk2_4_at (c : Dev nD) (t : Fin cfg2.N) (y : S1x1024.Idx) (j : S1x4096.Idx)
    (h0 : (j 0).val = 0 + (y 0).val) (h1 : (j 1).val = 1024 * (t.val / 4 % 4) + (y 1).val) :
    (iblk2 V c 4 t : Vec F S1x1024 .f32) y = (V c main_v2 : S1x4096.Idx → Elt F .f32) j := by
  obtain ⟨e00, e01, e10, e11, e20, e21, e30, e31, e40, e41, e50, e51⟩ := blockIdx2 t
  unfold iblk2
  rw [View.read_apply]
  show V c main_v2 _ = V c main_v2 _
  congr 1
  funext a
  apply Fin.ext
  match a with
  | ⟨0, _⟩ => show win2_4.index t (0 : Fin 2) * 1 + 1 * (y 0).val = (j 0).val; rw [e40, h0]; omega
  | ⟨1, _⟩ => show win2_4.index t (1 : Fin 2) * 1024 + 1 * (y 1).val = (j 1).val; rw [e41, h1]; omega

end Blocks

/-! ## The accumulation, entry by entry, on the extended reals -/

section Value
open Cert.Vera

/-- The two payloads composed, at an entry whose operands are the arrays' entries of row `m`, column `o`, slab 0:
    the low-rank term with the bias, plus the first slab's partial product. -/
theorem first_at (x0 : Vec Ideal S2048x1024 .bf16) (x1 : Vec Ideal S1024x1024 .bf16) (x2 : Vec Ideal S2048x256 .bf16)
    (x3 : Vec Ideal S1024x256 .bf16) (x4 : Vec Ideal S1x1024 .f32) (a : Fin 2048) (b : Fin 1024)
    (X : SX.Idx → EReal) (W : SW.Idx → EReal) (XA : SXA.Idx → EReal) (B : SB.Idx → EReal) (B2 : SBias2.Idx → EReal)
    (m : Fin 8192) (o : Fin 4096)
    (hx0 : ∀ q : Fin 1024, x0 (ix2 a q) = X (ix2 m (slabIdx 0 q))) (hx1 : ∀ q : Fin 1024, x1 (ix2 b q) = W (ix2 o (slabIdx 0 q)))
    (hx2 : ∀ r : Fin 256, x2 (ix2 a r) = XA (ix2 m r)) (hx3 : ∀ r : Fin 256, x3 (ix2 b r) = B (ix2 o r))
    (hx4 : x4 (ix2 (0 : Fin 1) b) = B2 (ix2 (0 : Fin 1) o)) :
    k2_pay2 (F := Ideal) (k2_pay1 (F := Ideal) x2 x3 x4) x0 x1 (ix2 a b) = initAt XA B B2 m o + partAt X W m o 0 := by
  rw [k2_pay2_at, k2_pay1_at]
  unfold initAt partAt
  simp only [hx0, hx1, hx2, hx3, hx4]

/-- The accumulating payload at such an entry, slab `k`: that slab's partial product added. -/
theorem next_at (xs : Vec Ideal S2048x1024 .f32) (x0 : Vec Ideal S2048x1024 .bf16) (x1 : Vec Ideal S1024x1024 .bf16)
    (a : Fin 2048) (b : Fin 1024) (X : SX.Idx → EReal) (W : SW.Idx → EReal) (m : Fin 8192) (o : Fin 4096) (k : Fin 4)
    (hx0 : ∀ q : Fin 1024, x0 (ix2 a q) = X (ix2 m (slabIdx k q))) (hx1 : ∀ q : Fin 1024, x1 (ix2 b q) = W (ix2 o (slabIdx k q))) :
    k2_pay2 (F := Ideal) xs x0 x1 (ix2 a b) = xs (ix2 a b) + partAt X W m o k := by
  rw [k2_pay2_at]
  unfold partAt
  simp only [hx0, hx1]

variable (V : (c : Dev nD) → (b : Ref sig .tc) → Buf (Elt Ideal) ((c : Thread nD τ).loc b))

/-- After a point with k = 0 the accumulator's entry (a, b) is the initial value plus the first partial product, at row
    `2048 i + a` and column `1024 j + b`. -/
theorem acc_first (c : Dev nD) (n : ℕ) (hn : n < cfg2.N) (h0 : n % 4 = 0) (a : Fin 2048) (b : Fin 1024) (m : Fin 8192) (o : Fin 4096)
    (hm : m.val = 2048 * (n / 16) + a.val) (ho : o.val = 1024 * (n / 4 % 4) + b.val) :
    (outsAt2 V c n hn).2 (ix2 a b) = initAt (V c main_v4_0) (V c main_v3_1) (V c main_v2) m o + partAt (V c main_v4_1) (V c main_v3_0) m o 0 := by
  have h1 : ¬n % 4 = 3 := by omega
  refine (congrFun (congrArg Prod.snd (outsAt2_A V c ⟨n, hn⟩ h0 h1)) (ix2 a b)).trans ?_
  dsimp only
  refine (congrFun (sout2_A_eq (F := Ideal) c (grid2.coords ⟨n, hn⟩) (ms2_0 ⟨n, hn⟩) (hs2_0 ⟨n, hn⟩) (ms2_1 ⟨n, hn⟩) (hs2_1 ⟨n, hn⟩) (ms2_2 ⟨n, hn⟩) (hs2_2 ⟨n, hn⟩) (ms2_3 ⟨n, hn⟩) (hs2_3 ⟨n, hn⟩) (ms2_4 ⟨n, hn⟩) (hs2_4 ⟨n, hn⟩) (ms2_5 ⟨n, hn⟩) (hs2_5 ⟨n, hn⟩) scM2 (Memref.isWhole_whole _) _ _ (iblk2 V c 0 ⟨n, hn⟩) (iblk2 V c 1 ⟨n, hn⟩) (iblk2 V c 2 ⟨n, hn⟩) (iblk2 V c 3 ⟨n, hn⟩) (iblk2 V c 4 ⟨n, hn⟩)) (ix2 a b)).trans ?_
  have hk : ((0 : Fin 4) : ℕ) = 0 := rfl
  have hq0 : ∀ q : Fin 1024, (slabIdx 0 q).val = 1024 * (n % 4) + q.val := fun q => by unfold slabIdx; dsimp only; omega
  exact first_at _ _ _ _ _ a b (V c main_v4_1) (V c main_v3_0) (V c main_v4_0) (V c main_v3_1) (V c main_v2) m o
    (fun q => iblk2_0_at V c ⟨n, hn⟩ (ix2 a q) (ix2 m (slabIdx 0 q)) hm (hq0 q))
    (fun q => iblk2_1_at V c ⟨n, hn⟩ (ix2 b q) (ix2 o (slabIdx 0 q)) ho (hq0 q))
    (fun r => iblk2_2_at V c ⟨n, hn⟩ (ix2 a r) (ix2 m r) hm (by show r.val = 0 + r.val; omega))
    (fun r => iblk2_3_at V c ⟨n, hn⟩ (ix2 b r) (ix2 o r) ho (by show r.val = 0 + r.val; omega))
    (iblk2_4_at V c ⟨n, hn⟩ (ix2 (0 : Fin 1) b) (ix2 (0 : Fin 1) o) (by show ((0 : Fin 1) : ℕ) = 0 + ((0 : Fin 1) : ℕ); omega) ho)

/-- After a later point of the run the entry is what the point before left plus this slab's partial product. -/
theorem acc_next (c : Dev nD) (n : ℕ) (hn : n + 1 < cfg2.N) (h0 : ¬(n + 1) % 4 = 0) (a : Fin 2048) (b : Fin 1024) (m : Fin 8192) (o : Fin 4096)
    (hm : m.val = 2048 * ((n + 1) / 16) + a.val) (ho : o.val = 1024 * ((n + 1) / 4 % 4) + b.val) (k : Fin 4) (hk : k.val = (n + 1) % 4) :
    (outsAt2 V c (n + 1) hn).2 (ix2 a b)
      = (outsAt2 V c n (Nat.lt_of_succ_lt hn)).2 (ix2 a b) + partAt (V c main_v4_1) (V c main_v3_0) m o k := by
  have hq0 : ∀ q : Fin 1024, (slabIdx k q).val = 1024 * ((n + 1) % 4) + q.val := fun q => by unfold slabIdx; dsimp only; omega
  by_cases h1 : (n + 1) % 4 = 3
  · refine (congrFun (congrArg Prod.snd (outsAt2_C V c ⟨n + 1, hn⟩ h0 h1)) (ix2 a b)).trans ?_
    dsimp only
    refine (congrFun (sout2_C_eq (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) _ _ (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) _) (ix2 a b)).trans ?_
    exact next_at _ _ _ a b (V c main_v4_1) (V c main_v3_0) m o k
      (fun q => iblk2_0_at V c ⟨n + 1, hn⟩ (ix2 a q) (ix2 m (slabIdx k q)) hm (hq0 q))
      (fun q => iblk2_1_at V c ⟨n + 1, hn⟩ (ix2 b q) (ix2 o (slabIdx k q)) ho (hq0 q))
  · refine (congrFun (congrArg Prod.snd (outsAt2_B V c ⟨n + 1, hn⟩ h0 h1)) (ix2 a b)).trans ?_
    dsimp only
    refine (congrFun (sout2_B_eq (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) _ _ (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) _) (ix2 a b)).trans ?_
    exact next_at _ _ _ a b (V c main_v4_1) (V c main_v3_0) m o k
      (fun q => iblk2_0_at V c ⟨n + 1, hn⟩ (ix2 a q) (ix2 m (slabIdx k q)) hm (hq0 q))
      (fun q => iblk2_1_at V c ⟨n + 1, hn⟩ (ix2 b q) (ix2 o (slabIdx k q)) ho (hq0 q))

/-- At k = 3 the output block receives the accumulator. -/
theorem out_last (c : Dev nD) (n : ℕ) (hn : n < cfg2.N) (h3 : n % 4 = 3) (y : S2048x1024.Idx) :
    (outsAt2 V c n hn).1 y = (outsAt2 V c n hn).2 y := by
  have h0 : ¬n % 4 = 0 := by omega
  refine (congrFun (congrArg Prod.fst (outsAt2_C V c ⟨n, hn⟩ h0 h3)) y).trans ?_
  dsimp only
  refine (congrFun (out2_C_eq (F := Ideal) c (grid2.coords ⟨n, hn⟩) (ms2_0 ⟨n, hn⟩) (hs2_0 ⟨n, hn⟩) (ms2_1 ⟨n, hn⟩) (hs2_1 ⟨n, hn⟩) (ms2_2 ⟨n, hn⟩) (hs2_2 ⟨n, hn⟩) (ms2_3 ⟨n, hn⟩) (hs2_3 ⟨n, hn⟩) (ms2_4 ⟨n, hn⟩) (hs2_4 ⟨n, hn⟩) (ms2_5 ⟨n, hn⟩) (hs2_5 ⟨n, hn⟩) scM2 (Memref.isWhole_whole _) _ _ (iblk2 V c 0 ⟨n, hn⟩) (iblk2 V c 1 ⟨n, hn⟩) (iblk2 V c 2 ⟨n, hn⟩) (iblk2 V c 3 ⟨n, hn⟩) (iblk2 V c 4 ⟨n, hn⟩) _) y).trans ?_
  refine Eq.symm ((congrFun (congrArg Prod.snd (outsAt2_C V c ⟨n, hn⟩ h0 h3)) y).trans ?_)
  dsimp only
  exact congrFun (sout2_C_eq (F := Ideal) c (grid2.coords ⟨n, hn⟩) (ms2_0 ⟨n, hn⟩) (hs2_0 ⟨n, hn⟩) (ms2_1 ⟨n, hn⟩) (hs2_1 ⟨n, hn⟩) (ms2_2 ⟨n, hn⟩) (hs2_2 ⟨n, hn⟩) (ms2_3 ⟨n, hn⟩) (hs2_3 ⟨n, hn⟩) (ms2_4 ⟨n, hn⟩) (hs2_4 ⟨n, hn⟩) (ms2_5 ⟨n, hn⟩) (hs2_5 ⟨n, hn⟩) scM2 (Memref.isWhole_whole _) _ _ (iblk2 V c 0 ⟨n, hn⟩) (iblk2 V c 1 ⟨n, hn⟩) (iblk2 V c 2 ⟨n, hn⟩) (iblk2 V c 3 ⟨n, hn⟩) (iblk2 V c 4 ⟨n, hn⟩) _) y

/-- So the block written back after the run of k = 0 … 3 holds the accumulation of the four slabs onto the initial value. -/
theorem out_at (c : Dev nD) (n : ℕ) (hn : n + 3 < cfg2.N) (h0 : n % 4 = 0) (a : Fin 2048) (b : Fin 1024) (m : Fin 8192) (o : Fin 4096)
    (hm : m.val = 2048 * (n / 16) + a.val) (ho : o.val = 1024 * (n / 4 % 4) + b.val) :
    (outsAt2 V c (n + 3) hn).1 (ix2 a b) = mainAt (V c main_v4_1) (V c main_v3_0) (V c main_v4_0) (V c main_v3_1) (V c main_v2) m o := by
  have hn2 : n + 2 < cfg2.N := Nat.lt_of_succ_lt hn
  have hn1 : n + 1 < cfg2.N := Nat.lt_of_succ_lt hn2
  have hn0 : n < cfg2.N := Nat.lt_of_succ_lt hn1
  have k1 : ((1 : Fin 4) : ℕ) = 1 := rfl
  have k2 : ((2 : Fin 4) : ℕ) = 2 := rfl
  have k3 : ((3 : Fin 4) : ℕ) = 3 := rfl
  have e0 := acc_first V c n hn0 h0 a b m o hm ho
  have e1 := acc_next V c n hn1 (by omega) a b m o (by omega) (by omega) 1 (by omega)
  have e2 := acc_next V c (n + 1) hn2 (by omega) a b m o (by omega) (by omega) 2 (by omega)
  have e3 := acc_next V c (n + 2) hn (by omega) a b m o (by omega) (by omega) 3 (by omega)
  have e4 := out_last V c (n + 3) hn (by omega) (ix2 a b)
  exact e4.trans (e3.trans (congrArg (· + partAt (V c main_v4_1) (V c main_v3_0) m o 3) (e2.trans (congrArg (· + partAt (V c main_v4_1) (V c main_v3_0) m o 2) (e1.trans (congrArg (· + partAt (V c main_v4_1) (V c main_v3_0) m o 1) e0))))))

/-- The same at an index of the block and the index of the array it sits at. -/
theorem out_idx (c : Dev nD) (t : Fin cfg2.N) (h3 : t.val % 4 = 3) (y : S2048x1024.Idx) (i : S8192x4096.Idx)
    (hi0 : (i 0).val = 2048 * (t.val / 16) + (y 0).val) (hi1 : (i 1).val = 1024 * (t.val / 4 % 4) + (y 1).val) :
    (outsAt2 V c t.val t.isLt).1 y = mainK (V c main_v4_1) (V c main_v3_0) (V c main_v4_0) (V c main_v3_1) (V c main_v2) i := by
  obtain ⟨tv, ht⟩ := t
  obtain ⟨n, rfl⟩ : ∃ n, tv = n + 3 := ⟨tv - 3, by dsimp only at h3; omega⟩
  dsimp only at h3 hi0 hi1 ⊢
  refine (congrArg (outsAt2 V c (n + 3) ht).1 (eq_ix2 (n0 := 2048) (n1 := 1024) y)).trans ?_
  exact out_at V c n ht (by omega) (y 0) (y 1) (i 0) (i 1) (by omega) (by omega)

/-! ## From the blocks to the array -/

/-- What a point with k = 3 writes back is its block of the accumulation's array. -/
theorem flushed2_eq (c : Dev nD) (t : Fin cfg2.N) (hf : (cfg2.win 5).flush t = true) :
    (dat2 V c).flushed 5 t = ((cfg2.win 5).blk t).view.read (Elt Ideal) (mainK (V c main_v4_1) (V c main_v3_0) (V c main_v4_0) (V c main_v3_1) (V c main_v2)) := by
  have h3 : t.val % 4 = 3 := (flush2_5 t).mp hf
  obtain ⟨e00, e01, e10, e11, e20, e21, e30, e31, e40, e41, e50, e51⟩ := blockIdx2 t
  show (cfg2.win 5).cut (grid2.coords t) ((dat2 V c).after 5 t) = _
  rw [after2_5]
  funext j
  show (outsAt2 V c t.val t.isLt).1 j = mainK (V c main_v4_1) (V c main_v3_0) (V c main_v4_0) (V c main_v3_1) (V c main_v2) (((cfg2.win 5).blk t).view.emb j)
  refine out_idx V c t h3 j _ ?_ ?_
  · show win2_5.index t (0 : Fin 2) * 2048 + 1 * (j 0).val = _; rw [e50]; omega
  · show win2_5.index t (1 : Fin 2) * 1024 + 1 * (j 1).val = _; rw [e51]; omega

/-- An index of the array is in point `t`'s output block iff each coordinate is in the block's range on its axis. -/
theorem mem_blk2_5 (t : Fin cfg2.N) (i : S8192x4096.Idx) :
    i ∈ ((cfg2.win 5).blk t).view.set ↔ ∀ a : Fin 2, win2_5.index t a * S2048x1024.size a ≤ (i a).val ∧ (i a).val < win2_5.index t a * S2048x1024.size a + S2048x1024.size a := by
  show i ∈ ((View.whole main_v5).slice (win2_5.rect t)).set ↔ _
  rw [View.set_slice_whole, Rect.mem_set_unit]
  exact Iff.rfl

/-- Every index of the array is in the block of the point (row block, column block, k = 3) that covers it. -/
theorem cover2_5 (i : S8192x4096.Idx) : ∃ t : Fin cfg2.N, (cfg2.win 5).flush t = true ∧ i ∈ ((cfg2.win 5).blk t).view.set := by
  have hi0 : (i 0).val < 8192 := (i 0).isLt
  have hi1 : (i 1).val < 4096 := (i 1).isLt
  have hN : 16 * ((i 0).val / 2048) + 4 * ((i 1).val / 1024) + 3 < cfg2.N := by rw [show cfg2.N = 64 from N_2]; omega
  refine ⟨⟨_, hN⟩, (flush2_5 _).mpr (by show (16 * ((i 0).val / 2048) + 4 * ((i 1).val / 1024) + 3) % 4 = 3; omega), ?_⟩
  obtain ⟨e00, e01, e10, e11, e20, e21, e30, e31, e40, e41, e50, e51⟩ := blockIdx2 ⟨_, hN⟩
  rw [mem_blk2_5]
  intro a
  match a with
  | ⟨0, _⟩ =>
    show win2_5.index ⟨_, hN⟩ (0 : Fin 2) * 2048 ≤ (i 0).val ∧ (i 0).val < win2_5.index ⟨_, hN⟩ (0 : Fin 2) * 2048 + 2048
    rw [e50]; dsimp only; omega
  | ⟨1, _⟩ =>
    show win2_5.index ⟨_, hN⟩ (1 : Fin 2) * 1024 ≤ (i 1).val ∧ (i 1).val < win2_5.index ⟨_, hN⟩ (1 : Fin 2) * 1024 + 1024
    rw [e51]; dsimp only; omega

/-- The output array after the region: the accumulation of the four slabs onto the low-rank term with the bias. -/
theorem val2_5 (c : Dev nD) : (dat2 (F := Ideal) V c).arrAt 5 cfg2.N
    = Cert.Vera.mainK (V c main_v4_1) (V c main_v3_0) (V c main_v4_0) (V c main_v3_1) (V c main_v2) :=
  (dat2 V c).arrAt_eq_of_cover 5 _ (flushed2_eq V c) cover2_5

end Value

end Cert.KernelIdeal.Hand

end
-- ==== Proof.LibReshape.lean ====
/-
  The host's reshapes read at an index.

  A reshape keeps the row-major position of every element. Between `[4, 2048, 4096]` and `[8192, 4096]` that merges
  or splits the two leading axes: the element at `[bt, s, i]` is the element at `[2048 bt + s, i]`, and the element at
  row `m` is at `[m / 2048, m % 2048, ·]`. Between `[n]` and `[1, n]` it adds a unit axis: a vector becomes a one-row
  array.
-/
import proofs.«165809_j40355512714085_2_alg».proof.Proof.Spec
import Idealize.ShloMosaic.Lib.Pipeline.Value
import Idealize.ShloMosaic.Lib.ValueIdx
import Idealize.ShloMosaic.Lib.ValueLayout

noncomputable section

namespace Cert.Vera

open Idealize.ShloMosaic Idealize.ShloMosaic.ValueIdx

/-- ROW-MAJOR FLATTENING of the two leading axes: the `[4, 2048, 4096]` array cast to `[8192, 4096]` reads, at row
    `m` and column `i`, the operand at `[m / 2048, m % 2048, i]` — both have row-major position `4096 m + i`. -/
theorem shapeCast_flat (x : SX3.Idx → EReal) (h : SX3.ShapeCasts SX) : shapeCast SX x h = flat x := by
  funext j
  obtain ⟨m, i, rfl⟩ : ∃ (m : Fin 8192) (i : Fin 4096), j = ix2 m i := ⟨j 0, j 1, eq_ix2 j⟩
  exact shapeCast_apply x h (ix2 m i) (ix3 (⟨m.val / 2048, by omega⟩ : Fin 4) (⟨m.val % 2048, by omega⟩ : Fin 2048) i) (by
    rw [Shape.rowMajor_val_three, Shape.rowMajor_val_two]
    show (m.val / 2048 * 2048 + m.val % 2048) * 4096 + i.val = m.val * 4096 + i.val
    omega)

/-- The inverse: the `[8192, 4096]` array cast to `[4, 2048, 4096]` reads, at `[bt, s, o]`, the operand at row
    `2048 bt + s` and column `o` — both have row-major position `4096 (2048 bt + s) + o`. -/
theorem shapeCast_unflat (y : SX.Idx → EReal) (h : SX.ShapeCasts SX3) :
    shapeCast SX3 y h = fun j => y (ix2 (rowOf (j 0) (j 1)) (j 2)) := by
  funext j
  obtain ⟨bt, s, o, rfl⟩ : ∃ (bt : Fin 4) (s : Fin 2048) (o : Fin 4096), j = ix3 bt s o := ⟨j 0, j 1, j 2, eq_ix3 j⟩
  exact shapeCast_apply y h (ix3 bt s o) (ix2 (rowOf bt s) o) (by
    rw [Shape.rowMajor_val_two, Shape.rowMajor_val_three]
    show (bt.val * 2048 + s.val) * 4096 + o.val = (bt.val * 2048 + s.val) * 4096 + o.val
    rfl)

/-- A VECTOR AS A ONE-ROW ARRAY: the `[256]` vector cast to `[1, 256]` reads, at `(0, r)`, the operand at `r`. -/
theorem shapeCast_row256 (d : SD.Idx → EReal) (h : SD.ShapeCasts SD2) : shapeCast SD2 d h = row256 d := by
  funext j
  obtain ⟨u, r, rfl⟩ : ∃ (u : Fin 1) (r : Fin 256), j = ix2 u r := ⟨j 0, j 1, eq_ix2 j⟩
  exact shapeCast_a_1a_apply d h u r

/-- The `[4096]` vector cast to `[1, 4096]` reads, at `(0, o)`, the operand at `o`. -/
theorem shapeCast_row4096 (b : SBias.Idx → EReal) (h : SBias.ShapeCasts SBias2) : shapeCast SBias2 b h = row4096 b := by
  funext j
  obtain ⟨u, o, rfl⟩ : ∃ (u : Fin 1) (o : Fin 4096), j = ix2 u o := ⟨j 0, j 1, eq_ix2 j⟩
  exact shapeCast_a_1a_apply b h u o

end Cert.Vera

end
-- ==== Proof.KI.Value.lean ====
/-
  The value of the whole program at the ideal instance: the contents of the result buffer after the last item, followed
  back through the items to the launch contents of the arguments.

  The leading reshapes leave the activation with its two leading axes flattened and the scale and the bias as one-row
  arrays. The first region leaves the two converted matrices at the matrices themselves; the second leaves the converted
  activation at the flattened activation and the projected array at the projected and scaled rows; the third leaves the
  accumulation over the four slabs on the flattened rows. The trailing reshape reads that array back at `[bt, s, o]`.
  Every other buffer passes each item unchanged. Composed, the result buffer holds the function `Gker` of the arguments.
-/
import proofs.«165809_j40355512714085_2_alg».proof.Proof.KI.Run
import proofs.«165809_j40355512714085_2_alg».proof.Proof.KI.Frame
import proofs.«165809_j40355512714085_2_alg».proof.Proof.KI.R0Value
import proofs.«165809_j40355512714085_2_alg».proof.Proof.KI.R1Value
import proofs.«165809_j40355512714085_2_alg».proof.Proof.KI.R2Value
import proofs.«165809_j40355512714085_2_alg».proof.Proof.LibReshape
import proofs.«165809_j40355512714085_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx

/-! ## Equal arguments, equal arrays -/

theorem xaK_congr {x x' : Cert.Vera.SX.Idx → EReal} {A A' : Cert.Vera.SA.Idx → EReal} {d d' : Cert.Vera.SD2.Idx → EReal}
    (hx : x = x') (hA : A = A') (hd : d = d') : Cert.Vera.xaK x A d = Cert.Vera.xaK x' A' d' := by
  subst hx hA hd; rfl

theorem mainK_congr {x x' : Cert.Vera.SX.Idx → EReal} {W W' : Cert.Vera.SW.Idx → EReal} {xa xa' : Cert.Vera.SXA.Idx → EReal}
    {B B' : Cert.Vera.SB.Idx → EReal} {b b' : Cert.Vera.SBias2.Idx → EReal}
    (hx : x = x') (hW : W = W') (hxa : xa = xa') (hB : B = B') (hb : b = b') :
    Cert.Vera.mainK x W xa B b = Cert.Vera.mainK x' W' xa' B' b' := by
  subst hx hW hxa hB hb; rfl

/-- The accumulation array read at row `2048 bt + s` and column `o`, for every `[bt, s, o]`, is `Gker`. -/
theorem mainK_rowOf (x : Cert.Vera.SX3.Idx → EReal) (W : Cert.Vera.SW.Idx → EReal) (A : Cert.Vera.SA.Idx → EReal)
    (B : Cert.Vera.SB.Idx → EReal) (d : Cert.Vera.SD.Idx → EReal) (b : Cert.Vera.SBias.Idx → EReal) :
    (fun j : Cert.Vera.SX3.Idx => Cert.Vera.mainK (Cert.Vera.flat x) W (Cert.Vera.xaK (Cert.Vera.flat x) A (Cert.Vera.row256 d)) B
        (Cert.Vera.row4096 b) (ix2 (Cert.Vera.rowOf (j 0) (j 1)) (j 2)))
      = Cert.Vera.Gker x W A B d b := rfl

variable (m : (ℓ : Loc nD τ sig) → Buf (Elt Ideal) ℓ)

/-! ## After the leading reshapes -/

theorem W1_main_v0 (c : Dev nD) :
    W1 m c (Proc.devRef .tc main_v0) = Cert.Vera.flat (m ((c : Thread nD τ).loc main_arg0)) := by
  show StableHlo.after hostOps0 (W0 m c) (Proc.devRef .tc main_v0) = _
  after_results
  exact Cert.Vera.shapeCast_flat _ _

theorem W1_main_v1 (c : Dev nD) :
    W1 m c (Proc.devRef .tc main_v1) = Cert.Vera.row256 (m ((c : Thread nD τ).loc main_arg4)) := by
  show StableHlo.after hostOps0 (W0 m c) (Proc.devRef .tc main_v1) = _
  after_results
  exact Cert.Vera.shapeCast_row256 _ _

theorem W1_main_v2 (c : Dev nD) :
    W1 m c (Proc.devRef .tc main_v2) = Cert.Vera.row4096 (m ((c : Thread nD τ).loc main_arg5)) := by
  show StableHlo.after hostOps0 (W0 m c) (Proc.devRef .tc main_v2) = _
  after_results
  exact Cert.Vera.shapeCast_row4096 _ _

theorem W1_main_arg1 (c : Dev nD) : W1 m c (Proc.devRef .tc main_arg1) = m ((c : Thread nD τ).loc main_arg1) :=
  StableHlo.after_of_writes_sub hostOps0 _ hostOps0_writes (by decide)
theorem W1_main_arg2 (c : Dev nD) : W1 m c (Proc.devRef .tc main_arg2) = m ((c : Thread nD τ).loc main_arg2) :=
  StableHlo.after_of_writes_sub hostOps0 _ hostOps0_writes (by decide)
theorem W1_main_arg3 (c : Dev nD) : W1 m c (Proc.devRef .tc main_arg3) = m ((c : Thread nD τ).loc main_arg3) :=
  StableHlo.after_of_writes_sub hostOps0 _ hostOps0_writes (by decide)

/-! ## After the first region: the converted matrices -/

theorem W2_main_v0 (c : Dev nD) :
    W2 m c (Proc.devRef .tc main_v0) = Cert.Vera.flat (m ((c : Thread nD τ).loc main_arg0)) :=
  (W2_of_ne m c main_v0 (by decide)).trans (W1_main_v0 m c)
theorem W2_main_v1 (c : Dev nD) :
    W2 m c (Proc.devRef .tc main_v1) = Cert.Vera.row256 (m ((c : Thread nD τ).loc main_arg4)) :=
  (W2_of_ne m c main_v1 (by decide)).trans (W1_main_v1 m c)
theorem W2_main_v2 (c : Dev nD) :
    W2 m c (Proc.devRef .tc main_v2) = Cert.Vera.row4096 (m ((c : Thread nD τ).loc main_arg5)) :=
  (W2_of_ne m c main_v2 (by decide)).trans (W1_main_v2 m c)
theorem W2_main_arg2 (c : Dev nD) : W2 m c (Proc.devRef .tc main_arg2) = m ((c : Thread nD τ).loc main_arg2) :=
  (W2_of_ne m c main_arg2 (by decide)).trans (W1_main_arg2 m c)
theorem W2_main_v3_0 (c : Dev nD) : W2 m c (Proc.devRef .tc main_v3_0) = m ((c : Thread nD τ).loc main_arg1) :=
  (W2_arr m c 2).trans ((val0_2 (E1 m) c).trans (W1_main_arg1 m c))
theorem W2_main_v3_1 (c : Dev nD) : W2 m c (Proc.devRef .tc main_v3_1) = m ((c : Thread nD τ).loc main_arg3) :=
  (W2_arr m c 3).trans ((val0_3 (E1 m) c).trans (W1_main_arg3 m c))

/-! ## After the second region: the converted activation and the projected array -/

theorem W3_main_v4_1 (c : Dev nD) :
    W3 m c (Proc.devRef .tc main_v4_1) = Cert.Vera.flat (m ((c : Thread nD τ).loc main_arg0)) :=
  (W3_arr m c 4).trans ((val1_4 (E2 m) c).trans (W2_main_v0 m c))
theorem W3_main_v4_0 (c : Dev nD) :
    W3 m c (Proc.devRef .tc main_v4_0)
      = Cert.Vera.xaK (Cert.Vera.flat (m ((c : Thread nD τ).loc main_arg0))) (m ((c : Thread nD τ).loc main_arg2))
          (Cert.Vera.row256 (m ((c : Thread nD τ).loc main_arg4))) :=
  (W3_arr m c 3).trans ((val1_3 (E2 m) c).trans (xaK_congr (W2_main_v0 m c) (W2_main_arg2 m c) (W2_main_v1 m c)))
theorem W3_main_v3_0 (c : Dev nD) : W3 m c (Proc.devRef .tc main_v3_0) = m ((c : Thread nD τ).loc main_arg1) :=
  (W3_of_ne m c main_v3_0 (by decide)).trans (W2_main_v3_0 m c)
theorem W3_main_v3_1 (c : Dev nD) : W3 m c (Proc.devRef .tc main_v3_1) = m ((c : Thread nD τ).loc main_arg3) :=
  (W3_of_ne m c main_v3_1 (by decide)).trans (W2_main_v3_1 m c)
theorem W3_main_v2 (c : Dev nD) :
    W3 m c (Proc.devRef .tc main_v2) = Cert.Vera.row4096 (m ((c : Thread nD τ).loc main_arg5)) :=
  (W3_of_ne m c main_v2 (by decide)).trans (W2_main_v2 m c)

/-! ## After the third region: the accumulation -/

theorem W4_main_v5 (c : Dev nD) :
    W4 m c (Proc.devRef .tc main_v5)
      = Cert.Vera.mainK (Cert.Vera.flat (m ((c : Thread nD τ).loc main_arg0))) (m ((c : Thread nD τ).loc main_arg1))
          (Cert.Vera.xaK (Cert.Vera.flat (m ((c : Thread nD τ).loc main_arg0))) (m ((c : Thread nD τ).loc main_arg2))
            (Cert.Vera.row256 (m ((c : Thread nD τ).loc main_arg4))))
          (m ((c : Thread nD τ).loc main_arg3)) (Cert.Vera.row4096 (m ((c : Thread nD τ).loc main_arg5))) :=
  (W4_arr m c 5).trans ((val2_5 (E3 m) c).trans
    (mainK_congr (W3_main_v4_1 m c) (W3_main_v3_0 m c) (W3_main_v4_0 m c) (W3_main_v3_1 m c) (W3_main_v2 m c)))

/-! ## After the trailing reshape: the result -/

theorem W5_main_v6 (c : Dev nD) : W5 m c (Proc.devRef .tc main_v6) = Cert.Vera.Gker (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps3 (W4 m c) (Proc.devRef .tc main_v6) = _
  after_results
  rw [W4_main_v5 m c]
  exact (Cert.Vera.shapeCast_unflat _ _).trans (mainK_rowOf _ _ _ _ _ _)

/-- Every weakly fair execution of @main terminates without a fault with the result array at `Gker` of the arguments'
    launch contents and every argument array as launched. -/
theorem value_run (ρ : Dev nD → PrngReg) : θ_run defs (onTc (τ := τ) (main (F := Ideal))) ⟨m, fun _ => 0, ρ⟩ (fun r => ∀ c : Dev nD,
      r.2.mem ((c.tc : Thread nD τ).loc main_v6) = Cert.Vera.Gker (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v6 (by decide))).trans (W5_main_v6 m c),
     (h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c)⟩) (run_all m ρ)

end Cert.KernelIdeal.Hand

end
-- ==== Proof.RefValue.lean ====
/-
  The reference program's result is the plain formula.

  The reference computes, at `[bt, s, o]`, the base product `Σ_i x[bt, s, i] · W[o, i]` plus the adapter term
  `Σ_r ((Σ_i x[bt, s, i] · A[r, i]) · d[r]) · B[o, r]` with the bias `b[o]`: each contraction reads its operands at the
  result's coordinates and the summed one, each broadcast reads its operand at the last coordinate. Read index by index
  that is the function `Gref` of the arguments. The run of the reference and its frame are then stated with `Gref`.
-/
import proofs.«165809_j40355512714085_2_alg».proof.Proof.Spec
import proofs.«165809_j40355512714085_2_alg».proof.Proof.Gen.ReferenceIdeal.Read
import proofs.«165809_j40355512714085_2_alg».proof.Proof.Gen.ReferenceIdeal
import proofs.«165809_j40355512714085_2_alg».proof.Proof.Gen.Pre_finite_inputs
import proofs.«165809_j40355512714085_2_alg».proof.Defs

noncomputable section

open Idealize.ShloMosaic Idealize.ShloMosaic.TcCoe Idealize.SL.Sem Idealize.ShloMosaic.ValueIdx
open scoped BigOperators

namespace Cert.ReferenceIdeal.RefValue

open Cert.ReferenceIdeal Cert.ReferenceIdeal.Gen

/-! ## Where each operation reads its operands, at the coordinates `[bt, s, o]` -/

section Indices
variable (bt : Fin 4) (s : Fin 2048)

/-- The base product reads `x` at `[bt, s, k]` … -/
theorem lidx_v0 (o k : Fin 4096) : Read.lidx_main_v0 (ix3 bt s o) k = ix3 bt s k :=
  funext fun a => match a with | ⟨0, _⟩ => rfl | ⟨1, _⟩ => rfl | ⟨2, _⟩ => rfl
/-- … and `W` at `[o, k]`. -/
theorem ridx_v0 (o k : Fin 4096) : Read.ridx_main_v0 (ix3 bt s o) k = ix2 o k :=
  funext fun a => match a with | ⟨0, _⟩ => rfl | ⟨1, _⟩ => rfl
/-- The projection reads `x` at `[bt, s, k]` … -/
theorem lidx_v1 (r : Fin 256) (k : Fin 4096) : Read.lidx_main_v1 (ix3 bt s r) k = ix3 bt s k :=
  funext fun a => match a with | ⟨0, _⟩ => rfl | ⟨1, _⟩ => rfl | ⟨2, _⟩ => rfl
/-- … and `A` at `[r, k]`. -/
theorem ridx_v1 (r : Fin 256) (k : Fin 4096) : Read.ridx_main_v1 (ix3 bt s r) k = ix2 r k :=
  funext fun a => match a with | ⟨0, _⟩ => rfl | ⟨1, _⟩ => rfl
/-- The broadcast scale is read at `[r]`. -/
theorem idx_v23 (r : Fin 256) : Read.idx_main_v2 (Read.idx_main_v3 (ix3 bt s r)) = ix1 r :=
  funext fun a => match a with | ⟨0, _⟩ => rfl
/-- The adapter product reads the scaled projection at `[bt, s, r]` … -/
theorem lidx_v5 (o : Fin 4096) (r : Fin 256) : Read.lidx_main_v5 (ix3 bt s o) r = ix3 bt s r :=
  funext fun a => match a with | ⟨0, _⟩ => rfl | ⟨1, _⟩ => rfl | ⟨2, _⟩ => rfl
/-- … and `B` at `[o, r]`. -/
theorem ridx_v5 (o : Fin 4096) (r : Fin 256) : Read.ridx_main_v5 (ix3 bt s o) r = ix2 o r :=
  funext fun a => match a with | ⟨0, _⟩ => rfl | ⟨1, _⟩ => rfl
/-- The broadcast bias is read at `[o]`. -/
theorem idx_v67 (o : Fin 4096) : Read.idx_main_v6 (Read.idx_main_v7 (ix3 bt s o)) = ix1 o :=
  funext fun a => match a with | ⟨0, _⟩ => rfl

end Indices

/-! ## The reference is the plain formula -/

/-- The reference's result, as a function of its six arguments, is `Gref`: index by index, the base product plus the
    adapter term with the bias. -/
theorem ref_is_Gref (x0 : (⟨S4x2048x4096, .f32⟩ : BufTy).Contents (Elt Ideal)) (x1 : (⟨S4096x4096, .f32⟩ : BufTy).Contents (Elt Ideal))
    (x2 : (⟨S256x4096, .f32⟩ : BufTy).Contents (Elt Ideal)) (x3 : (⟨S4096x256, .f32⟩ : BufTy).Contents (Elt Ideal))
    (x4 : (⟨S256, .f32⟩ : BufTy).Contents (Elt Ideal)) (x5 : (⟨S4096, .f32⟩ : BufTy).Contents (Elt Ideal)) :
    Cert.ReferenceIdeal.Read.val_main_v9 x0 x1 x2 x3 x4 x5 = Cert.Vera.Gref x0 x1 x2 x3 x4 x5 := by
  funext j
  obtain ⟨bt, s, o, rfl⟩ : ∃ (bt : Fin 4) (s : Fin 2048) (o : Fin 4096), j = ix3 bt s o := ⟨j 0, j 1, j 2, eq_ix3 j⟩
  show Read.val_main_v9 x0 x1 x2 x3 x4 x5 (ix3 bt s o)
    = (∑ i : Fin 4096, x0 (ix3 bt s i) * x1 (ix2 o i))
      + ((∑ r : Fin 256, ((∑ i : Fin 4096, x0 (ix3 bt s i) * x2 (ix2 r i)) * x4 (ix1 r)) * x3 (ix2 o r)) + x5 (ix1 o))
  rw [Read.val_main_v9_apply, Read.val_main_v8_apply, Read.val_main_v0_apply, Read.val_main_v5_apply,
    Read.val_main_v7_apply, Read.val_main_v6_apply]
  simp only [Read.val_main_v4_apply, Read.val_main_v1_apply, Read.val_main_v3_apply, Read.val_main_v2_apply,
    lidx_v0, ridx_v0, lidx_v1, ridx_v1, idx_v23, lidx_v5, ridx_v5, idx_v67, Ideal.addf_def, Ideal.mulf_def]

/-! ## The reference's run and frame -/

/-- Every weakly fair execution of the reference terminates with its result at `Gref` of the arguments' launch contents
    and the arguments unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v9)
          = Cert.Vera.Gref (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))
              (m' ((c.tc : Thread Cert.ReferenceIdeal.nD Cert.ReferenceIdeal.τ).loc Cert.ReferenceIdeal.main_arg2))
              (m' ((c.tc : Thread Cert.ReferenceIdeal.nD Cert.ReferenceIdeal.τ).loc Cert.ReferenceIdeal.main_arg3))
              (m' ((c.tc : Thread Cert.ReferenceIdeal.nD Cert.ReferenceIdeal.τ).loc Cert.ReferenceIdeal.main_arg4))
              (m' ((c.tc : Thread Cert.ReferenceIdeal.nD Cert.ReferenceIdeal.τ).loc Cert.ReferenceIdeal.main_arg5))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)) :=
  (θ_run (Cert.ReferenceIdeal.defs (F := Ideal)) _ _).mono
    (fun _ h c => ⟨(h c).1.trans ((Read.val_main_v9_eq (F := Ideal) _ _ _ _ _ _).trans (ref_is_Gref _ _ _ _ _ _)), (h c).2⟩)
    (Cert.ReferenceIdeal.Value.run (F := Ideal) m' ρ')

/-- The reference runs and leaves its arguments unchanged. -/
theorem frame_ri : Cert.frame_ReferenceIdeal := fun m ρ _ =>
  (θ_run Cert.ReferenceIdeal.defs _ _).mono (fun _ h c => (h c).2) (Cert.ReferenceIdeal.Value.run (F := Ideal) m ρ)

end Cert.ReferenceIdeal.RefValue

end
-- ==== Proof.SumAlgebra.lean ====
/-
  The sum algebra: the accumulation over four slabs of the flattened rows is the plain formula.

  At the index `[bt, s, o]`, with `m = 2048 bt + s`:
  * the flattened array read at row `m` is the original array at `[bt, s, ·]`, because `m / 2048 = bt` and
    `m % 2048 = s`;
  * a sum over the 4096 inputs is the sum over the four slabs `k` of the sums over the 1024 inputs `1024 k + i` of the
    slab (the pairs `(k, i)` are in bijection with the inputs);
  * what is left is a rearrangement of a sum of five extended reals, and addition there is commutative and associative.
  No entry has to be finite.
-/
import proofs.«165809_j40355512714085_2_alg».proof.Proof.Spec
import Mathlib.Algebra.BigOperators.Fin

noncomputable section

namespace Cert.Vera

open Idealize.ShloMosaic Idealize.ShloMosaic.ValueIdx
open scoped BigOperators

/-! ## Reading the flattened rows -/

/-- Row `2048 bt + s` of the flattened array is the original array at `[bt, s, ·]`. -/
theorem flat_rowOf (x : SX3.Idx → EReal) (bt : Fin 4) (s : Fin 2048) (i : Fin 4096) :
    flat x (ix2 (rowOf bt s) i) = x (ix3 bt s i) := by
  unfold flat
  refine congrArg x (funext fun a => ?_)
  match a with
  | ⟨0, _⟩ => exact Fin.ext (by show (bt.val * 2048 + s.val) / 2048 = bt.val; omega)
  | ⟨1, _⟩ => exact Fin.ext (by show (bt.val * 2048 + s.val) % 2048 = s.val; omega)
  | ⟨2, _⟩ => rfl

/-! ## A sum over the inputs, slab by slab -/

/-- The pairs (slab, input within the slab) are the inputs: `(k, i) ↦ 1024 k + i`, with inverse
    `j ↦ (j / 1024, j % 1024)`. -/
def slabEquiv : Fin 4 × Fin 1024 ≃ Fin 4096 where
  toFun p := slabIdx p.1 p.2
  invFun j := (⟨j.val / 1024, by omega⟩, ⟨j.val % 1024, by omega⟩)
  left_inv := by
    rintro ⟨k, i⟩
    refine Prod.ext (Fin.ext ?_) (Fin.ext ?_)
    · show (k.val * 1024 + i.val) / 1024 = k.val
      omega
    · show (k.val * 1024 + i.val) % 1024 = i.val
      omega
  right_inv := by
    intro j
    refine Fin.ext ?_
    show j.val / 1024 * 1024 + j.val % 1024 = j.val
    omega

/-- A sum over the 4096 inputs is the sum over the four slabs of the sums over each slab's 1024 inputs. -/
theorem sum_slabs {M : Type*} [AddCommMonoid M] (f : Fin 4096 → M) :
    ∑ i : Fin 4096, f i = ∑ k : Fin 4, ∑ i : Fin 1024, f (slabIdx k i) := by
  rw [← Equiv.sum_comp slabEquiv f, Fintype.sum_prod_type]
  rfl

/-! ## The pieces at a flattened row, in terms of the original array -/

/-- A slab term at row `2048 bt + s`. -/
theorem partAt_flat (x : SX3.Idx → EReal) (W : SW.Idx → EReal) (bt : Fin 4) (s : Fin 2048) (o : Fin 4096) (k : Fin 4) :
    partAt (flat x) W (rowOf bt s) o k = ∑ i : Fin 1024, x (ix3 bt s (slabIdx k i)) * W (ix2 o (slabIdx k i)) := by
  unfold partAt
  simp only [flat_rowOf]

/-- A projected and scaled entry at row `2048 bt + s`. -/
theorem xaK_flat (x : SX3.Idx → EReal) (A : SA.Idx → EReal) (d : SD.Idx → EReal) (bt : Fin 4) (s : Fin 2048) (r : Fin 256) :
    xaK (flat x) A (row256 d) (ix2 (rowOf bt s) r) = (∑ i : Fin 4096, x (ix3 bt s i) * A (ix2 r i)) * d (ix1 r) := by
  show (∑ i : Fin 4096, flat x (ix2 (rowOf bt s) i) * A (ix2 r i)) * d (ix1 r) = _
  simp only [flat_rowOf]

/-- The adapter term with the bias at row `2048 bt + s`. -/
theorem initAt_flat (x : SX3.Idx → EReal) (A : SA.Idx → EReal) (B : SB.Idx → EReal) (d : SD.Idx → EReal) (b : SBias.Idx → EReal)
    (bt : Fin 4) (s : Fin 2048) (o : Fin 4096) :
    initAt (xaK (flat x) A (row256 d)) B (row4096 b) (rowOf bt s) o
      = (∑ r : Fin 256, ((∑ i : Fin 4096, x (ix3 bt s i) * A (ix2 r i)) * d (ix1 r)) * B (ix2 o r)) + b (ix1 o) := by
  show (∑ r : Fin 256, xaK (flat x) A (row256 d) (ix2 (rowOf bt s) r) * B (ix2 o r)) + b (ix1 o) = _
  simp only [xaK_flat]

/-! ## The two formulas agree -/

/-- Five extended reals added in the accumulation's order and in the plain formula's order. -/
theorem add_slabs (t p0 p1 p2 p3 : EReal) : (((t + p0) + p1) + p2) + p3 = (p0 + p1 + p2 + p3) + t := by
  rw [add_comm t p0, add_right_comm p0 t p1, add_right_comm (p0 + p1) t p2, add_right_comm (p0 + p1 + p2) t p3]

/-- THE SUM ALGEBRA: the accumulation over four slabs of the flattened rows, read back at `[bt, s, o]`, is the plain
    formula there. -/
theorem Gker_eq_Gref (x : SX3.Idx → EReal) (W : SW.Idx → EReal) (A : SA.Idx → EReal) (B : SB.Idx → EReal)
    (d : SD.Idx → EReal) (b : SBias.Idx → EReal) : Gker x W A B d b = Gref x W A B d b := by
  funext j
  obtain ⟨bt, s, o, rfl⟩ : ∃ (bt : Fin 4) (s : Fin 2048) (o : Fin 4096), j = ix3 bt s o := ⟨j 0, j 1, j 2, eq_ix3 j⟩
  show mainAt (flat x) W (xaK (flat x) A (row256 d)) B (row4096 b) (rowOf bt s) o
    = (∑ i : Fin 4096, x (ix3 bt s i) * W (ix2 o i))
      + ((∑ r : Fin 256, ((∑ i : Fin 4096, x (ix3 bt s i) * A (ix2 r i)) * d (ix1 r)) * B (ix2 o r)) + b (ix1 o))
  unfold mainAt
  rw [initAt_flat, partAt_flat, partAt_flat, partAt_flat, partAt_flat,
    sum_slabs (fun i => x (ix3 bt s i) * W (ix2 o i)), Fin.sum_univ_four, add_slabs]

end Cert.Vera

end
-- ==== Proof.lean ====
/-
  A linear layer fused with a low-rank adapter, tiled for the matrix unit, against its plain formula.

  With the batch and sequence axes flattened to rows `m`, the tiled program computes in three kernel regions
    (1) the weight matrix and the adapter's output matrix in the narrower float format,
    (2) the rows in that format and the projected, scaled rows `xa[m, r] = (Σ_i x[m, i] · A[r, i]) · d[r]`,
    (3) `out[m, o] = ((((Σ_r xa[m, r] · B[o, r] + b[o]) + P₀) + P₁) + P₂) + P₃`, where `P_k` is the part of
        `Σ_i x[m, i] · W[o, i]` over the inputs `1024 k ≤ i < 1024 (k + 1)`, accumulated one part per grid step in a
        scratch buffer carried across the innermost grid axis and written out at its last step,
  between reshapes of the arguments and of the result. The plain formula is
    `ref[m, o] = Σ_i x[m, i] · W[o, i] + (Σ_r xa[m, r] · B[o, r] + b[o])`.
  On the extended reals a change of float format is the identity, a matrix product into a zero accumulator is the
  plain sum of products, and the two results differ only in the order and grouping of a finite sum; addition of
  extended reals is commutative and associative, so they are equal for all inputs and the finiteness precondition
  is never opened.

  The frames: each of the two kernel programs runs as host reshapes, three regions and a host reshape; every region's
  body is run once per control case on whole staging buffers, the third region's invariant carrying the accumulator's
  contents from one grid point to the next, and no item writes an argument array. The reference's frame is its
  generated run with the result dropped. Nothing was rewritten by the idealization, so `preserves` is trivial.
-/
import proofs.«165809_j40355512714085_2_alg».proof.Defs
import proofs.«165809_j40355512714085_2_alg».proof.Proof.Gen.Kernel
import proofs.«165809_j40355512714085_2_alg».proof.Proof.Gen.KernelIdeal
import proofs.«165809_j40355512714085_2_alg».proof.Proof.Gen.ReferenceIdeal
import proofs.«165809_j40355512714085_2_alg».proof.Proof.Gen.Pre_finite_inputs
import proofs.«165809_j40355512714085_2_alg».proof.Proof.K.Frame
import proofs.«165809_j40355512714085_2_alg».proof.Proof.KI.Frame
import proofs.«165809_j40355512714085_2_alg».proof.Proof.KI.Value
import proofs.«165809_j40355512714085_2_alg».proof.Proof.RefValue
import proofs.«165809_j40355512714085_2_alg».proof.Proof.SumAlgebra
import Idealize.ShloMosaic.Adequacy
import Idealize.ShloMosaic.Init

noncomputable section

namespace Cert.Proof

open Idealize.ShloMosaic Idealize.SL.Sem

/-- The word-level program runs to the end, faults nowhere and leaves its arguments unchanged. -/
theorem frame_k : Cert.frame_Kernel := fun m ρ _ => Cert.Kernel.Hand.frame (F := Bits) m ρ

/-- So does the idealized program. -/
theorem frame_ki : Cert.frame_KernelIdeal := fun m ρ _ => Cert.KernelIdeal.Hand.frame (F := Ideal) m ρ

/-- And the reference. -/
theorem frame_ri : Cert.frame_ReferenceIdeal := Cert.ReferenceIdeal.RefValue.frame_ri

/-- The idealization rewrote nothing. -/
theorem preserves : Cert.preserves_Kernel_KernelIdeal := trivial

/-- From memories agreeing on the arguments both programs end with the same array: the tiled accumulation of the
    arguments on one side, the plain formula of the same arguments on the other, equal by regrouping the sum. -/
theorem algebraic : Cert.algebraic_KernelIdeal_ReferenceIdeal := by
  intro m ρ m' ρ' _ hagree
  refine ⟨fun c => Cert.Vera.Gker (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Hand.value_run m ρ, ?_⟩
  refine (θ_run Cert.ReferenceIdeal.defs _ _).mono (fun _ h c => ⟨?_, (h c).2⟩) (Cert.ReferenceIdeal.RefValue.ref_run m' ρ')
  rw [(h c).1, (hagree c).1, (hagree c).2.1, (hagree c).2.2.1, (hagree c).2.2.2.1, (hagree c).2.2.2.2.1, (hagree c).2.2.2.2.2]
  exact (Cert.Vera.Gker_eq_Gref _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
